-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S128x16 : Shape := ⟨2, ![128, 16]⟩
abbrev S2x800000 : Shape := ⟨2, ![2, 800000]⟩
abbrev S50000 : Shape := ⟨1, ![50000]⟩
abbrev S800000 : Shape := ⟨1, ![800000]⟩
abbrev S16x128 : Shape := ⟨2, ![16, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S800000 : S_.BroadcastsInDim S800000 (![] : Fin 0 → Fin S800000.rank)
  reducesTo_S800000_S_d0 : S800000.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part6 {F : FTy → Type} [FloatOps F] (main_arg23 : FVec F S128x128 .f32) (main_arg24 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg23
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  main_v113

def fn_part5 {F : FTy → Type} [FloatOps F] (main_arg20 : FVec F S128 .f32) (main_arg21 : FVec F S128x128 .f32) (main_arg22 : FVec F S128 .f32) (main_arg23 : FVec F S128x128 .f32) (main_arg24 : FVec F S128 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S128 .f32) (main_arg17 : FVec F S128x128 .f32) (main_arg18 : FVec F S128 .f32) (main_arg19 : FVec F S256x128 .f32) (main_arg20 : FVec F S128 .f32) (main_arg21 : FVec F S128x128 .f32) (main_arg22 : FVec F S128 .f32) (main_arg23 : FVec F S128x128 .f32) (main_arg24 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S256x128 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S16x128 .f32) (main_arg14 : FVec F S128 .f32) (main_arg15 : FVec F S128x128 .f32) (main_arg16 : FVec F S128 .f32) (main_arg17 : FVec F S128x128 .f32) (main_arg18 : FVec F S128 .f32) (main_arg19 : FVec F S256x128 .f32) (main_arg20 : FVec F S128 .f32) (main_arg21 : FVec F S128x128 .f32) (main_arg22 : FVec F S128 .f32) (main_arg23 : FVec F S128x128 .f32) (main_arg24 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S16x128 .f32 := Host.absf main_arg13
  let main_cst_20 : FVec F S_ .f32 := constant S_ .f32 0x7F800000#32
  let main_v55 : FVec F S16x128 .f32 := broadcastInDim S16x128 ![] bcast_S_S16x128 main_cst_20
  let main_v56 : IVec S16x128 1 := cmpf .olt main_v54 main_v55
  let main_c_21 : IVec S_ 1 := constantI S_ 1 1#1
  let main_v57 : IVec S_ 1 := (fun x v => Host.reduce IntOp.andi x v reducesTo_S16x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S16x128 .f32) (main_arg14 : FVec F S128 .f32) (main_arg15 : FVec F S128x128 .f32) (main_arg16 : FVec F S128 .f32) (main_arg17 : FVec F S128x128 .f32) (main_arg18 : FVec F S128 .f32) (main_arg19 : FVec F S256x128 .f32) (main_arg20 : FVec F S128 .f32) (main_arg21 : FVec F S128x128 .f32) (main_arg22 : FVec F S128 .f32) (main_arg23 : FVec F S128x128 .f32) (main_arg24 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S16x128 .f32) (main_arg14 : FVec F S128 .f32) (main_arg15 : FVec F S128x128 .f32) (main_arg16 : FVec F S128 .f32) (main_arg17 : FVec F S128x128 .f32) (main_arg18 : FVec F S128 .f32) (main_arg19 : FVec F S256x128 .f32) (main_arg20 : FVec F S128 .f32) (main_arg21 : FVec F S128x128 .f32) (main_arg22 : FVec F S128 .f32) (main_arg23 : FVec F S128x128 .f32) (main_arg24 : FVec F S128 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x16 .f32) (main_arg1 : FVec F S128x16 .f32) (main_arg2 : IVec S2x800000 32) (main_arg3 : IVec S50000 32) (main_arg4 : FVec F S800000 .f32) (main_arg5 : FVec F S16x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S16x128 .f32) (main_arg14 : FVec F S128 .f32) (main_arg15 : FVec F S128x128 .f32) (main_arg16 : FVec F S128 .f32) (main_arg17 : FVec F S128x128 .f32) (main_arg18 : FVec F S128 .f32) (main_arg19 : FVec F S256x128 .f32) (main_arg20 : FVec F S128 .f32) (main_arg21 : FVec F S128x128 .f32) (main_arg22 : FVec F S128 .f32) (main_arg23 : FVec F S128x128 .f32) (main_arg24 : FVec F S128 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S16x128 .f32 := Host.absf main_arg5
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x16 : Shape := ⟨2, ![50000, 16]⟩
abbrev S128x16 : Shape := ⟨2, ![128, 16]⟩
abbrev S2x800000 : Shape := ⟨2, ![2, 800000]⟩
abbrev S50000 : Shape := ⟨1, ![50000]⟩
abbrev S800000 : Shape := ⟨1, ![800000]⟩
abbrev S16x128 : Shape := ⟨2, ![16, 128]⟩
abbrev S128 : Shape := ⟨1, ![128]⟩
abbrev S128x128 : Shape := ⟨2, ![128, 128]⟩
abbrev S256x128 : Shape := ⟨2, ![256, 128]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x16 : Shape := ⟨2, ![850000, 16]⟩
abbrev S1x128 : Shape := ⟨2, ![1, 128]⟩
abbrev S50000x128 : Shape := ⟨2, ![50000, 128]⟩
abbrev S5000x16 : Shape := ⟨2, ![5000, 16]⟩
abbrev S5000x128 : Shape := ⟨2, ![5000, 128]⟩
abbrev S850000x128 : Shape := ⟨2, ![850000, 128]⟩
abbrev S50000x1 : Shape := ⟨2, ![50000, 1]⟩
abbrev S128x1 : Shape := ⟨2, ![128, 1]⟩
abbrev S128x256 : Shape := ⟨2, ![128, 256]⟩

abbrev nBuf : Space → Nat
  | .hbm => 171
  | .vmem => 40
  | .smem => 0
  | _ => 0

abbrev hbmTy0_0 (i : Nat) : BufTy := match i % 128 with
  | 0 => ⟨S50000x16, .f32⟩
  | 1 => ⟨S128x16, .f32⟩
  | 2 => ⟨S2x800000, .i32⟩
  | 3 => ⟨S50000, .i32⟩
  | 4 => ⟨S800000, .f32⟩
  | 5 => ⟨S16x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S16x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S256x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S1x800000, .i32⟩
  | 26 => ⟨S800000, .i32⟩
  | 27 => ⟨S1x800000, .i32⟩
  | 28 => ⟨S800000, .i32⟩
  | 29 => ⟨S50000, .i32⟩
  | 30 => ⟨S850000, .i32⟩
  | 31 => ⟨S850000, .i32⟩
  | 32 => ⟨S_, .f32⟩
  | 33 => ⟨S50000, .f32⟩
  | 34 => ⟨S850000, .f32⟩
  | 35 => ⟨S_, .f32⟩
  | 36 => ⟨S50000, .f32⟩
  | 37 => ⟨S850000x1, .i32⟩
  | 38 => ⟨S50000, .f32⟩
  | 39 => ⟨S_, .f32⟩
  | 40 => ⟨S50000, .f32⟩
  | 41 => ⟨S50000, .i1⟩
  | 42 => ⟨S_, .f32⟩
  | 43 => ⟨S50000, .f32⟩
  | 44 => ⟨S50000, .i1⟩
  | 45 => ⟨S_, .f32⟩
  | 46 => ⟨S_, .f32⟩
  | 47 => ⟨S50000, .f32⟩
  | 48 => ⟨S50000, .f32⟩
  | 49 => ⟨S50000, .f32⟩
  | 50 => ⟨S_, .f32⟩
  | 51 => ⟨S_, .f32⟩
  | 52 => ⟨S50000, .f32⟩
  | 53 => ⟨S50000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000, .f32⟩
  | 73 => ⟨S850000, .f32⟩
  | 74 => ⟨S850000x1, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x16, .f32⟩
  | 84 => ⟨S850000x16, .f32⟩
  | 85 => ⟨S850000x16, .f32⟩
  | 86 => ⟨S_, .f32⟩
  | 87 => ⟨S50000x16, .f32⟩
  | 88 => ⟨S850000x1, .i32⟩
  | 89 => ⟨S50000x16, .f32⟩
  | 90 => ⟨S1x128, .f32⟩
  | 91 => ⟨S50000x128, .f32⟩
  | 92 => ⟨S850000x1, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000x128, .f32⟩
  | 102 => ⟨S850000x128, .f32⟩
  | 103 => ⟨S850000x128, .f32⟩
  | 104 => ⟨S_, .f32⟩
  | 105 => ⟨S50000x128, .f32⟩
  | 106 => ⟨S850000x1, .i32⟩
  | 107 => ⟨S50000x128, .f32⟩
  | 108 => ⟨S1x128, .f32⟩
  | 109 => ⟨S50000x128, .f32⟩
  | 110 => ⟨S850000x1, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x128, .f32⟩
  | 121 => ⟨S850000x128, .f32⟩
  | 122 => ⟨S_, .f32⟩
  | 123 => ⟨S50000x128, .f32⟩
  | 124 => ⟨S850000x1, .i32⟩
  | 125 => ⟨S50000x128, .f32⟩
  | 126 => ⟨S1x128, .f32⟩
  | 127 => ⟨S50000x128, .f32⟩
  | _ => ⟨S50000x16, .f32⟩

abbrev hbmTy0_1 (i : Nat) : BufTy := match i % 128 with
  | 0 => ⟨S850000x1, .f32⟩
  | 1 => ⟨S_, .i32⟩
  | 2 => ⟨S850000, .i32⟩
  | 3 => ⟨S850000, .i1⟩
  | 4 => ⟨S_, .i32⟩
  | 5 => ⟨S850000, .i32⟩
  | 6 => ⟨S850000, .i32⟩
  | 7 => ⟨S850000, .i32⟩
  | 8 => ⟨S850000x1, .i32⟩
  | 9 => ⟨S850000x128, .f32⟩
  | 10 => ⟨S850000x128, .f32⟩
  | 11 => ⟨S850000x128, .f32⟩
  | 12 => ⟨S_, .f32⟩
  | 13 => ⟨S50000x128, .f32⟩
  | 14 => ⟨S850000x1, .i32⟩
  | 15 => ⟨S50000x128, .f32⟩
  | 16 => ⟨S1x128, .f32⟩
  | 17 => ⟨S50000x128, .f32⟩
  | 18 => ⟨S_, .f32⟩
  | 19 => ⟨S128x128, .f32⟩
  | 20 => ⟨S50000x1, .i32⟩
  | 21 => ⟨S128x128, .f32⟩
  | 22 => ⟨S_, .f32⟩
  | 23 => ⟨S50000, .f32⟩
  | 24 => ⟨S_, .f32⟩
  | 25 => ⟨S128, .f32⟩
  | 26 => ⟨S50000x1, .i32⟩
  | 27 => ⟨S128, .f32⟩
  | 28 => ⟨S_, .f32⟩
  | 29 => ⟨S128, .f32⟩
  | 30 => ⟨S128, .f32⟩
  | 31 => ⟨S128x1, .f32⟩
  | 32 => ⟨S128x128, .f32⟩
  | 33 => ⟨S128x128, .f32⟩
  | 34 => ⟨S1x128, .f32⟩
  | 35 => ⟨S1x128, .f32⟩
  | 36 => ⟨S1x128, .f32⟩
  | 37 => ⟨S128x128, .f32⟩
  | 38 => ⟨S128x256, .f32⟩
  | 39 => ⟨S1x128, .f32⟩
  | 40 => ⟨S1x128, .f32⟩
  | 41 => ⟨S1x128, .f32⟩
  | 42 => ⟨S128x128, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S1x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S128x16, .f32⟩
  | .local _ .vmem, ⟨25, _⟩ => ⟨S16x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S128x256, .f32⟩
  | .local _ .vmem, ⟨33, _⟩ => ⟨S256x128, .f32⟩
  | .local _ .vmem, ⟨34, _⟩ => ⟨S1x128, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S128x128, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_v16 : Ref sig .tc := ⟨.hbm, 48, rfl⟩
abbrev main_v17 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_v18 : Ref sig .tc := ⟨.hbm, 53, rfl⟩
abbrev main_c : Ref sig .tc := ⟨.hbm, 54, rfl⟩
abbrev main_v19 : Ref sig .tc := ⟨.hbm, 55, rfl⟩
abbrev main_v20 : Ref sig .tc := ⟨.hbm, 56, rfl⟩
abbrev main_c_5 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_c_6 : Ref sig .tc := ⟨.hbm, 64, rfl⟩
abbrev main_v27 : Ref sig .tc := ⟨.hbm, 65, rfl⟩
abbrev main_v28 : Ref sig .tc := ⟨.hbm, 66, rfl⟩
abbrev main_c_7 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_c_8 : Ref sig .tc := ⟨.hbm, 75, rfl⟩
abbrev main_v36 : Ref sig .tc := ⟨.hbm, 76, rfl⟩
abbrev main_v37 : Ref sig .tc := ⟨.hbm, 77, rfl⟩
abbrev main_c_9 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_10 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_c_11 : Ref sig .tc := ⟨.hbm, 93, rfl⟩
abbrev main_v51 : Ref sig .tc := ⟨.hbm, 94, rfl⟩
abbrev main_v52 : Ref sig .tc := ⟨.hbm, 95, rfl⟩
abbrev main_c_12 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_13 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_c_14 : Ref sig .tc := ⟨.hbm, 111, rfl⟩
abbrev main_v66 : Ref sig .tc := ⟨.hbm, 112, rfl⟩
abbrev main_v67 : Ref sig .tc := ⟨.hbm, 113, rfl⟩
abbrev main_c_15 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_16 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_c_17 : Ref sig .tc := ⟨.hbm, 129, rfl⟩
abbrev main_v81 : Ref sig .tc := ⟨.hbm, 130, rfl⟩
abbrev main_v82 : Ref sig .tc := ⟨.hbm, 131, rfl⟩
abbrev main_c_18 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_19 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_20 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_21 : Ref sig .tc := ⟨.hbm, 150, rfl⟩
abbrev main_v98 : Ref sig .tc := ⟨.hbm, 151, rfl⟩
abbrev main_cst_22 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_cst_23 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg5_0 : Ref sig .tc := ⟨.vmem, 29, rfl⟩
abbrev cc4_stg6_0 : Ref sig .tc := ⟨.vmem, 30, rfl⟩
abbrev cc4_stg7_0 : Ref sig .tc := ⟨.vmem, 31, rfl⟩
abbrev cc5_stg0_0 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg6_0 : Ref sig .tc := ⟨.vmem, 38, rfl⟩
abbrev cc5_stg7_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem5_0 : DmaSem sig := 29
abbrev cc4_sem6_0 : DmaSem sig := 30
abbrev cc4_sem7_0 : DmaSem sig := 31
abbrev cc5_sem0_0 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem6_0 : DmaSem sig := 38
abbrev cc5_sem7_0 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x16 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S16x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S128x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S256x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  shapeCasts_S128_S1x128 : S128.ShapeCasts S1x128
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  bcast_S_S128x128 : S_.BroadcastsInDim S128x128 (![] : Fin 0 → Fin S128x128.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  inb_S128x16_S128x16_0_0 : ∀ a, (![0, 0] : Fin 2 → Nat) a + S128x16.size a ≤ S128x16.size a
  h_S128x16 : 0 < S128x16.numel
  broadcasts_S1x128_S128x128 : S1x128.Broadcasts S128x128
  concatenates_S128x128_S128x128_S128x256_d1 : Shape.Concatenates [S128x128, S128x128] S128x256 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x128_S256x128_0_0 : ∀ a, (![0, 0] : Fin 2 → Nat) a + S256x128.size a ≤ S256x128.size a
  h_S256x128 : 0 < S256x128.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  dot_S5000x16_S16x128_S5000x128_1_0_0_1_n_n_wf : DotDims.WF S5000x16 S16x128 S5000x128 [1] [0] [0] [1] [] []
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x16_S16x128_S128x128_1_0_0_1_n_n_wf : DotDims.WF S128x16 S16x128 S128x128 [1] [0] [0] [1] [] []
  dot_S128x128_S128x128_S128x128_1_0_0_1_n_n_wf : DotDims.WF S128x128 S128x128 S128x128 [1] [0] [0] [1] [] []
  dot_S128x256_S256x128_S128x128_1_0_0_1_n_n_wf : DotDims.WF S128x256 S256x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x16.size a ≤ S128x16.size a
  hwx4_0 : ∀ i : grid4.Coords, EltTy.bits .f32 = 32 ∨ (Rect.block (s := S128x16) S128x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x128.size a ≤ S16x128.size a
  hwx4_1 : ∀ i : grid4.Coords, EltTy.bits .f32 = 32 ∨ (Rect.block (s := S16x128) S16x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .f32 = 32 ∨ (Rect.block (s := S128x128) S128x128.size (cc4_transform_7 i) (hinb4_7 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S128x256.size a ≤ S128x256.size a
  hwx5_0 : ∀ i : grid5.Coords, EltTy.bits .f32 = 32 ∨ (Rect.block (s := S128x256) S128x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S256x128.size a
  hwx5_1 : ∀ i : grid5.Coords, EltTy.bits .f32 = 32 ∨ (Rect.block (s := S256x128) S256x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x128.size a ≤ S128x128.size a
  hwx5_7 : ∀ i : grid5.Coords, EltTy.bits .f32 = 32 ∨ (Rect.block (s := S128x128) S128x128.size (cc5_transform_7 i) (hinb5_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x16_S16x128_S128x128_1_0_0_1_n_n : DotDims S128x16 S16x128 S128x128 where
  lhsContracting := [1]
  rhsContracting := [0]
  lhsNonContracting := [0]
  rhsNonContracting := [1]
  lhsBatch := []
  rhsBatch := []
  wf := dot_S128x16_S16x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

abbrev win0_0 : Pipeline.Window sig grid0 :=
  Pipeline.Window.ofSpec (Memref.whole main_v47) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v62) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v77) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v92) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v94) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg1) S128x16.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S16x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v107) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v108) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg17) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v109) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v110) S128x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v111) S128x256.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg19) S256x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v112) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg21) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v113) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg23) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v114) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v115) S128x128.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x16 : Shape := ⟨2, ![50000, 16]⟩
abbrev S128x16 : Shape := ⟨2, ![128, 16]⟩
abbrev S2x800000 : Shape := ⟨2, ![2, 800000]⟩
abbrev S50000 : Shape := ⟨1, ![50000]⟩
abbrev S800000 : Shape := ⟨1, ![800000]⟩
abbrev S16x128 : Shape := ⟨2, ![16, 128]⟩
abbrev S128 : Shape := ⟨1, ![128]⟩
abbrev S128x128 : Shape := ⟨2, ![128, 128]⟩
abbrev S256x128 : Shape := ⟨2, ![256, 128]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x1 : Shape := ⟨2, ![50000, 1]⟩
abbrev S128x1 : Shape := ⟨2, ![128, 1]⟩
abbrev S128x256 : Shape := ⟨2, ![128, 256]⟩

abbrev nBuf : Space → Nat
  | .hbm => 222
  | .vmem => 0
  | .smem => 0
  | _ => 0

abbrev hbmTy0_0 (i : Nat) : BufTy := match i % 128 with
  | 0 => ⟨S50000x16, .f32⟩
  | 1 => ⟨S128x16, .f32⟩
  | 2 => ⟨S2x800000, .i32⟩
  | 3 => ⟨S50000, .i32⟩
  | 4 => ⟨S800000, .f32⟩
  | 5 => ⟨S16x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S16x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S256x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S1x800000, .i32⟩
  | 26 => ⟨S800000, .i32⟩
  | 27 => ⟨S1x800000, .i32⟩
  | 28 => ⟨S800000, .i32⟩
  | 29 => ⟨S50000, .i32⟩
  | 30 => ⟨S850000, .i32⟩
  | 31 => ⟨S850000, .i32⟩
  | 32 => ⟨S_, .f32⟩
  | 33 => ⟨S50000, .f32⟩
  | 34 => ⟨S850000, .f32⟩
  | 35 => ⟨S_, .f32⟩
  | 36 => ⟨S50000, .f32⟩
  | 37 => ⟨S850000x1, .i32⟩
  | 38 => ⟨S50000, .f32⟩
  | 39 => ⟨S_, .f32⟩
  | 40 => ⟨S50000, .f32⟩
  | 41 => ⟨S50000, .i1⟩
  | 42 => ⟨S_, .f32⟩
  | 43 => ⟨S50000, .f32⟩
  | 44 => ⟨S50000, .i1⟩
  | 45 => ⟨S_, .f32⟩
  | 46 => ⟨S_, .f32⟩
  | 47 => ⟨S50000, .f32⟩
  | 48 => ⟨S50000, .f32⟩
  | 49 => ⟨S50000, .f32⟩
  | 50 => ⟨S_, .f32⟩
  | 51 => ⟨S_, .f32⟩
  | 52 => ⟨S50000, .f32⟩
  | 53 => ⟨S50000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000, .f32⟩
  | 73 => ⟨S850000, .f32⟩
  | 74 => ⟨S50000x128, .f32⟩
  | 75 => ⟨S850000x1, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x128, .f32⟩
  | 85 => ⟨S850000x128, .f32⟩
  | 86 => ⟨S850000x128, .f32⟩
  | 87 => ⟨S_, .f32⟩
  | 88 => ⟨S50000x128, .f32⟩
  | 89 => ⟨S850000x1, .i32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S850000x1, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x128, .f32⟩
  | 108 => ⟨S850000x128, .f32⟩
  | 109 => ⟨S850000x128, .f32⟩
  | 110 => ⟨S_, .f32⟩
  | 111 => ⟨S50000x128, .f32⟩
  | 112 => ⟨S850000x1, .i32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S850000x1, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x16, .f32⟩

abbrev hbmTy0_1 (i : Nat) : BufTy := match i % 128 with
  | 0 => ⟨S850000, .i32⟩
  | 1 => ⟨S850000x1, .i32⟩
  | 2 => ⟨S850000x128, .f32⟩
  | 3 => ⟨S850000x128, .f32⟩
  | 4 => ⟨S850000x128, .f32⟩
  | 5 => ⟨S_, .f32⟩
  | 6 => ⟨S50000x128, .f32⟩
  | 7 => ⟨S850000x1, .i32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S50000x128, .f32⟩
  | 16 => ⟨S850000x1, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000x128, .f32⟩
  | 26 => ⟨S850000x128, .f32⟩
  | 27 => ⟨S850000x128, .f32⟩
  | 28 => ⟨S_, .f32⟩
  | 29 => ⟨S50000x128, .f32⟩
  | 30 => ⟨S850000x1, .i32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S_, .f32⟩
  | 39 => ⟨S128x128, .f32⟩
  | 40 => ⟨S50000x1, .i32⟩
  | 41 => ⟨S128x128, .f32⟩
  | 42 => ⟨S_, .f32⟩
  | 43 => ⟨S50000, .f32⟩
  | 44 => ⟨S_, .f32⟩
  | 45 => ⟨S128, .f32⟩
  | 46 => ⟨S50000x1, .i32⟩
  | 47 => ⟨S128, .f32⟩
  | 48 => ⟨S_, .f32⟩
  | 49 => ⟨S128, .f32⟩
  | 50 => ⟨S128, .f32⟩
  | 51 => ⟨S128x1, .f32⟩
  | 52 => ⟨S128x128, .f32⟩
  | 53 => ⟨S128x128, .f32⟩
  | 54 => ⟨S128x128, .f32⟩
  | 55 => ⟨S1x128, .f32⟩
  | 56 => ⟨S128x128, .f32⟩
  | 57 => ⟨S128x128, .f32⟩
  | 58 => ⟨S_, .f32⟩
  | 59 => ⟨S128x128, .f32⟩
  | 60 => ⟨S128x128, .f32⟩
  | 61 => ⟨S128x128, .f32⟩
  | 62 => ⟨S1x128, .f32⟩
  | 63 => ⟨S128x128, .f32⟩
  | 64 => ⟨S128x128, .f32⟩
  | 65 => ⟨S_, .f32⟩
  | 66 => ⟨S128x128, .f32⟩
  | 67 => ⟨S128x128, .f32⟩
  | 68 => ⟨S128x128, .f32⟩
  | 69 => ⟨S1x128, .f32⟩
  | 70 => ⟨S128x128, .f32⟩
  | 71 => ⟨S128x128, .f32⟩
  | 72 => ⟨S_, .f32⟩
  | 73 => ⟨S128x128, .f32⟩
  | 74 => ⟨S128x128, .f32⟩
  | 75 => ⟨S128x256, .f32⟩
  | 76 => ⟨S128x128, .f32⟩
  | 77 => ⟨S1x128, .f32⟩
  | 78 => ⟨S128x128, .f32⟩
  | 79 => ⟨S128x128, .f32⟩
  | 80 => ⟨S_, .f32⟩
  | 81 => ⟨S128x128, .f32⟩
  | 82 => ⟨S128x128, .f32⟩
  | 83 => ⟨S128x128, .f32⟩
  | 84 => ⟨S1x128, .f32⟩
  | 85 => ⟨S128x128, .f32⟩
  | 86 => ⟨S128x128, .f32⟩
  | 87 => ⟨S_, .f32⟩
  | 88 => ⟨S128x128, .f32⟩
  | 89 => ⟨S128x128, .f32⟩
  | 90 => ⟨S128x128, .f32⟩
  | 91 => ⟨S1x128, .f32⟩
  | 92 => ⟨S128x128, .f32⟩
  | 93 => ⟨S128x128, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_v16 : Ref sig .tc := ⟨.hbm, 48, rfl⟩
abbrev main_v17 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_v18 : Ref sig .tc := ⟨.hbm, 53, rfl⟩
abbrev main_c : Ref sig .tc := ⟨.hbm, 54, rfl⟩
abbrev main_v19 : Ref sig .tc := ⟨.hbm, 55, rfl⟩
abbrev main_v20 : Ref sig .tc := ⟨.hbm, 56, rfl⟩
abbrev main_c_5 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_c_6 : Ref sig .tc := ⟨.hbm, 64, rfl⟩
abbrev main_v27 : Ref sig .tc := ⟨.hbm, 65, rfl⟩
abbrev main_v28 : Ref sig .tc := ⟨.hbm, 66, rfl⟩
abbrev main_c_7 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_c_8 : Ref sig .tc := ⟨.hbm, 76, rfl⟩
abbrev main_v37 : Ref sig .tc := ⟨.hbm, 77, rfl⟩
abbrev main_v38 : Ref sig .tc := ⟨.hbm, 78, rfl⟩
abbrev main_c_9 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_10 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_call2_cst : Ref sig .tc := ⟨.hbm, 94, rfl⟩
abbrev main_call2_v0 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_c_11 : Ref sig .tc := ⟨.hbm, 99, rfl⟩
abbrev main_v55 : Ref sig .tc := ⟨.hbm, 100, rfl⟩
abbrev main_v56 : Ref sig .tc := ⟨.hbm, 101, rfl⟩
abbrev main_c_12 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_13 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_call3_cst : Ref sig .tc := ⟨.hbm, 117, rfl⟩
abbrev main_call3_v0 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_c_14 : Ref sig .tc := ⟨.hbm, 122, rfl⟩
abbrev main_v73 : Ref sig .tc := ⟨.hbm, 123, rfl⟩
abbrev main_v74 : Ref sig .tc := ⟨.hbm, 124, rfl⟩
abbrev main_c_15 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_16 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_call4_cst : Ref sig .tc := ⟨.hbm, 140, rfl⟩
abbrev main_call4_v0 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_c_17 : Ref sig .tc := ⟨.hbm, 145, rfl⟩
abbrev main_v91 : Ref sig .tc := ⟨.hbm, 146, rfl⟩
abbrev main_v92 : Ref sig .tc := ⟨.hbm, 147, rfl⟩
abbrev main_c_18 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_cst_19 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_call5_cst : Ref sig .tc := ⟨.hbm, 163, rfl⟩
abbrev main_call5_v0 : Ref sig .tc := ⟨.hbm, 164, rfl⟩
abbrev main_v106 : Ref sig .tc := ⟨.hbm, 165, rfl⟩
abbrev main_cst_20 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_cst_21 : Ref sig .tc := ⟨.hbm, 170, rfl⟩
abbrev main_v110 : Ref sig .tc := ⟨.hbm, 171, rfl⟩
abbrev main_cst_22 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_23 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_call6_cst : Ref sig .tc := ⟨.hbm, 186, rfl⟩
abbrev main_call6_v0 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_call7_cst : Ref sig .tc := ⟨.hbm, 193, rfl⟩
abbrev main_call7_v0 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_call8_cst : Ref sig .tc := ⟨.hbm, 200, rfl⟩
abbrev main_call8_v0 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_call9_cst : Ref sig .tc := ⟨.hbm, 208, rfl⟩
abbrev main_call9_v0 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_call10_cst : Ref sig .tc := ⟨.hbm, 215, rfl⟩
abbrev main_call10_v0 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  concatenates_S128x128_S128x128_S128x256_d1 : Shape.Concatenates [S128x128, S128x128] S128x256 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x16_S16x128_S50000x128_1_0_0_1_n_n_wf : DotDims.WF S50000x16 S16x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x16_S16x128_S128x128_1_0_0_1_n_n_wf : DotDims.WF S128x16 S16x128 S128x128 [1] [0] [0] [1] [] []
  dot_S128x128_S128x128_S128x128_1_0_0_1_n_n_wf : DotDims.WF S128x128 S128x128 S128x128 [1] [0] [0] [1] [] []
  dot_S128x256_S256x128_S128x128_1_0_0_1_n_n_wf : DotDims.WF S128x256 S256x128 S128x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x16_S16x128_S128x128_1_0_0_1_n_n : DotDims S128x16 S16x128 S128x128 where
  lhsContracting := [1]
  rhsContracting := [0]
  lhsNonContracting := [0]
  rhsNonContracting := [1]
  lhsBatch := []
  rhsBatch := []
  wf := dot_S128x16_S16x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

class Facts : Prop extends Facts₀ where

variable [Facts]
-- ==== Proof.KernelRun.lean ====
/-
  The idealized kernel's run with its result named.

  Every weakly fair execution of the kernel's program from a memory with zero counters terminates without a fault;
  at the end each argument array is what it was at launch and the result array holds what the sixth region's
  write-backs leave, read off the fold of the buffer contents through the program's sixteen segments (five
  stretches of host operations, then region and stretch alternately, the last region last).
-/
import proofs.«101641_j12704513261988_2_alg».proof.Proof.Gen.KernelIdeal.Frame

set_option maxRecDepth 16384

noncomputable section

namespace Cert.KernelIdeal.Valued

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without a fault, the result array at the last boundary's contents, the arguments as
    launched. -/
theorem run_valued : θ_run defs (onTc (τ := τ) (main (F := F))) ⟨m, fun _ => 0, ρ⟩ (fun r => ∀ c : Dev nD,
      r.2.mem ((c.tc : Thread nD τ).loc main_v115) = W16 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v115 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c),
       (h c _ (mem_uc main_arg19 (by decide))).trans (W16_main_arg19 m ρ c),
       (h c _ (mem_uc main_arg20 (by decide))).trans (W16_main_arg20 m ρ c),
       (h c _ (mem_uc main_arg21 (by decide))).trans (W16_main_arg21 m ρ c),
       (h c _ (mem_uc main_arg22 (by decide))).trans (W16_main_arg22 m ρ c),
       (h c _ (mem_uc main_arg23 (by decide))).trans (W16_main_arg23 m ρ c),
       (h c _ (mem_uc main_arg24 (by decide))).trans (W16_main_arg24 m ρ c)⟩)

end Cert.KernelIdeal.Valued

end
-- ==== Proof.HostChain.lean ====
/-
  The host-side building blocks both programs share, each named as one function of its operands.

  A graph-convolution layer's aggregation takes the per-edge weights `n` (one per edge and self-loop), the source
  and destination node words of the edges, and a node table `h`; it gathers row `src e` of the table for every
  edge (a negative word first moved up by the node count, then clamped), scales it by `n e`, and adds it into
  row `dst e` of a zero table (an edge whose destination word is outside the table is dropped). The reference
  runs it at width 128 in every layer; the kernel runs the first layer at width 16, on the raw features, and
  the later ones at width 128. Around it a layer adds a bias row to every row, clamps at zero from below, and
  multiplies by a weight matrix. Naming these once lets the two programs be compared layer by layer without
  opening an aggregation that both apply to equal operands.
-/
import proofs.«101641_j12704513261988_2_alg».proof.Proof.Gen.KernelIdeal
import proofs.«101641_j12704513261988_2_alg».proof.Proof.Gen.ReferenceIdeal

noncomputable section

namespace Cert.Bridge

open Idealize.ShloMosaic

variable {F : FTy → Type} [FloatOps F]

/-- The edges' node words with the negative ones moved up by the node count, laid out as a column. -/
def wrapCol (s : IVec Cert.ReferenceIdeal.S850000 32) : IVec Cert.ReferenceIdeal.S850000x1 32 :=
  broadcastInDim Cert.ReferenceIdeal.S850000x1 ![0] Cert.ReferenceIdeal.Gen.bcast_S850000_S850000x1_0
    (select
      (cmpi .slt s (broadcastInDim Cert.ReferenceIdeal.S850000 ![] Cert.ReferenceIdeal.Gen.bcast_S_S850000 (constantI Cert.ReferenceIdeal.S_ 32 0#32)))
      (addi s (broadcastInDim Cert.ReferenceIdeal.S850000 ![] Cert.ReferenceIdeal.Gen.bcast_S_S850000 (constantI Cert.ReferenceIdeal.S_ 32 50000#32)))
      s)

/-- A layer's aggregation at width 128: row `i` of the result is the sum over the edges into node `i` of the
    edge's weight times the source node's row of `h`. -/
def agg128 (n : FVec F Cert.ReferenceIdeal.S850000 .f32) (src dst : IVec Cert.ReferenceIdeal.S850000 32)
    (h : FVec F Cert.ReferenceIdeal.S50000x128 .f32) : FVec F Cert.ReferenceIdeal.S50000x128 .f32 :=
  Host.scatterAdd Cert.ReferenceIdeal.scatter_S50000x128_S850000x1_S850000x128_1_0_0_1
    (broadcastInDim Cert.ReferenceIdeal.S50000x128 ![] Cert.ReferenceIdeal.Gen.bcast_S_S50000x128 (constant Cert.ReferenceIdeal.S_ .f32 0x00000000#32))
    (broadcastInDim Cert.ReferenceIdeal.S850000x1 ![0] Cert.ReferenceIdeal.Gen.bcast_S850000_S850000x1_0 dst)
    (mulf
      (broadcastInDim Cert.ReferenceIdeal.S850000x128 ![0, 1] Cert.ReferenceIdeal.Gen.bcast_S850000x1_S850000x128_0_1
        (broadcastInDim Cert.ReferenceIdeal.S850000x1 ![0] Cert.ReferenceIdeal.Gen.bcast_S850000_S850000x1_0 n))
      (Host.gather Cert.ReferenceIdeal.gather_S50000x128_S850000x1_S850000x128_1_0_n_n_0_1_1128 h (wrapCol src)))

/-- The kernel's first-layer aggregation at width 16, on the raw node features. -/
def agg16 (n : FVec F Cert.KernelIdeal.S850000 .f32) (src dst : IVec Cert.KernelIdeal.S850000 32)
    (x : FVec F Cert.KernelIdeal.S50000x16 .f32) : FVec F Cert.KernelIdeal.S50000x16 .f32 :=
  Host.scatterAdd Cert.KernelIdeal.scatter_S50000x16_S850000x1_S850000x16_1_0_0_1
    (broadcastInDim Cert.KernelIdeal.S50000x16 ![] Cert.KernelIdeal.Gen.bcast_S_S50000x16 (constant Cert.KernelIdeal.S_ .f32 0x00000000#32))
    (broadcastInDim Cert.KernelIdeal.S850000x1 ![0] Cert.KernelIdeal.Gen.bcast_S850000_S850000x1_0 dst)
    (mulf
      (broadcastInDim Cert.KernelIdeal.S850000x16 ![0, 1] Cert.KernelIdeal.Gen.bcast_S850000x1_S850000x16_0_1
        (broadcastInDim Cert.KernelIdeal.S850000x1 ![0] Cert.KernelIdeal.Gen.bcast_S850000_S850000x1_0 n))
      (Host.gather Cert.KernelIdeal.gather_S50000x16_S850000x1_S850000x16_1_0_n_n_0_1_116 x (wrapCol src)))

/-- A node table plus a bias row on every row, clamped at zero from below. -/
def biasRelu (s : FVec F Cert.ReferenceIdeal.S50000x128 .f32) (b : FVec F Cert.ReferenceIdeal.S1x128 .f32) :
    FVec F Cert.ReferenceIdeal.S50000x128 .f32 :=
  maximumf
    (addf s (broadcastInDim Cert.ReferenceIdeal.S50000x128 ![0, 1] Cert.ReferenceIdeal.Gen.bcast_S1x128_S50000x128_0_1 b))
    (broadcastInDim Cert.ReferenceIdeal.S50000x128 ![] Cert.ReferenceIdeal.Gen.bcast_S_S50000x128 (constant Cert.ReferenceIdeal.S_ .f32 0x00000000#32))

/-- The same for a per-graph table of 128 rows. -/
def biasReluG (s : FVec F Cert.ReferenceIdeal.S128x128 .f32) (b : FVec F Cert.ReferenceIdeal.S1x128 .f32) :
    FVec F Cert.ReferenceIdeal.S128x128 .f32 :=
  maximumf
    (addf s (broadcastInDim Cert.ReferenceIdeal.S128x128 ![0, 1] Cert.ReferenceIdeal.Gen.bcast_S1x128_S128x128_0_1 b))
    (broadcastInDim Cert.ReferenceIdeal.S128x128 ![] Cert.ReferenceIdeal.Gen.bcast_S_S128x128 (constant Cert.ReferenceIdeal.S_ .f32 0x00000000#32))

/-- A node table times a 128 × 128 weight matrix. -/
def times128 (h : FVec F Cert.ReferenceIdeal.S50000x128 .f32) (w : FVec F Cert.ReferenceIdeal.S128x128 .f32) :
    FVec F Cert.ReferenceIdeal.S50000x128 .f32 :=
  Host.dotGeneral Cert.ReferenceIdeal.dot_S50000x128_S128x128_S50000x128_1_0_0_1_n_n none h w

/-- The raw node features times the first layer's 16 × 128 weight matrix. -/
def times16 (x : FVec F Cert.ReferenceIdeal.S50000x16 .f32) (w : FVec F Cert.ReferenceIdeal.S16x128 .f32) :
    FVec F Cert.ReferenceIdeal.S50000x128 .f32 :=
  Host.dotGeneral Cert.ReferenceIdeal.dot_S50000x16_S16x128_S50000x128_1_0_0_1_n_n none x w

/-- A per-graph table times a 128 × 128 weight matrix. -/
def timesG (h : FVec F Cert.ReferenceIdeal.S128x128 .f32) (w : FVec F Cert.ReferenceIdeal.S128x128 .f32) :
    FVec F Cert.ReferenceIdeal.S128x128 .f32 :=
  Host.dotGeneral Cert.ReferenceIdeal.dot_S128x128_S128x128_S128x128_1_0_0_1_n_n none h w

/-- The per-graph context features times their 16 × 128 weight matrix. -/
def timesG16 (x : FVec F Cert.ReferenceIdeal.S128x16 .f32) (w : FVec F Cert.ReferenceIdeal.S16x128 .f32) :
    FVec F Cert.ReferenceIdeal.S128x128 .f32 :=
  Host.dotGeneral Cert.ReferenceIdeal.dot_S128x16_S16x128_S128x128_1_0_0_1_n_n none x w

/-- The concatenated per-graph table (pooled nodes beside context) times its 256 × 128 weight matrix. -/
def timesG256 (z : FVec F Cert.ReferenceIdeal.S128x256 .f32) (w : FVec F Cert.ReferenceIdeal.S256x128 .f32) :
    FVec F Cert.ReferenceIdeal.S128x128 .f32 :=
  Host.dotGeneral Cert.ReferenceIdeal.dot_S128x256_S256x128_S128x128_1_0_0_1_n_n none z w

/-- A per-graph table plus a bias row on every row (the last layer: no clamp). -/
def biasG (s : FVec F Cert.ReferenceIdeal.S128x128 .f32) (b : FVec F Cert.ReferenceIdeal.S1x128 .f32) :
    FVec F Cert.ReferenceIdeal.S128x128 .f32 :=
  addf s (broadcastInDim Cert.ReferenceIdeal.S128x128 ![0, 1] Cert.ReferenceIdeal.Gen.bcast_S1x128_S128x128_0_1 b)

/-! ## The graph's structure and the per-edge weights -/

section Structure

open Cert.ReferenceIdeal Cert.ReferenceIdeal.Gen

/-- The source node word of every edge, then of every node's self-loop (the node itself). -/
def srcF (ei : IVec S2x800000 32) : IVec S850000 32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The destination node word of every edge, then of every self-loop. -/
def dstF (ei : IVec S2x800000 32) : IVec S850000 32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- The edge weights, then weight one for every self-loop. -/
def ewF (ew : FVec F S800000 .f32) : FVec F S850000 .f32 :=
  concatenate S850000 0 [⟨S800000, ew⟩, ⟨S50000, (broadcastInDim S50000 ![] bcast_S_S50000 (constant S_ .f32 0x3F800000#32))⟩] concatenates_S800000_S50000_S850000_d0

/-- A node's weighted in-degree: the sum of the weights of the edges (and the self-loop) into it. -/
def deg (ei : IVec S2x800000 32) (ew : FVec F S800000 .f32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 (dstF ei)) (ewF ew)

/-- The reciprocal square root of a positive degree, zero for a degree that is not positive. -/
def dinv (ei : IVec S2x800000 32) (ew : FVec F S800000 .f32) : FVec F S50000 .f32 :=
  select (cmpf .ogt (deg ei ew) (broadcastInDim S50000 ![] bcast_S_S50000 (constant S_ .f32 0x00000000#32)))
    (Host.rsqrt (select (cmpf .ogt (deg ei ew) (broadcastInDim S50000 ![] bcast_S_S50000 (constant S_ .f32 0x00000000#32)))
      (deg ei ew) (broadcastInDim S50000 ![] bcast_S_S50000 (id (constant S_ .f32 0x3F800000#32)))))
    (broadcastInDim S50000 ![] bcast_S_S50000 (id (constant S_ .f32 0x00000000#32)))

/-- The symmetric normalisation: an edge's weight times the reciprocal square roots of its two ends' degrees. -/
def norm (ei : IVec S2x800000 32) (ew : FVec F S800000 .f32) : FVec F S850000 .f32 :=
  mulf (mulf (Host.gather gather_S50000_S850000x1_S850000_n_0_n_n_0_1_1 (dinv ei ew) (wrapCol (srcF ei))) (ewF ew))
    (Host.gather gather_S50000_S850000x1_S850000_n_0_n_n_0_1_1 (dinv ei ew) (wrapCol (dstF ei)))

/-- The mean of the node rows of each graph: the rows summed per graph word, divided by the larger of the
    graph's node count and one. -/
def pool (batch : IVec S50000 32) (h : FVec F S50000x128 .f32) : FVec F S128x128 .f32 :=
  Host.divf
    (Host.scatterAdd scatter_S128x128_S50000x1_S50000x128_1_0_0_1
      (broadcastInDim S128x128 ![] bcast_S_S128x128 (constant S_ .f32 0x00000000#32))
      (broadcastInDim S50000x1 ![0] bcast_S50000_S50000x1_0 batch) h)
    (broadcastInDim S128x128 ![0, 1] bcast_S128x1_S128x128_0_1
      (broadcastInDim S128x1 ![0] bcast_S128_S128x1_0
        (maximumf
          (Host.scatterAdd scatter_S128_S50000x1_S50000_n_0_0_1
            (broadcastInDim S128 ![] bcast_S_S128 (constant S_ .f32 0x00000000#32))
            (broadcastInDim S50000x1 ![0] bcast_S50000_S50000x1_0 batch)
            (broadcastInDim S50000 ![] bcast_S_S50000 (constant S_ .f32 0x3F800000#32)))
          (broadcastInDim S128 ![] bcast_S_S128 (constant S_ .f32 0x3F800000#32)))))

/-- The pooled node table beside the context table, graph by graph. -/
def catG (g c : FVec F S128x128 .f32) : FVec F S128x256 .f32 :=
  concatenate S128x256 1 [⟨S128x128, g⟩, ⟨S128x128, c⟩] concatenates_S128x128_S128x128_S128x256_d1

/-- A bias vector as one row, by broadcasting along the row axis (the reference's spelling). -/
def rowOf (b : FVec F S128 .f32) : FVec F S1x128 .f32 := broadcastInDim S1x128 ![1] bcast_S128_S1x128_1 b

end Structure

/-- A bias vector as one row, by reshaping (the kernel's spelling). -/
def rowCast (b : FVec F Cert.KernelIdeal.S128 .f32) : FVec F Cert.KernelIdeal.S1x128 .f32 :=
  shapeCast _ b Cert.KernelIdeal.Gen.shapeCasts_S128_S1x128

/-! ## The two networks, whole -/

section Networks

open Cert.ReferenceIdeal

variable (x0 : FVec F S50000x16 .f32) (x1 : FVec F S128x16 .f32) (x2 : IVec S2x800000 32) (x3 : IVec S50000 32)
  (x4 : FVec F S800000 .f32) (x5 : FVec F S16x128 .f32) (x6 : FVec F S128 .f32) (x7 : FVec F S128x128 .f32)
  (x8 : FVec F S128 .f32) (x9 : FVec F S128x128 .f32) (x10 : FVec F S128 .f32) (x11 : FVec F S128x128 .f32)
  (x12 : FVec F S128 .f32) (x13 : FVec F S16x128 .f32) (x14 : FVec F S128 .f32) (x15 : FVec F S128x128 .f32)
  (x16 : FVec F S128 .f32) (x17 : FVec F S128x128 .f32) (x18 : FVec F S128 .f32) (x19 : FVec F S256x128 .f32)
  (x20 : FVec F S128 .f32) (x21 : FVec F S128x128 .f32) (x22 : FVec F S128 .f32) (x23 : FVec F S128x128 .f32)
  (x24 : FVec F S128 .f32)

/-- The context features through their three clamped layers. -/
def ctx (row : FVec F S128 .f32 → FVec F S1x128 .f32) : FVec F S128x128 .f32 :=
  biasReluG (timesG (biasReluG (timesG (biasReluG (timesG16 x1 x13) (row x14)) x15) (row x16)) x17) (row x18)

/-- The output layers on the concatenated table: two clamped layers and a last one without a clamp. -/
def head (row : FVec F S128 .f32 → FVec F S1x128 .f32) (z : FVec F S128x256 .f32) : FVec F S128x128 .f32 :=
  biasG (timesG (biasReluG (timesG (biasReluG (timesG256 z x19) (row x20)) x21) (row x22)) x23) (row x24)

/-- The graph-convolution layers after the first: from the first layer's product `hw1` to the last hidden table. -/
def convTail (row : FVec F S128 .f32 → FVec F S1x128 .f32) (hw1 : FVec F S50000x128 .f32) : FVec F S50000x128 .f32 :=
  biasRelu (agg128 (norm x2 x4) (srcF x2) (dstF x2)
    (times128 (biasRelu (agg128 (norm x2 x4) (srcF x2) (dstF x2)
      (times128 (biasRelu (agg128 (norm x2 x4) (srcF x2) (dstF x2) hw1) (row x8)) x9)) (row x10)) x11)) (row x12)

/-- The reference network: the first layer transforms every node's features and then aggregates. -/
def refOut : FVec F S128x128 .f32 :=
  head x19 x20 x21 x22 x23 x24 rowOf
    (catG (pool x3 (convTail x2 x4 x8 x9 x10 x11 x12 rowOf
        (times128 (biasRelu (agg128 (norm x2 x4) (srcF x2) (dstF x2) (times16 x0 x5)) (rowOf x6)) x7)))
      (ctx x1 x13 x14 x15 x16 x17 x18 rowOf))

/-- The kernel's network: the first layer aggregates the raw features and then transforms. -/
def kerOut : FVec F S128x128 .f32 :=
  head x19 x20 x21 x22 x23 x24 rowCast
    (catG (pool x3 (convTail x2 x4 x8 x9 x10 x11 x12 rowCast
        (times128 (biasRelu (times16 (agg16 (norm x2 x4) (srcF x2) (dstF x2) x0) x5) (rowCast x6)) x7)))
      (ctx x1 x13 x14 x15 x16 x17 x18 rowCast))

end Networks

end Cert.Bridge

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.RegionFirst.lean ====
/-
  The first layer's region, read as one whole-array function of the arrays it finds.

  The region's body takes a block of 5000 rows of the aggregated 16-wide node features, multiplies it by the
  16 × 128 weight matrix, adds the one bias row to every row, clamps at zero from below, and multiplies by the next
  layer's 128 × 128 weight matrix. At the ideal values a change of float format is the identity and a matrix product
  into the zero accumulator is the plain sum of products, so the block's element at row p and column q is

      Σ_k max ((Σ_l a(p, l) · w0(l, k)) + b(0, k)) z · w1(k, q),        z the value of the zero word.

  The host's chain "features times the first matrix, plus the bias row on every row, clamped at zero, times the
  second matrix" has the same element at every row n and column q of the whole 50000-row table. The ten grid points
  write back the ten blocks of 5000 rows, block t holding rows 5000·t … 5000·t + 4999, the weight matrices and the
  bias row being read whole at every point; the blocks tile the table, so after the region the output array is the
  host's chain applied to the arrays as the region found them.
-/
import proofs.«101641_j12704513261988_2_alg».proof.Proof.Gen.KernelIdeal.Frame
import proofs.«101641_j12704513261988_2_alg».proof.Proof.Gen.ReferenceIdeal
import proofs.«101641_j12704513261988_2_alg».proof.Proof.HostChain
import proofs.«101641_j12704513261988_2_alg».proof.Proof.LibMatmul
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

open scoped BigOperators

noncomputable section

namespace Cert.Bridge.First

open Idealize.ShloMosaic Idealize.ShloMosaic.TcCoe Idealize.SL.Sem Cert.KernelIdeal Cert.KernelIdeal.Gen Cert.Bridge
open Idealize.ShloMosaic.ValueIdx

/-! ## The layer at an element -/

/-- Row p, column q of "a times w0, plus the bias row b, clamped at the zero word's value, times w1", for a table
    a of M rows of 16 features. -/
def layerAt {M : Nat} (a : (⟨2, ![M, 16]⟩ : Shape).Idx → EReal) (w0 : (⟨2, ![16, 128]⟩ : Shape).Idx → EReal)
    (b : (⟨2, ![1, 128]⟩ : Shape).Idx → EReal) (w1 : (⟨2, ![128, 128]⟩ : Shape).Idx → EReal)
    (p : Fin M) (q : Fin 128) : EReal :=
  ∑ k : Fin 128, max ((∑ l : Fin 16, a (ix2 p l) * w0 (ix2 l k)) + b (ix2 (0 : Fin 1) k))
      (Ideal.ofBits .f32 0x00000000#32) * w1 (ix2 k q)

/-- The element depends on the table only through row p, on the matrices through their entries and on the bias
    through its one row: operands that agree there give the same element. -/
theorem layerAt_congr {M M' : Nat} (a : (⟨2, ![M, 16]⟩ : Shape).Idx → EReal) (a' : (⟨2, ![M', 16]⟩ : Shape).Idx → EReal)
    (w0 w0' : (⟨2, ![16, 128]⟩ : Shape).Idx → EReal) (b b' : (⟨2, ![1, 128]⟩ : Shape).Idx → EReal)
    (w1 w1' : (⟨2, ![128, 128]⟩ : Shape).Idx → EReal) (p : Fin M) (p' : Fin M') (q : Fin 128)
    (ha : ∀ l : Fin 16, a (ix2 p l) = a' (ix2 p' l))
    (h0 : ∀ (l : Fin 16) (k : Fin 128), w0 (ix2 l k) = w0' (ix2 l k))
    (hb : ∀ k : Fin 128, b (ix2 (0 : Fin 1) k) = b' (ix2 (0 : Fin 1) k))
    (h1 : ∀ k : Fin 128, w1 (ix2 k q) = w1' (ix2 k q)) :
    layerAt a w0 b w1 p q = layerAt a' w0' b' w1' p' q := by
  unfold layerAt
  refine Finset.sum_congr rfl fun k _ => ?_
  have hs : (∑ l : Fin 16, a (ix2 p l) * w0 (ix2 l k)) = ∑ l : Fin 16, a' (ix2 p' l) * w0' (ix2 l k) :=
    Finset.sum_congr rfl fun l _ => by rw [ha l, h0 l k]
  rw [hs, hb k, h1 k]

/-! ## The two matrix products of the body, and of the host's chain, at an element -/

/-- The body's first product, a block of 5000 rows of 16 features by the 16 × 128 matrix into the zero accumulator. -/
theorem bodyProduct16_apply {φ₁ φ₂ : FTy} (l : FVec Ideal S5000x16 φ₁) (r : FVec Ideal S16x128 φ₂) (p : Fin 5000) (q : Fin 128) :
    matmul (F := Ideal) dot_S5000x16_S16x128_S5000x128_1_0_0_1_n_n none l r (constant S5000x128 .f32 0x00000000#32) (ix2 p q)
      = ∑ k : Fin 16, l (ix2 p k) * r (ix2 k q) :=
  Cert.MatOps.matmul_plain_zero_apply (M := 5000) (K := 16) (N := 128) none l r p q

/-- The body's second product, a block of 5000 rows of 128 by the 128 × 128 matrix into the zero accumulator. -/
theorem bodyProduct128_apply {φ₁ φ₂ : FTy} (l : FVec Ideal S5000x128 φ₁) (r : FVec Ideal S128x128 φ₂) (p : Fin 5000) (q : Fin 128) :
    matmul (F := Ideal) dot_S5000x128_S128x128_S5000x128_1_0_0_1_n_n none l r (constant S5000x128 .f32 0x00000000#32) (ix2 p q)
      = ∑ k : Fin 128, l (ix2 p k) * r (ix2 k q) :=
  Cert.MatOps.matmul_plain_zero_apply (M := 5000) (K := 128) (N := 128) none l r p q

/-- The host's product of the whole 50000-row feature table by the 16 × 128 matrix. -/
theorem times16_apply (x : FVec Ideal Cert.ReferenceIdeal.S50000x16 .f32) (w : FVec Ideal Cert.ReferenceIdeal.S16x128 .f32)
    (n : Fin 50000) (q : Fin 128) :
    times16 (F := Ideal) x w (ix2 n q) = ∑ k : Fin 16, x (ix2 n k) * w (ix2 k q) :=
  Cert.MatOps.dotGeneral_plain_apply (M := 50000) (K := 16) (N := 128) none x w n q

/-- The host's product of a whole 50000-row table of 128 by the 128 × 128 matrix. -/
theorem times128_apply (h : FVec Ideal Cert.ReferenceIdeal.S50000x128 .f32) (w : FVec Ideal Cert.ReferenceIdeal.S128x128 .f32)
    (n : Fin 50000) (q : Fin 128) :
    times128 (F := Ideal) h w (ix2 n q) = ∑ k : Fin 128, h (ix2 n k) * w (ix2 k q) :=
  Cert.MatOps.dotGeneral_plain_apply (M := 50000) (K := 128) (N := 128) none h w n q

/-! ## The body's arithmetic and the host's chain at an element -/

/-- The body's result at row p, column q of its block: the changes of float format are the identity, both products
    go into the zero accumulator, the bias row is broadcast over the rows, and the clamp is against the zero word. -/
theorem body_apply (x0 : Vec Ideal S5000x16 .f32) (x1 : Vec Ideal S16x128 .f32) (x2 : Vec Ideal S1x128 .f32)
    (x3 : Vec Ideal S128x128 .f32) (p : Fin 5000) (q : Fin 128) :
    k0_pay1 (F := Ideal) x0 x1 x2 x3 (ix2 p q) = layerAt (M := 5000) x0 x1 x2 x3 p q := by
  unfold k0_pay1
  refine (bodyProduct128_apply _ _ p q).trans ?_
  unfold layerAt
  refine Finset.sum_congr rfl fun k _ => ?_
  refine congrArg₂ (· * ·) ?_ (truncf_apply (φ := .f32) (ψ := .bf16) x3 bitsLt_bf16_f32 (ix2 k q))
  refine (truncf_apply (φ := .f32) (ψ := .bf16) _ bitsLt_bf16_f32 (ix2 p k)).trans ((maximumf_apply _ _ (ix2 p k)).trans ?_)
  refine congrArg₂ max ((addf_apply _ _ (ix2 p k)).trans (congrArg₂ (· + ·) ?_ ?_)) rfl
  · refine (bodyProduct16_apply _ _ p k).trans (Finset.sum_congr rfl fun l _ => ?_)
    exact congrArg₂ (· * ·)
      ((truncf_apply (φ := .f32) (ψ := .bf16) (shapeCast S5000x16 x0 shapeCasts_S5000x16_S5000x16) bitsLt_bf16_f32 (ix2 p l)).trans
        (congrFun (shapeCast_self x0 _) (ix2 p l)))
      (truncf_apply (φ := .f32) (ψ := .bf16) x1 bitsLt_bf16_f32 (ix2 l k))
  · exact (broadcastTo_1b_ab_apply (a := 5000) (b := 128) _ _ p k).trans
      (congrFun (shapeCast_self x2 _) (ix2 (0 : Fin 1) k))

/-- The host's chain at row n, column q of the whole table. -/
theorem chain_apply (a : FVec Ideal Cert.ReferenceIdeal.S50000x16 .f32) (w0 : FVec Ideal Cert.ReferenceIdeal.S16x128 .f32)
    (b : FVec Ideal Cert.ReferenceIdeal.S1x128 .f32) (w1 : FVec Ideal Cert.ReferenceIdeal.S128x128 .f32)
    (n : Fin 50000) (q : Fin 128) :
    times128 (F := Ideal) (biasRelu (times16 a w0) b) w1 (ix2 n q) = layerAt (M := 50000) a w0 b w1 n q := by
  refine (times128_apply _ _ n q).trans ?_
  unfold layerAt
  refine Finset.sum_congr rfl fun k _ => congrArg (· * w1 (ix2 k q)) ?_
  unfold biasRelu
  refine (maximumf_apply _ _ (ix2 n k)).trans ?_
  refine congrArg₂ max ((addf_apply _ _ (ix2 n k)).trans (congrArg₂ (· + ·) (times16_apply a w0 n k) ?_)) ?_
  · refine broadcastInDim_apply ![0, 1] _ b (ix2 n k) (ix2 (0 : Fin 1) k) fun ax => ?_
    match ax with
    | ⟨0, _⟩ => rfl
    | ⟨1, _⟩ => rfl
  · exact (broadcastInDim_scalar_apply _ _ (ix2 n k)).trans (constant_apply _ _)

/-! ## From the blocks to the array -/

variable (V : (c : Dev nD) → (b : Ref sig .tc) → Buf (Elt Ideal) ((c : Thread nD τ).loc b)) (c : Dev nD)

theorem zeroOffsets : (![0, 0] : Fin 2 → Nat) = fun _ => 0 := funext fun a => by fin_cases a <;> rfl

/-- The block indices over the ten points: the feature window moves with the output window along the rows, both at
    column block 0; the two matrices and the bias row are at block (0, 0) at every point; the output's row block is
    at most 9. -/
theorem blockIndex_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 9 ∧ win0_4.index t (1 : Fin 2) = 0 :=
  (by decide +kernel : ∀ t : Fin grid0.N, _)

/-- Every row block 0 … 9 of the output is some point's. -/
theorem rowBlock_onto : ∀ r : Fin 10, ∃ t : Fin cfg0.N, win0_4.index t = ![r.val, 0] :=
  (by decide +kernel : ∀ r : Fin 10, ∃ t : Fin grid0.N, win0_4.index t = ![r.val, 0])

/-- Row p of the feature window's block at point t is row 5000 · (the output's row block) + p of the feature table. -/
theorem featureBlock_apply (t : Fin cfg0.N) (p : Fin 5000) (l : Fin 16)
    (hrow : win0_4.index t (0 : Fin 2) * 5000 + p.val < 50000) :
    iblk0 V c 0 t (ix2 p l) = V c main_v47 (ix2 (⟨win0_4.index t (0 : Fin 2) * 5000 + p.val, hrow⟩ : Fin 50000) l) := by
  obtain ⟨e0, e1, -, -, -, -, -, -, -, -⟩ := blockIndex_facts t
  show V c main_v47 (((cfg0.win 0).blk t).view.emb (ix2 p l)) = _
  refine congrArg (V c main_v47) (funext fun a => Fin.ext ?_)
  match a with
  | ⟨0, _⟩ => show win0_0.index t (0 : Fin 2) * 5000 + 1 * p.val = win0_4.index t (0 : Fin 2) * 5000 + p.val; omega
  | ⟨1, _⟩ => show win0_0.index t (1 : Fin 2) * 16 + 1 * l.val = l.val; omega

/-- The first matrix's window is the whole matrix at every point. -/
theorem firstMatrixBlock_apply (t : Fin cfg0.N) (l : Fin 16) (k : Fin 128) :
    iblk0 V c 1 t (ix2 l k) = V c main_arg5 (ix2 l k) := by
  obtain ⟨-, -, e2, e3, -, -, -, -, -, -⟩ := blockIndex_facts t
  show V c main_arg5 (((cfg0.win 1).blk t).view.emb (ix2 l k)) = _
  refine congrArg (V c main_arg5) (funext fun a => Fin.ext ?_)
  match a with
  | ⟨0, _⟩ => show win0_1.index t (0 : Fin 2) * 16 + 1 * l.val = l.val; omega
  | ⟨1, _⟩ => show win0_1.index t (1 : Fin 2) * 128 + 1 * k.val = k.val; omega

/-- The bias row's window is the whole row at every point. -/
theorem biasBlock_apply (t : Fin cfg0.N) (k : Fin 128) :
    iblk0 V c 2 t (ix2 (0 : Fin 1) k) = V c main_v48 (ix2 (0 : Fin 1) k) := by
  obtain ⟨-, -, -, -, e4, e5, -, -, -, -⟩ := blockIndex_facts t
  show V c main_v48 (((cfg0.win 2).blk t).view.emb (ix2 (0 : Fin 1) k)) = _
  refine congrArg (V c main_v48) (funext fun a => Fin.ext ?_)
  match a with
  | ⟨0, _⟩ => show win0_2.index t (0 : Fin 2) * 1 + 1 * 0 = 0; omega
  | ⟨1, _⟩ => show win0_2.index t (1 : Fin 2) * 128 + 1 * k.val = k.val; omega

/-- The second matrix's window is the whole matrix at every point. -/
theorem secondMatrixBlock_apply (t : Fin cfg0.N) (k : Fin 128) (q : Fin 128) :
    iblk0 V c 3 t (ix2 k q) = V c main_arg7 (ix2 k q) := by
  obtain ⟨-, -, -, -, -, -, e6, e7, -, -⟩ := blockIndex_facts t
  show V c main_arg7 (((cfg0.win 3).blk t).view.emb (ix2 k q)) = _
  refine congrArg (V c main_arg7) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- What point t writes back to the output array is block t of the host's chain applied to the arrays as the region
    found them: the body's element at (p, q) of its block is the layer's element there, the block's row p is row
    5000 · (row block) + p of the table, and the chain has the same element at that row. -/
theorem writeBack_eq (t : Fin cfg0.N) :
    (dat0 (F := Ideal) V c).flushed 4 t = ((cfg0.win 4).blk t).view.read (Elt Ideal)
      (times128 (F := Ideal) (biasRelu (times16 (V c main_v47) (V c main_arg5)) (V c main_v48)) (V c main_arg7)) := by
  show (cfg0.win 4).cut (grid0.coords t) ((dat0 (F := Ideal) V c).after 4 t) = _
  rw [after0_4]
  unfold out0_4
  rw [View.canon_unit_zero zeroOffsets]
  simp only [View.ld_unit_zero (S := S5000x16) zeroOffsets, View.ld_unit_zero (S := S16x128) zeroOffsets,
    View.ld_unit_zero (S := S1x128) zeroOffsets, View.ld_unit_zero (S := S128x128) zeroOffsets]
  obtain ⟨-, -, -, -, -, -, -, -, e8, e9⟩ := blockIndex_facts t
  funext j
  obtain ⟨p, q, rfl⟩ : ∃ (p : Fin 5000) (q : Fin 128), j = ix2 p q := ⟨j 0, j 1, eq_ix2 j⟩
  have hrow : win0_4.index t (0 : Fin 2) * 5000 + p.val < 50000 := by have := p.isLt; omega
  have hemb : ((cfg0.win 4).blk t).view.emb (ix2 p q)
      = ix2 (⟨win0_4.index t (0 : Fin 2) * 5000 + p.val, hrow⟩ : Fin 50000) q := by
    funext a; apply Fin.ext
    match a with
    | ⟨0, _⟩ => show win0_4.index t (0 : Fin 2) * 5000 + 1 * p.val = win0_4.index t (0 : Fin 2) * 5000 + p.val; omega
    | ⟨1, _⟩ => show win0_4.index t (1 : Fin 2) * 128 + 1 * q.val = q.val; omega
  show k0_pay1 (F := Ideal) (iblk0 V c 0 t) (iblk0 V c 1 t) (iblk0 V c 2 t) (iblk0 V c 3 t) (ix2 p q)
    = times128 (F := Ideal) (biasRelu (times16 (V c main_v47) (V c main_arg5)) (V c main_v48)) (V c main_arg7)
        (((cfg0.win 4).blk t).view.emb (ix2 p q))
  rw [hemb]
  refine (body_apply (iblk0 V c 0 t) (iblk0 V c 1 t) (iblk0 V c 2 t) (iblk0 V c 3 t) p q).trans ?_
  refine Eq.trans ?_ (chain_apply (V c main_v47) (V c main_arg5) (V c main_v48) (V c main_arg7) ⟨_, hrow⟩ q).symm
  exact layerAt_congr _ _ _ _ _ _ _ _ p ⟨_, hrow⟩ q (fun l => featureBlock_apply V c t p l hrow)
    (fun l k => firstMatrixBlock_apply V c t l k) (fun k => biasBlock_apply V c t k)
    (fun k => secondMatrixBlock_apply V c t k q)

/-- An index of the output array is in point t's block iff each coordinate is in the block's range on its axis. -/
theorem mem_block (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v49).slice (win0_4.rect t)).set ↔ _
  rw [View.set_slice_whole, Rect.mem_set_unit]
  exact Iff.rfl

/-- Every index of the output array is in some point's block: row r is in row block r / 5000. -/
theorem covered (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := rowBlock_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- After the region the output array is the host's chain applied to the arrays as the region found them. -/
theorem region0_arr :
    ((dat0 (F := Ideal) V c).arrAt 4 cfg0.N : S50000x128.Idx → EReal)
      = times128 (F := Ideal) (biasRelu (times16 (V c main_v47) (V c main_arg5)) (V c main_v48)) (V c main_arg7) :=
  (dat0 (F := Ideal) V c).arrAt_eq_of_cover 4 _ (fun t _ => writeBack_eq V c t) (covered)

end Cert.Bridge.First

end
-- ==== Proof.RegionLayers.lean ====
/-
  Three of the kernel's layers, each read as one whole-array function of the arrays it finds.

  A hidden layer of the network takes a node table `A` of 50000 rows and 128 columns, adds a bias row `b` to
  every row, clamps every entry at zero from below, and (in two of the three layers here) multiplies the result
  by a 128 × 128 matrix `W`. The kernel does this ten times, on ten consecutive blocks of 5000 rows, each time
  reading the whole bias row and the whole matrix; the reference does it once on the whole table.

  Index by index the two agree: entry `(r, q)` of the clamped biased table is `max (A(r, q) + b(0, q)) 0`, and
  entry `(r, q)` of the product is the sum over `k` of `max (A(r, k) + b(0, k)) 0 · W(k, q)`; neither depends on
  any row of `A` other than row `r`. So the block a grid point writes back is that block of the whole-array
  function: row `y` of block `t` is row `5000 t + y` of the table, the bias row and the matrix are read where
  they lie, and the ten blocks fill the 50000 rows (row `r` lies in block `r / 5000`). The zero of the clamp is
  the same float word on both sides and is never evaluated; the change of float format before the product is the
  identity at the ideal values.
-/
import proofs.«101641_j12704513261988_2_alg».proof.Proof.Gen.KernelIdeal.Frame
import proofs.«101641_j12704513261988_2_alg».proof.Proof.Gen.ReferenceIdeal
import proofs.«101641_j12704513261988_2_alg».proof.Proof.HostChain
import proofs.«101641_j12704513261988_2_alg».proof.Proof.LibMatmul
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Bridge.Layers

open Idealize.ShloMosaic Idealize.ShloMosaic.TcCoe Idealize.SL.Sem Cert.KernelIdeal Cert.KernelIdeal.Gen Cert.Bridge
open Idealize.ShloMosaic.ValueIdx
open scoped BigOperators

/-- A block's two offsets are zero. -/
theorem offsets_zero : (![0, 0] : Fin 2 → Nat) = fun _ => 0 := funext fun a => by fin_cases a <;> rfl

/-- The column of an index of a two-axis array, as a number below the array's width. -/
abbrev colIx {n0 n1 : Nat} (j : (⟨2, ![n0, n1]⟩ : Shape).Idx) : Fin n1 := ⟨(j 1).val, idx2_lt1 j⟩
/-- The row of an index of a two-axis array, as a number below the array's height. -/
abbrev rowIx {n0 n1 : Nat} (j : (⟨2, ![n0, n1]⟩ : Shape).Idx) : Fin n0 := ⟨(j 0).val, idx2_lt0 j⟩

/-- An index of a two-axis array is its row and its column. -/
theorem eq_row_col {n0 n1 : Nat} (j : (⟨2, ![n0, n1]⟩ : Shape).Idx) : j = ix2 (rowIx j) (colIx j) := by
  funext a
  match a with
  | ⟨0, _⟩ => rfl
  | ⟨1, _⟩ => rfl

/-- The node table plus the bias row, clamped at zero, index by index. -/
abbrev biasClamp (A : S50000x128.Idx → EReal) (b : S1x128.Idx → EReal) : S50000x128.Idx → EReal :=
  fun i => max (A i + b (ix2 (0 : Fin 1) (colIx i))) (Ideal.ofBits .f32 0x00000000#32)

/-- The bias-and-clamp body at row `p`, column `q` of its block: the block's entry plus the bias row's entry in
    column `q`, clamped at zero. -/
theorem biasClamp_block_ix (x0 : Vec Ideal S5000x128 .f32) (x1 : Vec Ideal S1x128 .f32) (p : Fin 5000) (q : Fin 128) :
    k3_pay1 (F := Ideal) x0 x1 (ix2 p q) = max (x0 (ix2 p q) + x1 (ix2 (0 : Fin 1) q)) (Ideal.ofBits .f32 0x00000000#32) := by
  unfold k3_pay1
  rw [maximumf_apply, addf_apply, broadcast_apply, shapeCast_self, shapeCast_self, broadcastTo_1b_ab_apply]
  rfl

/-- The same at any index of the block. -/
theorem biasClamp_block_apply (x0 : Vec Ideal S5000x128 .f32) (x1 : Vec Ideal S1x128 .f32) (j : S5000x128.Idx) :
    k3_pay1 (F := Ideal) x0 x1 j = max (x0 j + x1 (ix2 (0 : Fin 1) (colIx j))) (Ideal.ofBits .f32 0x00000000#32) := by
  have e := eq_row_col j
  rw [e]
  exact biasClamp_block_ix x0 x1 (rowIx j) (colIx j)

/-- A block of the clamped biased table is the body's result on the matching blocks of its operands. -/
theorem biasClamp_block (A : S50000x128.Idx → EReal) (b : S1x128.Idx → EReal)
    (e0 e2 : S5000x128.Idx → S50000x128.Idx) (e1 : S1x128.Idx → S1x128.Idx)
    (h0 : ∀ y, e0 y = e2 y) (h1 : ∀ y, e1 y = y) (h2 : ∀ y, colIx (e2 y) = colIx y) :
    k3_pay1 (F := Ideal) (fun y => A (e0 y)) (fun y => b (e1 y)) = fun y => biasClamp A b (e2 y) := by
  funext y
  rw [biasClamp_block_apply, h0, h1]
  show _ = max (A (e2 y) + b (ix2 (0 : Fin 1) (colIx (e2 y)))) (Ideal.ofBits .f32 0x00000000#32)
  rw [h2]

/-- The clamped biased table times a 128 × 128 matrix, index by index. -/
abbrev layerOut (A : S50000x128.Idx → EReal) (b : S1x128.Idx → EReal) (W : S128x128.Idx → EReal) : S50000x128.Idx → EReal :=
  fun i => ∑ k : Fin 128, max (A (ix2 (rowIx i) k) + b (ix2 (0 : Fin 1) k)) (Ideal.ofBits .f32 0x00000000#32) * W (ix2 k (colIx i))

/-- The layer's body at row `p`, column `q` of its block: the matrix product into the zero accumulator is the sum
    over `k` of the clamped biased entry `(p, k)` times the matrix's entry `(k, q)`; the change of float format
    before the product is the identity. -/
theorem layer_block_ix (x0 : Vec Ideal S5000x128 .f32) (x1 : Vec Ideal S1x128 .f32) (x2 : Vec Ideal S128x128 .f32) (p : Fin 5000) (q : Fin 128) :
    k1_pay1 (F := Ideal) x0 x1 x2 (ix2 p q)
      = ∑ k : Fin 128, max (x0 (ix2 p k) + x1 (ix2 (0 : Fin 1) k)) (Ideal.ofBits .f32 0x00000000#32) * x2 (ix2 k q) := by
  unfold k1_pay1
  have hd : dot_S5000x128_S128x128_S5000x128_1_0_0_1_n_n = DotDims.plain 5000 128 128 := rfl
  rw [hd]
  refine (Cert.MatOps.matmul_plain_zero_apply none _ _ p q).trans ?_
  refine Finset.sum_congr rfl fun k _ => ?_
  rw [truncf_apply, truncf_apply, maximumf_apply, addf_apply, broadcast_apply, shapeCast_self, shapeCast_self, broadcastTo_1b_ab_apply]
  rfl

/-- Regions 1 and 2 run the same body. -/
theorem second_body_eq (x0 : Vec Ideal S5000x128 .f32) (x1 : Vec Ideal S1x128 .f32) (x2 : Vec Ideal S128x128 .f32) :
    k2_pay1 (F := Ideal) x0 x1 x2 = k1_pay1 (F := Ideal) x0 x1 x2 := rfl

/-- A block of the layer's output is the body's result on the matching blocks of its operands. -/
theorem layer_block (A : S50000x128.Idx → EReal) (b : S1x128.Idx → EReal) (W : S128x128.Idx → EReal)
    (e0 e3 : S5000x128.Idx → S50000x128.Idx) (e1 : S1x128.Idx → S1x128.Idx) (e2 : S128x128.Idx → S128x128.Idx)
    (h0 : ∀ (y : S5000x128.Idx) (k : Fin 128), e0 (ix2 (rowIx y) k) = ix2 (rowIx (e3 y)) k)
    (h1 : ∀ y, e1 y = y) (h2 : ∀ y, e2 y = y) (h3 : ∀ y, colIx (e3 y) = colIx y) :
    k1_pay1 (F := Ideal) (fun y => A (e0 y)) (fun y => b (e1 y)) (fun y => W (e2 y)) = fun y => layerOut A b W (e3 y) := by
  funext y
  refine ((congrArg _ (eq_row_col y)).trans (layer_block_ix _ _ _ (rowIx y) (colIx y))).trans ?_
  refine Finset.sum_congr rfl fun k _ => ?_
  show max (A (e0 (ix2 (rowIx y) k)) + b (e1 (ix2 (0 : Fin 1) k))) (Ideal.ofBits .f32 0x00000000#32) * W (e2 (ix2 k (colIx y)))
    = max (A (ix2 (rowIx (e3 y)) k) + b (ix2 (0 : Fin 1) k)) (Ideal.ofBits .f32 0x00000000#32) * W (ix2 k (colIx (e3 y)))
  rw [h0, h1, h2, h3]

/-- The same for region 2's body. -/
theorem layer_block_second (A : S50000x128.Idx → EReal) (b : S1x128.Idx → EReal) (W : S128x128.Idx → EReal)
    (e0 e3 : S5000x128.Idx → S50000x128.Idx) (e1 : S1x128.Idx → S1x128.Idx) (e2 : S128x128.Idx → S128x128.Idx)
    (h0 : ∀ (y : S5000x128.Idx) (k : Fin 128), e0 (ix2 (rowIx y) k) = ix2 (rowIx (e3 y)) k)
    (h1 : ∀ y, e1 y = y) (h2 : ∀ y, e2 y = y) (h3 : ∀ y, colIx (e3 y) = colIx y) :
    k2_pay1 (F := Ideal) (fun y => A (e0 y)) (fun y => b (e1 y)) (fun y => W (e2 y)) = fun y => layerOut A b W (e3 y) :=
  (second_body_eq _ _ _).trans (layer_block A b W e0 e3 e1 e2 h0 h1 h2 h3)

/-- The reference's clamped biased table at an index. -/
theorem biasRelu_apply (s : FVec Ideal S50000x128 .f32) (b : FVec Ideal S1x128 .f32) (i : S50000x128.Idx) :
    biasRelu (F := Ideal) s b i = biasClamp s b i := by
  have e1 : broadcastInDim Cert.ReferenceIdeal.S50000x128 ![0, 1] Cert.ReferenceIdeal.Gen.bcast_S1x128_S50000x128_0_1 b i
      = b (ix2 (0 : Fin 1) (colIx i)) :=
    broadcastInDim_apply ![0, 1] Cert.ReferenceIdeal.Gen.bcast_S1x128_S50000x128_0_1 b i (ix2 (0 : Fin 1) (colIx i)) (fun a => by
      match a with
      | ⟨0, _⟩ => rfl
      | ⟨1, _⟩ => rfl)
  have e2 : broadcastInDim Cert.ReferenceIdeal.S50000x128 ![] Cert.ReferenceIdeal.Gen.bcast_S_S50000x128
        (constant (F := Ideal) Cert.ReferenceIdeal.S_ .f32 0x00000000#32) i = Ideal.ofBits .f32 0x00000000#32 :=
    broadcastInDim_apply ![] Cert.ReferenceIdeal.Gen.bcast_S_S50000x128 _ i ix0 (fun a => a.elim0)
  unfold biasRelu
  rw [maximumf_apply, addf_apply, e1, e2]

/-- The reference's clamped biased table is the index-by-index one. -/
theorem biasRelu_eq (s : FVec Ideal S50000x128 .f32) (b : FVec Ideal S1x128 .f32) :
    biasRelu (F := Ideal) s b = biasClamp s b := funext (biasRelu_apply s b)

/-- The reference's layer — the clamped biased table times the matrix — is the index-by-index one. -/
theorem layer_eq (s : FVec Ideal S50000x128 .f32) (b : FVec Ideal S1x128 .f32) (w : FVec Ideal S128x128 .f32) :
    times128 (F := Ideal) (biasRelu s b) w = layerOut s b w := by
  funext i
  have hd : Cert.ReferenceIdeal.dot_S50000x128_S128x128_S50000x128_1_0_0_1_n_n = DotDims.plain 50000 128 128 := rfl
  unfold times128
  rw [hd]
  refine ((congrArg _ (eq_row_col i)).trans (Cert.MatOps.dotGeneral_plain_apply none _ _ (rowIx i) (colIx i))).trans ?_
  refine Finset.sum_congr rfl fun k _ => ?_
  rw [biasRelu_apply]

variable (V : (c : Dev nD) → (b : Ref sig .tc) → Buf (Elt Ideal) ((c : Thread nD τ).loc b)) (c : Dev nD)

/-! ## Region 3: bias and clamp -/

/-- The index maps of region 3 over its ten points. -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` of region 3 writes back is block `t` of the clamped biased table: the input block and the
    output block sit at the same rows, and the bias row is read whole. -/
theorem flushed3_eq (t : Fin cfg3.N) :
    (dat3 (F := Ideal) V c).flushed 2 t
      = ((cfg3.win 2).blk t).view.read (Elt Ideal) (biasClamp (V c main_v92) (V c main_v93)) := by
  show (cfg3.win 2).cut (grid3.coords t) ((dat3 V c).after 2 t) = _
  rw [after3_2]
  unfold out3_2
  rw [View.canon_unit_zero offsets_zero]
  simp only [View.ld_unit_zero (S := S5000x128) offsets_zero, View.ld_unit_zero (S := S1x128) offsets_zero]
  obtain ⟨e0, e1, e2, e3, e4, e5⟩ := index_facts3 t
  have h0 : ∀ y : S5000x128.Idx, ((cfg3.win 0).blk t).view.emb y = ((cfg3.win 2).blk t).view.emb y := by
    intro y; funext a; apply Fin.ext
    match a with
    | ⟨0, _⟩ => show win3_0.index t (0 : Fin 2) * 5000 + 1 * (y 0).val = win3_2.index t (0 : Fin 2) * 5000 + 1 * (y 0).val; omega
    | ⟨1, _⟩ => show win3_0.index t (1 : Fin 2) * 128 + 1 * (y 1).val = win3_2.index t (1 : Fin 2) * 128 + 1 * (y 1).val; omega
  have h1 : ∀ y : S1x128.Idx, ((cfg3.win 1).blk t).view.emb y = y := by
    intro y; funext a; apply Fin.ext
    match a with
    | ⟨0, _⟩ => show win3_1.index t (0 : Fin 2) * 1 + 1 * (y 0).val = (y 0).val; omega
    | ⟨1, _⟩ => show win3_1.index t (1 : Fin 2) * 128 + 1 * (y 1).val = (y 1).val; omega
  have h2 : ∀ y : S5000x128.Idx, colIx (((cfg3.win 2).blk t).view.emb y) = colIx y := by
    intro y; apply Fin.ext
    show win3_2.index t (1 : Fin 2) * 128 + 1 * (y 1).val = (y 1).val; omega
  exact biasClamp_block (V c main_v92) (V c main_v93) (fun y => ((cfg3.win 0).blk t).view.emb y) (fun y => ((cfg3.win 2).blk t).view.emb y)
    (fun y => ((cfg3.win 1).blk t).view.emb y) h0 h1 h2

/-- An index of the output array lies in point `t`'s block iff each coordinate lies in the block's range. -/
theorem mem_block3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v94).slice (win3_2.rect t)).set ↔ _
  rw [View.set_slice_whole, Rect.mem_set_unit]
  exact Iff.rfl

/-- Every index of the output array lies in the block of the point its row falls in. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e0, e1, e2, e3, e4, e5⟩ := index_facts3 t
  have e4' : win3_2.index t (0 : Fin 2) = (i 0).val / 5000 := e4
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After region 3 its output array is the clamped biased table, index by index. -/
theorem region3_arr_ix :
    ((dat3 (F := Ideal) V c).arrAt 2 cfg3.N : S50000x128.Idx → EReal) = biasClamp (V c main_v92) (V c main_v93) :=
  (dat3 (F := Ideal) V c).arrAt_eq_of_cover 2 (biasClamp (V c main_v92) (V c main_v93)) (fun t _ => flushed3_eq V c t) cover3

/-! ## Region 1: bias, clamp, times the matrix -/

/-- The index maps of region 1 over its ten points. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` of region 1 writes back is block `t` of the layer's output: row `y` of the input block is row
    `y` of the output block in the table, and the bias row and the matrix are read whole. -/
theorem flushed1_eq (t : Fin cfg1.N) :
    (dat1 (F := Ideal) V c).flushed 3 t
      = ((cfg1.win 3).blk t).view.read (Elt Ideal) (layerOut (V c main_v62) (V c main_v63) (V c main_arg9)) := by
  show (cfg1.win 3).cut (grid1.coords t) ((dat1 V c).after 3 t) = _
  rw [after1_3]
  unfold out1_3
  rw [View.canon_unit_zero offsets_zero]
  simp only [View.ld_unit_zero (S := S5000x128) offsets_zero, View.ld_unit_zero (S := S1x128) offsets_zero, View.ld_unit_zero (S := S128x128) offsets_zero]
  obtain ⟨e0, e1, e2, e3, e4, e5, e6, e7⟩ := index_facts1 t
  have h0 : ∀ (y : S5000x128.Idx) (k : Fin 128), ((cfg1.win 0).blk t).view.emb (ix2 (rowIx y) k) = ix2 (rowIx (((cfg1.win 3).blk t).view.emb y)) k := by
    intro y k; funext a; apply Fin.ext
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 128 + 1 * k.val = k.val; omega
  have h1 : ∀ y : S1x128.Idx, ((cfg1.win 1).blk t).view.emb y = y := by
    intro y; funext a; apply Fin.ext
    match a with
    | ⟨0, _⟩ => show win1_1.index t (0 : Fin 2) * 1 + 1 * (y 0).val = (y 0).val; omega
    | ⟨1, _⟩ => show win1_1.index t (1 : Fin 2) * 128 + 1 * (y 1).val = (y 1).val; omega
  have h2 : ∀ y : S128x128.Idx, ((cfg1.win 2).blk t).view.emb y = y := by
    intro y; funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  have h3 : ∀ y : S5000x128.Idx, colIx (((cfg1.win 3).blk t).view.emb y) = colIx y := by
    intro y; apply Fin.ext
    show win1_3.index t (1 : Fin 2) * 128 + 1 * (y 1).val = (y 1).val; omega
  exact layer_block (V c main_v62) (V c main_v63) (V c main_arg9) (fun y => ((cfg1.win 0).blk t).view.emb y) (fun y => ((cfg1.win 3).blk t).view.emb y)
    (fun y => ((cfg1.win 1).blk t).view.emb y) (fun y => ((cfg1.win 2).blk t).view.emb y) h0 h1 h2 h3

/-- An index of the output array lies in point `t`'s block iff each coordinate lies in the block's range. -/
theorem mem_block1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v64).slice (win1_3.rect t)).set ↔ _
  rw [View.set_slice_whole, Rect.mem_set_unit]
  exact Iff.rfl

/-- Every index of the output array lies in the block of the point its row falls in. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1, e2, e3, e4, e5, e6, e7⟩ := index_facts1 t
  have e6' : win1_3.index t (0 : Fin 2) = (i 0).val / 5000 := e6
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After region 1 its output array is the layer's output, index by index. -/
theorem region1_arr_ix :
    ((dat1 (F := Ideal) V c).arrAt 3 cfg1.N : S50000x128.Idx → EReal) = layerOut (V c main_v62) (V c main_v63) (V c main_arg9) :=
  (dat1 (F := Ideal) V c).arrAt_eq_of_cover 3 (layerOut (V c main_v62) (V c main_v63) (V c main_arg9)) (fun t _ => flushed1_eq V c t) cover1

/-! ## Region 2: the same body on the next layer's arrays -/

/-- The index maps of region 2 over its ten points. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` of region 2 writes back is block `t` of the layer's output, as in region 1. -/
theorem flushed2_eq (t : Fin cfg2.N) :
    (dat2 (F := Ideal) V c).flushed 3 t
      = ((cfg2.win 3).blk t).view.read (Elt Ideal) (layerOut (V c main_v77) (V c main_v78) (V c main_arg11)) := by
  show (cfg2.win 3).cut (grid2.coords t) ((dat2 V c).after 3 t) = _
  rw [after2_3]
  unfold out2_3
  rw [View.canon_unit_zero offsets_zero]
  simp only [View.ld_unit_zero (S := S5000x128) offsets_zero, View.ld_unit_zero (S := S1x128) offsets_zero, View.ld_unit_zero (S := S128x128) offsets_zero]
  obtain ⟨e0, e1, e2, e3, e4, e5, e6, e7⟩ := index_facts2 t
  have h0 : ∀ (y : S5000x128.Idx) (k : Fin 128), ((cfg2.win 0).blk t).view.emb (ix2 (rowIx y) k) = ix2 (rowIx (((cfg2.win 3).blk t).view.emb y)) k := by
    intro y k; funext a; apply Fin.ext
    match a with
    | ⟨0, _⟩ => show win2_0.index t (0 : Fin 2) * 5000 + 1 * (y 0).val = win2_3.index t (0 : Fin 2) * 5000 + 1 * (y 0).val; omega
    | ⟨1, _⟩ => show win2_0.index t (1 : Fin 2) * 128 + 1 * k.val = k.val; omega
  have h1 : ∀ y : S1x128.Idx, ((cfg2.win 1).blk t).view.emb y = y := by
    intro y; funext a; apply Fin.ext
    match a with
    | ⟨0, _⟩ => show win2_1.index t (0 : Fin 2) * 1 + 1 * (y 0).val = (y 0).val; omega
    | ⟨1, _⟩ => show win2_1.index t (1 : Fin 2) * 128 + 1 * (y 1).val = (y 1).val; omega
  have h2 : ∀ y : S128x128.Idx, ((cfg2.win 2).blk t).view.emb y = y := by
    intro y; funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega
  have h3 : ∀ y : S5000x128.Idx, colIx (((cfg2.win 3).blk t).view.emb y) = colIx y := by
    intro y; apply Fin.ext
    show win2_3.index t (1 : Fin 2) * 128 + 1 * (y 1).val = (y 1).val; omega
  exact layer_block_second (V c main_v77) (V c main_v78) (V c main_arg11) (fun y => ((cfg2.win 0).blk t).view.emb y) (fun y => ((cfg2.win 3).blk t).view.emb y)
    (fun y => ((cfg2.win 1).blk t).view.emb y) (fun y => ((cfg2.win 2).blk t).view.emb y) h0 h1 h2 h3

/-- An index of the output array lies in point `t`'s block iff each coordinate lies in the block's range. -/
theorem mem_block2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v79).slice (win2_3.rect t)).set ↔ _
  rw [View.set_slice_whole, Rect.mem_set_unit]
  exact Iff.rfl

/-- Every index of the output array lies in the block of the point its row falls in. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨e0, e1, e2, e3, e4, e5, e6, e7⟩ := index_facts2 t
  have e6' : win2_3.index t (0 : Fin 2) = (i 0).val / 5000 := e6
  refine ⟨t, flush2_3 t, ?_⟩
  rw [mem_block2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- After region 2 its output array is the layer's output, index by index. -/
theorem region2_arr_ix :
    ((dat2 (F := Ideal) V c).arrAt 3 cfg2.N : S50000x128.Idx → EReal) = layerOut (V c main_v77) (V c main_v78) (V c main_arg11) :=
  (dat2 (F := Ideal) V c).arrAt_eq_of_cover 3 (layerOut (V c main_v77) (V c main_v78) (V c main_arg11)) (fun t _ => flushed2_eq V c t) cover2

/-- After region 1 its output array is the reference's layer of the arrays the region found:
    the clamped biased table times the matrix. -/
theorem region1_arr :
    ((dat1 (F := Ideal) V c).arrAt 3 cfg1.N : S50000x128.Idx → EReal)
      = times128 (F := Ideal) (biasRelu (V c main_v62) (V c main_v63)) (V c main_arg9) :=
  (region1_arr_ix V c).trans (layer_eq (V c main_v62) (V c main_v63) (V c main_arg9)).symm

/-- After region 2 its output array is the reference's layer of the arrays the region found. -/
theorem region2_arr :
    ((dat2 (F := Ideal) V c).arrAt 3 cfg2.N : S50000x128.Idx → EReal)
      = times128 (F := Ideal) (biasRelu (V c main_v77) (V c main_v78)) (V c main_arg11) :=
  (region2_arr_ix V c).trans (layer_eq (V c main_v77) (V c main_v78) (V c main_arg11)).symm

/-- After region 3 its output array is the reference's clamped biased table of the arrays the region found. -/
theorem region3_arr :
    ((dat3 (F := Ideal) V c).arrAt 2 cfg3.N : S50000x128.Idx → EReal)
      = biasRelu (F := Ideal) (V c main_v92) (V c main_v93) :=
  (region3_arr_ix V c).trans (biasRelu_eq (V c main_v92) (V c main_v93)).symm

end Cert.Bridge.Layers

end
-- ==== Proof.RegionDense.lean ====
/-
  The two dense stacks on per-graph tables, each read as one function of its input tables.

  Region 4 takes the per-graph context features, a [128, 16] table, through three layers, each "multiply by a weight
  matrix, add a bias row to every row, clamp at zero from below"; region 5 takes the concatenated per-graph table,
  [128, 256], through two such layers and a last one without the clamp. Each region's grid has a single point and
  every window's block is its whole table, so what the one point writes back is the body's result on the whole
  tables, and that one block covers every index of the output.

  On the extended reals a change of float format is the identity, so the narrowing of the matrix unit's operands
  disappears; a product accumulated into the zero table is the plain product (0 + s = s), which is the host's
  contraction over the same index set; a bias row broadcast down the 128 rows reads the row at every row in either
  spelling; and the splat of the zero scalar is the broadcast of the zero constant, the word kept as it is on both
  sides. Hence each layer of the body is, as a whole table, the same layer written with the reference's operations,
  and the three layers chain by substitution.
-/
import proofs.«101641_j12704513261988_2_alg».proof.Proof.Gen.KernelIdeal.Frame
import proofs.«101641_j12704513261988_2_alg».proof.Proof.Gen.ReferenceIdeal
import proofs.«101641_j12704513261988_2_alg».proof.Proof.HostChain
import Idealize.ShloMosaic.PureOps.Ideal
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value

noncomputable section

namespace Cert.Bridge.Dense

open Idealize.ShloMosaic Idealize.ShloMosaic.TcCoe Idealize.SL.Sem Cert.KernelIdeal Cert.KernelIdeal.Gen Cert.Bridge
open Idealize.ShloMosaic.ValueIdx

/-! ## One dense layer, the kernel's spelling against the reference's -/

/-- A change of float format is the identity on the extended reals. -/
theorem truncf_bf16_eq {s : Shape} (v : FVec Ideal s .f32) (h : FTy.bits .bf16 < FTy.bits .f32) :
    (truncf .bf16 v h : FVec Ideal s .bf16) = v := rfl

/-- The bias row laid along each of the 128 rows: the kernel's broadcast of the row is the reference's. -/
theorem biasRows_eq (b : FVec Ideal S1x128 .f32) :
    broadcastTo S128x128 b broadcasts_S1x128_S128x128
      = broadcastInDim Cert.ReferenceIdeal.S128x128 ![0, 1] Cert.ReferenceIdeal.Gen.bcast_S1x128_S128x128_0_1 b := by
  funext i
  obtain ⟨p, q, rfl⟩ : ∃ (p : Fin 128) (q : Fin 128), i = ix2 p q := ⟨i 0, i 1, eq_ix2 i⟩
  exact (broadcastTo_1b_ab_apply b broadcasts_S1x128_S128x128 p q).trans
    (broadcastInDim_oneRow_apply Cert.ReferenceIdeal.Gen.bcast_S1x128_S128x128_0_1 b p q).symm

/-- The zero table: the kernel's splat of the zero scalar is the reference's broadcast of the zero constant. -/
theorem zeros_eq :
    (broadcast S128x128 (Scalar.ofBits (F := Ideal) .f32 0x00000000#32) : FVec Ideal S128x128 .f32)
      = broadcastInDim Cert.ReferenceIdeal.S128x128 ![] Cert.ReferenceIdeal.Gen.bcast_S_S128x128 (constant (F := Ideal) Cert.ReferenceIdeal.S_ .f32 0x00000000#32) :=
  funext fun _ => rfl

/-- The two programs name the same contraction, axis 1 of the left operand against axis 0 of the right one, at each
    of the three operand shapes. -/
theorem dims16_eq : Cert.KernelIdeal.dot_S128x16_S16x128_S128x128_1_0_0_1_n_n = Cert.ReferenceIdeal.dot_S128x16_S16x128_S128x128_1_0_0_1_n_n := rfl
theorem dims128_eq : Cert.KernelIdeal.dot_S128x128_S128x128_S128x128_1_0_0_1_n_n = Cert.ReferenceIdeal.dot_S128x128_S128x128_S128x128_1_0_0_1_n_n := rfl
theorem dims256_eq : Cert.KernelIdeal.dot_S128x256_S256x128_S128x128_1_0_0_1_n_n = Cert.ReferenceIdeal.dot_S128x256_S256x128_S128x128_1_0_0_1_n_n := rfl

/-- The matrix unit's product of the two operands, each in the narrower float format, into the zero table is the
    host's product of the operands. -/
theorem prod16_eq (x : FVec Ideal S128x16 .f32) (w : FVec Ideal S16x128 .f32) :
    matmul dot_S128x16_S16x128_S128x128_1_0_0_1_n_n none (truncf .bf16 x bitsLt_bf16_f32) (truncf .bf16 w bitsLt_bf16_f32)
        (constant S128x128 .f32 0x00000000#32)
      = timesG16 (F := Ideal) x w := by
  rw [truncf_bf16_eq, truncf_bf16_eq, matmul_zero_eq_dotGeneral, dims16_eq]
  rfl

/-- The same for two [128, 128] tables. -/
theorem prod128_eq (x : FVec Ideal S128x128 .f32) (w : FVec Ideal S128x128 .f32) :
    matmul dot_S128x128_S128x128_S128x128_1_0_0_1_n_n none (truncf .bf16 x bitsLt_bf16_f32) (truncf .bf16 w bitsLt_bf16_f32)
        (constant S128x128 .f32 0x00000000#32)
      = timesG (F := Ideal) x w := by
  rw [truncf_bf16_eq, truncf_bf16_eq, matmul_zero_eq_dotGeneral, dims128_eq]
  rfl

/-- The same for a [128, 256] table against a [256, 128] weight matrix. -/
theorem prod256_eq (x : FVec Ideal S128x256 .f32) (w : FVec Ideal S256x128 .f32) :
    matmul dot_S128x256_S256x128_S128x128_1_0_0_1_n_n none (truncf .bf16 x bitsLt_bf16_f32) (truncf .bf16 w bitsLt_bf16_f32)
        (constant S128x128 .f32 0x00000000#32)
      = timesG256 (F := Ideal) x w := by
  rw [truncf_bf16_eq, truncf_bf16_eq, matmul_zero_eq_dotGeneral, dims256_eq]
  rfl

/-- Adding the bias row to every row and clamping at zero: the kernel's spelling is the reference's. -/
theorem clamp_eq (s : FVec Ideal S128x128 .f32) (b : FVec Ideal S1x128 .f32) :
    maximumf (addf s (broadcastTo S128x128 (shapeCast S1x128 b shapeCasts_S1x128_S1x128) broadcasts_S1x128_S128x128))
        (broadcast S128x128 (Scalar.ofBits (F := Ideal) .f32 0x00000000#32))
      = biasReluG (F := Ideal) s b := by
  rw [shapeCast_self, biasRows_eq, zeros_eq]
  rfl

/-- Adding the bias row to every row, with no clamp. -/
theorem bias_eq (s : FVec Ideal S128x128 .f32) (b : FVec Ideal S1x128 .f32) :
    addf s (broadcastTo S128x128 (shapeCast S1x128 b shapeCasts_S1x128_S1x128) broadcasts_S1x128_S128x128)
      = biasG (F := Ideal) s b := by
  rw [shapeCast_self, biasRows_eq]
  rfl

/-- The three layers of region 4's body on whole tables. -/
theorem layers4 (x0 : Vec Ideal S128x16 .f32) (x1 : Vec Ideal S16x128 .f32) (x2 : Vec Ideal S1x128 .f32) (x3 : Vec Ideal S128x128 .f32)
    (x4 : Vec Ideal S1x128 .f32) (x5 : Vec Ideal S128x128 .f32) (x6 : Vec Ideal S1x128 .f32) :
    k4_pay1 (F := Ideal) x0 x1 x2 x3 x4 x5 x6
      = biasReluG (F := Ideal) (timesG (biasReluG (timesG (biasReluG (timesG16 x0 x1) x2) x3) x4) x5) x6 := by
  unfold k4_pay1
  dsimp only
  rw [prod16_eq, clamp_eq, clamp_eq, clamp_eq, prod128_eq, prod128_eq]

/-- The three layers of region 5's body on whole tables; the last has no clamp. -/
theorem layers5 (x0 : Vec Ideal S128x256 .f32) (x1 : Vec Ideal S256x128 .f32) (x2 : Vec Ideal S1x128 .f32) (x3 : Vec Ideal S128x128 .f32)
    (x4 : Vec Ideal S1x128 .f32) (x5 : Vec Ideal S128x128 .f32) (x6 : Vec Ideal S1x128 .f32) :
    k5_pay1 (F := Ideal) x0 x1 x2 x3 x4 x5 x6
      = biasG (F := Ideal) (timesG (biasReluG (timesG (biasReluG (timesG256 x0 x1) x2) x3) x4) x5) x6 := by
  unfold k5_pay1
  dsimp only
  rw [shapeCast_self, prod256_eq, bias_eq, clamp_eq, clamp_eq, prod128_eq, prod128_eq]

/-! ## From the one block to the table -/

variable (V : (c : Dev nD) → (b : Ref sig .tc) → Buf (Elt Ideal) ((c : Thread nD τ).loc b)) (c : Dev nD)

/-- The zero offsets of an access to a whole table. -/
theorem offsets_zero : (![0, 0] : Fin 2 → Nat) = fun _ => 0 := funext fun a => by fin_cases a <;> rfl

/-! ## Region 4 -/

/-- Region 4's grid has one point, and there every window's block index is zero on both axes: each window's one
    block is its whole table. -/
theorem index4_zero : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- Window 0's one block is its whole table: an element's coordinate in the table is 0 × the block's size + its
    coordinate in the block. -/
theorem block4_0 (t : Fin cfg4.N) : (iblk4 V c 0 t : Vec Ideal S128x16 .f32) = (V c main_arg1 : S128x16.Idx → EReal) := by
  have h := index4_zero t
  funext y
  show V c main_arg1 (((cfg4.win 0).blk t).view.emb y) = V c main_arg1 y
  refine congrArg _ (funext fun a => Fin.ext ?_)
  match a with
  | ⟨0, _⟩ => show win4_0.index t (0 : Fin 2) * 128 + 1 * (y 0).val = (y 0).val; omega
  | ⟨1, _⟩ => show win4_0.index t (1 : Fin 2) * 16 + 1 * (y 1).val = (y 1).val; omega

/-- Window 1's one block is its whole table: an element's coordinate in the table is 0 × the block's size + its
    coordinate in the block. -/
theorem block4_1 (t : Fin cfg4.N) : (iblk4 V c 1 t : Vec Ideal S16x128 .f32) = (V c main_arg13 : S16x128.Idx → EReal) := by
  have h := index4_zero t
  funext y
  show V c main_arg13 (((cfg4.win 1).blk t).view.emb y) = V c main_arg13 y
  refine congrArg _ (funext fun a => Fin.ext ?_)
  match a with
  | ⟨0, _⟩ => show win4_1.index t (0 : Fin 2) * 16 + 1 * (y 0).val = (y 0).val; omega
  | ⟨1, _⟩ => show win4_1.index t (1 : Fin 2) * 128 + 1 * (y 1).val = (y 1).val; omega

/-- Window 2's one block is its whole table: an element's coordinate in the table is 0 × the block's size + its
    coordinate in the block. -/
theorem block4_2 (t : Fin cfg4.N) : (iblk4 V c 2 t : Vec Ideal S1x128 .f32) = (V c main_v107 : S1x128.Idx → EReal) := by
  have h := index4_zero t
  funext y
  show V c main_v107 (((cfg4.win 2).blk t).view.emb y) = V c main_v107 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- Window 3's one block is its whole table: an element's coordinate in the table is 0 × the block's size + its
    coordinate in the block. -/
theorem block4_3 (t : Fin cfg4.N) : (iblk4 V c 3 t : Vec Ideal S128x128 .f32) = (V c main_arg15 : S128x128.Idx → EReal) := by
  have h := index4_zero t
  funext y
  show V c main_arg15 (((cfg4.win 3).blk t).view.emb y) = V c main_arg15 y
  refine congrArg _ (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- Window 4's one block is its whole table: an element's coordinate in the table is 0 × the block's size + its
    coordinate in the block. -/
theorem block4_4 (t : Fin cfg4.N) : (iblk4 V c 4 t : Vec Ideal S1x128 .f32) = (V c main_v108 : S1x128.Idx → EReal) := by
  have h := index4_zero t
  funext y
  show V c main_v108 (((cfg4.win 4).blk t).view.emb y) = V c main_v108 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- Window 5's one block is its whole table: an element's coordinate in the table is 0 × the block's size + its
    coordinate in the block. -/
theorem block4_5 (t : Fin cfg4.N) : (iblk4 V c 5 t : Vec Ideal S128x128 .f32) = (V c main_arg17 : S128x128.Idx → EReal) := by
  have h := index4_zero t
  funext y
  show V c main_arg17 (((cfg4.win 5).blk t).view.emb y) = V c main_arg17 y
  refine congrArg _ (funext fun a => Fin.ext ?_)
  match a with
  | ⟨0, _⟩ => show win4_5.index t (0 : Fin 2) * 128 + 1 * (y 0).val = (y 0).val; omega
  | ⟨1, _⟩ => show win4_5.index t (1 : Fin 2) * 128 + 1 * (y 1).val = (y 1).val; omega

/-- Window 6's one block is its whole table: an element's coordinate in the table is 0 × the block's size + its
    coordinate in the block. -/
theorem block4_6 (t : Fin cfg4.N) : (iblk4 V c 6 t : Vec Ideal S1x128 .f32) = (V c main_v109 : S1x128.Idx → EReal) := by
  have h := index4_zero t
  funext y
  show V c main_v109 (((cfg4.win 6).blk t).view.emb y) = V c main_v109 y
  refine congrArg _ (funext fun a => Fin.ext ?_)
  match a with
  | ⟨0, _⟩ => show win4_6.index t (0 : Fin 2) * 1 + 1 * (y 0).val = (y 0).val; omega
  | ⟨1, _⟩ => show win4_6.index t (1 : Fin 2) * 128 + 1 * (y 1).val = (y 1).val; omega

/-- What the three layers make of the region's input tables as it finds them. -/
def table4 : S128x128.Idx → EReal :=
  biasReluG (F := Ideal) (timesG (biasReluG (timesG (biasReluG (timesG16 (V c main_arg1) (V c main_arg13)) (V c main_v107)) (V c main_arg15)) (V c main_v108)) (V c main_arg17)) (V c main_v109)

/-- What the one point writes back is the whole of that table, read through the output window's one block. -/
theorem flushed4 (t : Fin cfg4.N) :
    (dat4 (F := Ideal) V c).flushed 7 t = ((cfg4.win 7).blk t).view.read (Elt Ideal) (table4 V c) := by
  show (cfg4.win 7).cut (grid4.coords t) ((dat4 V c).after 7 t) = _
  rw [after4_7]
  unfold out4_7
  rw [View.canon_unit_zero offsets_zero]
  simp only [View.ld_unit_zero (S := S128x16) offsets_zero, View.ld_unit_zero (S := S16x128) offsets_zero, View.ld_unit_zero (S := S1x128) offsets_zero, View.ld_unit_zero (S := S128x128) offsets_zero]
  rw [block4_0 V c t, block4_1 V c t, block4_2 V c t, block4_3 V c t, block4_4 V c t, block4_5 V c t, block4_6 V c t]
  rw [layers4 (V c main_arg1) (V c main_arg13) (V c main_v107) (V c main_arg15) (V c main_v108) (V c main_arg17) (V c main_v109)]
  have h := index4_zero t
  funext y
  show table4 V c y = table4 V c (((cfg4.win 7).blk t).view.emb y)
  refine congrArg _ (funext fun a => Fin.ext ?_)
  match a with
  | ⟨0, _⟩ => show (y 0).val = win4_7.index t (0 : Fin 2) * 128 + 1 * (y 0).val; omega
  | ⟨1, _⟩ => show (y 1).val = win4_7.index t (1 : Fin 2) * 128 + 1 * (y 1).val; omega

/-- An index of the output table lies in a point's block when each coordinate is in the block's range on its axis. -/
theorem mem_block4 (t : Fin cfg4.N) (i : S128x128.Idx) :
    i ∈ ((cfg4.win 7).blk t).view.set ↔ ∀ a : Fin 2, win4_7.index t a * S128x128.size a ≤ (i a).val ∧ (i a).val < win4_7.index t a * S128x128.size a + S128x128.size a := by
  show i ∈ ((View.whole main_v110).slice (win4_7.rect t)).set ↔ _
  rw [View.set_slice_whole, Rect.mem_set_unit]
  exact Iff.rfl

/-- After region 4 its output table is the three layers applied to the input tables as the region found them:
    the one point's block covers every index. -/
theorem region4_arr :
    ((dat4 (F := Ideal) V c).arrAt 7 cfg4.N : S128x128.Idx → EReal)
      = biasReluG (F := Ideal) (timesG (biasReluG (timesG (biasReluG (timesG16 (V c main_arg1) (V c main_arg13)) (V c main_v107)) (V c main_arg15)) (V c main_v108)) (V c main_arg17)) (V c main_v109) :=
  (dat4 (F := Ideal) V c).arrAt_eq_of_cover 7 (table4 V c) (fun t _ => flushed4 V c t) fun i => by
    have hN : 0 < grid4.N := by rw [N_4]; decide
    refine ⟨⟨0, hN⟩, flush4_7 _, ?_⟩
    rw [mem_block4]
    have h := index4_zero ⟨0, hN⟩
    have h0 : (i 0).val < 128 := (i 0).isLt
    have h1 : (i 1).val < 128 := (i 1).isLt
    intro a
    match a with
    | ⟨0, _⟩ => show win4_7.index ⟨0, hN⟩ (0 : Fin 2) * 128 ≤ (i 0).val ∧ (i 0).val < win4_7.index ⟨0, hN⟩ (0 : Fin 2) * 128 + 128; omega
    | ⟨1, _⟩ => show win4_7.index ⟨0, hN⟩ (1 : Fin 2) * 128 ≤ (i 1).val ∧ (i 1).val < win4_7.index ⟨0, hN⟩ (1 : Fin 2) * 128 + 128; omega

/-! ## Region 5 -/

/-- Region 5's grid has one point, and there every window's block index is zero on both axes: each window's one
    block is its whole table. -/
theorem index5_zero : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0 :=
  (by decide +kernel : ∀ t : Fin grid5.N, _)

/-- Window 0's one block is its whole table: an element's coordinate in the table is 0 × the block's size + its
    coordinate in the block. -/
theorem block5_0 (t : Fin cfg5.N) : (iblk5 V c 0 t : Vec Ideal S128x256 .f32) = (V c main_v111 : S128x256.Idx → EReal) := by
  have h := index5_zero t
  funext y
  show V c main_v111 (((cfg5.win 0).blk t).view.emb y) = V c main_v111 y
  refine congrArg _ (funext fun a => Fin.ext ?_)
  match a with
  | ⟨0, _⟩ => show win5_0.index t (0 : Fin 2) * 128 + 1 * (y 0).val = (y 0).val; omega
  | ⟨1, _⟩ => show win5_0.index t (1 : Fin 2) * 256 + 1 * (y 1).val = (y 1).val; omega

/-- Window 1's one block is its whole table: an element's coordinate in the table is 0 × the block's size + its
    coordinate in the block. -/
theorem block5_1 (t : Fin cfg5.N) : (iblk5 V c 1 t : Vec Ideal S256x128 .f32) = (V c main_arg19 : S256x128.Idx → EReal) := by
  have h := index5_zero t
  funext y
  show V c main_arg19 (((cfg5.win 1).blk t).view.emb y) = V c main_arg19 y
  refine congrArg _ (funext fun a => Fin.ext ?_)
  match a with
  | ⟨0, _⟩ => show win5_1.index t (0 : Fin 2) * 256 + 1 * (y 0).val = (y 0).val; omega
  | ⟨1, _⟩ => show win5_1.index t (1 : Fin 2) * 128 + 1 * (y 1).val = (y 1).val; omega

/-- Window 2's one block is its whole table: an element's coordinate in the table is 0 × the block's size + its
    coordinate in the block. -/
theorem block5_2 (t : Fin cfg5.N) : (iblk5 V c 2 t : Vec Ideal S1x128 .f32) = (V c main_v112 : S1x128.Idx → EReal) := by
  have h := index5_zero t
  funext y
  show V c main_v112 (((cfg5.win 2).blk t).view.emb y) = V c main_v112 y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- Window 3's one block is its whole table: an element's coordinate in the table is 0 × the block's size + its
    coordinate in the block. -/
theorem block5_3 (t : Fin cfg5.N) : (iblk5 V c 3 t : Vec Ideal S128x128 .f32) = (V c main_arg21 : S128x128.Idx → EReal) := by
  have h := index5_zero t
  funext y
  show V c main_arg21 (((cfg5.win 3).blk t).view.emb y) = V c main_arg21 y
  refine congrArg _ (funext fun a => Fin.ext ?_)
  match a with
  | ⟨0, _⟩ => show win5_3.index t (0 : Fin 2) * 128 + 1 * (y 0).val = (y 0).val; omega
  | ⟨1, _⟩ => show win5_3.index t (1 : Fin 2) * 128 + 1 * (y 1).val = (y 1).val; omega

/-- Window 4's one block is its whole table: an element's coordinate in the table is 0 × the block's size + its
    coordinate in the block. -/
theorem block5_4 (t : Fin cfg5.N) : (iblk5 V c 4 t : Vec Ideal S1x128 .f32) = (V c main_v113 : S1x128.Idx → EReal) := by
  have h := index5_zero t
  funext y
  show V c main_v113 (((cfg5.win 4).blk t).view.emb y) = V c main_v113 y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- Window 5's one block is its whole table: an element's coordinate in the table is 0 × the block's size + its
    coordinate in the block. -/
theorem block5_5 (t : Fin cfg5.N) : (iblk5 V c 5 t : Vec Ideal S128x128 .f32) = (V c main_arg23 : S128x128.Idx → EReal) := by
  have h := index5_zero t
  funext y
  show V c main_arg23 (((cfg5.win 5).blk t).view.emb y) = V c main_arg23 y
  refine congrArg _ (funext fun a => Fin.ext ?_)
  match a with
  | ⟨0, _⟩ => show win5_5.index t (0 : Fin 2) * 128 + 1 * (y 0).val = (y 0).val; omega
  | ⟨1, _⟩ => show win5_5.index t (1 : Fin 2) * 128 + 1 * (y 1).val = (y 1).val; omega

/-- Window 6's one block is its whole table: an element's coordinate in the table is 0 × the block's size + its
    coordinate in the block. -/
theorem block5_6 (t : Fin cfg5.N) : (iblk5 V c 6 t : Vec Ideal S1x128 .f32) = (V c main_v114 : S1x128.Idx → EReal) := by
  have h := index5_zero t
  funext y
  show V c main_v114 (((cfg5.win 6).blk t).view.emb y) = V c main_v114 y
  refine congrArg _ (funext fun a => Fin.ext ?_)
  match a with
  | ⟨0, _⟩ => show win5_6.index t (0 : Fin 2) * 1 + 1 * (y 0).val = (y 0).val; omega
  | ⟨1, _⟩ => show win5_6.index t (1 : Fin 2) * 128 + 1 * (y 1).val = (y 1).val; omega

/-- What the three layers make of the region's input tables as it finds them. -/
def table5 : S128x128.Idx → EReal :=
  biasG (F := Ideal) (timesG (biasReluG (timesG (biasReluG (timesG256 (V c main_v111) (V c main_arg19)) (V c main_v112)) (V c main_arg21)) (V c main_v113)) (V c main_arg23)) (V c main_v114)

/-- What the one point writes back is the whole of that table, read through the output window's one block. -/
theorem flushed5 (t : Fin cfg5.N) :
    (dat5 (F := Ideal) V c).flushed 7 t = ((cfg5.win 7).blk t).view.read (Elt Ideal) (table5 V c) := by
  show (cfg5.win 7).cut (grid5.coords t) ((dat5 V c).after 7 t) = _
  rw [after5_7]
  unfold out5_7
  rw [View.canon_unit_zero offsets_zero]
  simp only [View.ld_unit_zero (S := S128x256) offsets_zero, View.ld_unit_zero (S := S256x128) offsets_zero, View.ld_unit_zero (S := S1x128) offsets_zero, View.ld_unit_zero (S := S128x128) offsets_zero]
  rw [block5_0 V c t, block5_1 V c t, block5_2 V c t, block5_3 V c t, block5_4 V c t, block5_5 V c t, block5_6 V c t]
  rw [layers5 (V c main_v111) (V c main_arg19) (V c main_v112) (V c main_arg21) (V c main_v113) (V c main_arg23) (V c main_v114)]
  have h := index5_zero t
  funext y
  show table5 V c y = table5 V c (((cfg5.win 7).blk t).view.emb y)
  refine congrArg _ (funext fun a => Fin.ext ?_)
  match a with
  | ⟨0, _⟩ => show (y 0).val = win5_7.index t (0 : Fin 2) * 128 + 1 * (y 0).val; omega
  | ⟨1, _⟩ => show (y 1).val = win5_7.index t (1 : Fin 2) * 128 + 1 * (y 1).val; omega

/-- An index of the output table lies in a point's block when each coordinate is in the block's range on its axis. -/
theorem mem_block5 (t : Fin cfg5.N) (i : S128x128.Idx) :
    i ∈ ((cfg5.win 7).blk t).view.set ↔ ∀ a : Fin 2, win5_7.index t a * S128x128.size a ≤ (i a).val ∧ (i a).val < win5_7.index t a * S128x128.size a + S128x128.size a := by
  show i ∈ ((View.whole main_v115).slice (win5_7.rect t)).set ↔ _
  rw [View.set_slice_whole, Rect.mem_set_unit]
  exact Iff.rfl

/-- After region 5 its output table is the three layers applied to the input tables as the region found them:
    the one point's block covers every index. -/
theorem region5_arr :
    ((dat5 (F := Ideal) V c).arrAt 7 cfg5.N : S128x128.Idx → EReal)
      = biasG (F := Ideal) (timesG (biasReluG (timesG (biasReluG (timesG256 (V c main_v111) (V c main_arg19)) (V c main_v112)) (V c main_arg21)) (V c main_v113)) (V c main_arg23)) (V c main_v114) :=
  (dat5 (F := Ideal) V c).arrAt_eq_of_cover 7 (table5 V c) (fun t _ => flushed5 V c t) fun i => by
    have hN : 0 < grid5.N := by rw [N_5]; decide
    refine ⟨⟨0, hN⟩, flush5_7 _, ?_⟩
    rw [mem_block5]
    have h := index5_zero ⟨0, hN⟩
    have h0 : (i 0).val < 128 := (i 0).isLt
    have h1 : (i 1).val < 128 := (i 1).isLt
    intro a
    match a with
    | ⟨0, _⟩ => show win5_7.index ⟨0, hN⟩ (0 : Fin 2) * 128 ≤ (i 0).val ∧ (i 0).val < win5_7.index ⟨0, hN⟩ (0 : Fin 2) * 128 + 128; omega
    | ⟨1, _⟩ => show win5_7.index ⟨0, hN⟩ (1 : Fin 2) * 128 ≤ (i 1).val ∧ (i 1).val < win5_7.index ⟨0, hN⟩ (1 : Fin 2) * 128 + 128; omega

end Cert.Bridge.Dense
end
-- ==== Proof.KernelValue.lean ====
/-
  What the idealized kernel's program leaves in its result array, as one function of its arguments.

  The program is sixteen segments: five stretches of host operations (the edges' node words with the self-loops
  appended, the degrees, their reciprocal square roots, the per-edge weights, and the first aggregation of the raw
  node features at width sixteen), then six regions alternating with five further stretches (three aggregations at
  width 128, the per-graph mean, the concatenation). The buffer contents at each boundary are a fold through the
  segments. Read at the buffers that matter, the fold gives, boundary by boundary: what a stretch computes from
  the buffers it reads (its operations composed), what a region leaves in its output array (a layer of the
  network applied to its input arrays), and, for a buffer that nothing in between writes and that is no region's
  array, the contents it had before. Chaining these from the launch contents to the last region gives the
  kernel's whole network applied to the twenty-five argument arrays.
-/
import proofs.«101641_j12704513261988_2_alg».proof.Proof.Gen.KernelIdeal.Frame
import proofs.«101641_j12704513261988_2_alg».proof.Proof.Gen.ReferenceIdeal
import proofs.«101641_j12704513261988_2_alg».proof.Proof.HostChain
import proofs.«101641_j12704513261988_2_alg».proof.Proof.RegionFirst
import proofs.«101641_j12704513261988_2_alg».proof.Proof.RegionLayers
import proofs.«101641_j12704513261988_2_alg».proof.Proof.RegionDense
import Idealize.ShloMosaic.PureOps.Ideal
import Idealize.ShloMosaic.PureOps.Ideal.Laws
import Idealize.ShloMosaic.Lib.StableHlo.Run

noncomputable section

set_option maxRecDepth 16384

namespace Cert.Bridge.KernelValue

open Idealize.ShloMosaic Idealize.ShloMosaic.TcCoe Idealize.SL.Sem Cert.KernelIdeal Cert.KernelIdeal.Gen Cert.Bridge
open Idealize.ShloMosaic.StableHlo

/-! ## The contents when the first region is entered, at any float instance -/

section Opening

variable {F : FTy → Type} [FloatOps F] (m : (ℓ : Loc nD τ sig) → Buf (Elt F) ℓ) (ρ : Dev nD → PrngReg) (c : Dev nD)

local macro "read_opening" : tactic => `(tactic| (
  delta W5 W4 W3 W2 W1
  simp only [hostOps0, hostOps0_1, hostOps0_2, hostOps0_3, hostOps0_4]
  after_results_simp
  rfl))

theorem open_src : (W5 m ρ c (Proc.devRef .tc main_v5) : S850000.Idx → BitVec 32) = srcF (m ((c : Thread nD τ).loc main_arg2)) := by read_opening
theorem open_dst : (W5 m ρ c (Proc.devRef .tc main_v6) : S850000.Idx → BitVec 32) = dstF (m ((c : Thread nD τ).loc main_arg2)) := by read_opening
theorem open_norm : (W5 m ρ c (Proc.devRef .tc main_v34) : S850000.Idx → F .f32)
    = norm (m ((c : Thread nD τ).loc main_arg2)) (m ((c : Thread nD τ).loc main_arg4)) := by read_opening
theorem open_agg0 : (W5 m ρ c (Proc.devRef .tc main_v47) : S50000x16.Idx → F .f32)
    = agg16 (norm (m ((c : Thread nD τ).loc main_arg2)) (m ((c : Thread nD τ).loc main_arg4))) (srcF (m ((c : Thread nD τ).loc main_arg2)))
        (dstF (m ((c : Thread nD τ).loc main_arg2))) (m ((c : Thread nD τ).loc main_arg0)) := by read_opening
theorem open_bias0 : (W5 m ρ c (Proc.devRef .tc main_v48) : S1x128.Idx → F .f32) = rowCast (m ((c : Thread nD τ).loc main_arg6)) := by read_opening

end Opening

variable (m : (ℓ : Loc nD τ sig) → Buf (Elt Ideal) ℓ) (ρ : Dev nD → PrngReg) (c : Dev nD)

set_option quotPrecheck false in
local notation "arg[" i "]" => m ((c : Thread nD τ).loc i)

/-! ## What each stretch of host operations writes -/

abbrev wr0 : List (Ref sig .tc) := [main_v0, main_v1, main_v2, main_v3, main_v4, main_v5, main_v6, main_cst, main_v7, main_v8,
  main_cst_0, main_v9, main_v10, main_v11, main_cst_1, main_v12, main_v13, main_cst_2, main_v14, main_v15, main_cst_3]
abbrev wr0_1 : List (Ref sig .tc) := [main_call0_v0, main_call0_v1, main_v16]
abbrev wr0_2 : List (Ref sig .tc) := [main_v17, main_cst_4]
abbrev wr0_3 : List (Ref sig .tc) := [main_call1_v0, main_call1_v1, main_v18]
abbrev wr0_4 : List (Ref sig .tc) := [main_c, main_v19, main_v20, main_c_5, main_v21, main_v22, main_v23, main_v24, main_v25,
  main_v26, main_c_6, main_v27, main_v28, main_c_7, main_v29, main_v30, main_v31, main_v32, main_v33, main_v34, main_v35,
  main_c_8, main_v36, main_v37, main_c_9, main_v38, main_v39, main_v40, main_v41, main_v42, main_v43, main_v44, main_cst_10,
  main_v45, main_v46, main_v47, main_v48]
abbrev wr1 : List (Ref sig .tc) := [main_v50, main_c_11, main_v51, main_v52, main_c_12, main_v53, main_v54, main_v55, main_v56,
  main_v57, main_v58, main_v59, main_cst_13, main_v60, main_v61, main_v62, main_v63]
abbrev wr2 : List (Ref sig .tc) := [main_v65, main_c_14, main_v66, main_v67, main_c_15, main_v68, main_v69, main_v70, main_v71,
  main_v72, main_v73, main_v74, main_cst_16, main_v75, main_v76, main_v77, main_v78]
abbrev wr3 : List (Ref sig .tc) := [main_v80, main_c_17, main_v81, main_v82, main_c_18, main_v83, main_v84, main_v85, main_v86,
  main_v87, main_v88, main_v89, main_cst_19, main_v90, main_v91, main_v92, main_v93]
abbrev wr4 : List (Ref sig .tc) := [main_cst_20, main_v95, main_v96, main_v97, main_cst_21, main_v98, main_cst_22, main_v99,
  main_v100, main_v101, main_cst_23, main_v102, main_v103, main_v104, main_v105, main_v106, main_v107, main_v108, main_v109]
abbrev wr5 : List (Ref sig .tc) := [main_v111, main_v112, main_v113, main_v114]

local macro "writes_sub" ops:ident : tactic => `(tactic| (
  simp only [$ops:ident, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.singleton_subset_iff, List.mem_toFinset]
  repeat' apply And.intro
  all_goals exact List.mem_map_of_mem (by decide)))

theorem writes0 : (hostOps0 : List (HloOp τ sig (Elt Ideal))).Forall fun op => op.writes ⊆ (wr0.map (Proc.devRef (τ := τ) .tc)).toFinset := by writes_sub hostOps0
theorem writes0_1 : (hostOps0_1 : List (HloOp τ sig (Elt Ideal))).Forall fun op => op.writes ⊆ (wr0_1.map (Proc.devRef (τ := τ) .tc)).toFinset := by writes_sub hostOps0_1
theorem writes0_2 : (hostOps0_2 : List (HloOp τ sig (Elt Ideal))).Forall fun op => op.writes ⊆ (wr0_2.map (Proc.devRef (τ := τ) .tc)).toFinset := by writes_sub hostOps0_2
theorem writes0_3 : (hostOps0_3 : List (HloOp τ sig (Elt Ideal))).Forall fun op => op.writes ⊆ (wr0_3.map (Proc.devRef (τ := τ) .tc)).toFinset := by writes_sub hostOps0_3
theorem writes0_4 : (hostOps0_4 : List (HloOp τ sig (Elt Ideal))).Forall fun op => op.writes ⊆ (wr0_4.map (Proc.devRef (τ := τ) .tc)).toFinset := by writes_sub hostOps0_4
theorem writes1 : (hostOps1 : List (HloOp τ sig (Elt Ideal))).Forall fun op => op.writes ⊆ (wr1.map (Proc.devRef (τ := τ) .tc)).toFinset := by writes_sub hostOps1
theorem writes2 : (hostOps2 : List (HloOp τ sig (Elt Ideal))).Forall fun op => op.writes ⊆ (wr2.map (Proc.devRef (τ := τ) .tc)).toFinset := by writes_sub hostOps2
theorem writes3 : (hostOps3 : List (HloOp τ sig (Elt Ideal))).Forall fun op => op.writes ⊆ (wr3.map (Proc.devRef (τ := τ) .tc)).toFinset := by writes_sub hostOps3
theorem writes4 : (hostOps4 : List (HloOp τ sig (Elt Ideal))).Forall fun op => op.writes ⊆ (wr4.map (Proc.devRef (τ := τ) .tc)).toFinset := by writes_sub hostOps4
theorem writes5 : (hostOps5 : List (HloOp τ sig (Elt Ideal))).Forall fun op => op.writes ⊆ (wr5.map (Proc.devRef (τ := τ) .tc)).toFinset := by writes_sub hostOps5

/-! ## A buffer nothing has written holds its launch contents when the first region is entered -/

theorem launch_at5 (b : Ref sig .tc) (h0 : b ∉ wr0) (h1 : b ∉ wr0_1) (h2 : b ∉ wr0_2) (h3 : b ∉ wr0_3) (h4 : b ∉ wr0_4) :
    W5 m ρ c (Proc.devRef .tc b) = m ((c : Thread nD τ).loc b) :=
  (after_of_writes_sub hostOps0_4 (W4 m ρ c) writes0_4 h4).trans
    ((after_of_writes_sub hostOps0_3 (W3 m ρ c) writes0_3 h3).trans
      ((after_of_writes_sub hostOps0_2 (W2 m ρ c) writes0_2 h2).trans
        ((after_of_writes_sub hostOps0_1 (W1 m ρ c) writes0_1 h1).trans
          (after_of_writes_sub hostOps0 (W0 m ρ c) writes0 h0))))

/-! ## What later stretches and regions leave alone -/

theorem keep7 (b : Ref sig .tc) (h : b ∉ wr1) : W7 m ρ c (Proc.devRef .tc b) = W6 m ρ c (Proc.devRef .tc b) :=
  after_of_writes_sub hostOps1 (W6 m ρ c) writes1 h
theorem keep9 (b : Ref sig .tc) (h : b ∉ wr2) : W9 m ρ c (Proc.devRef .tc b) = W8 m ρ c (Proc.devRef .tc b) :=
  after_of_writes_sub hostOps2 (W8 m ρ c) writes2 h
theorem keep11 (b : Ref sig .tc) (h : b ∉ wr3) : W11 m ρ c (Proc.devRef .tc b) = W10 m ρ c (Proc.devRef .tc b) :=
  after_of_writes_sub hostOps3 (W10 m ρ c) writes3 h
theorem keep13 (b : Ref sig .tc) (h : b ∉ wr4) : W13 m ρ c (Proc.devRef .tc b) = W12 m ρ c (Proc.devRef .tc b) :=
  after_of_writes_sub hostOps4 (W12 m ρ c) writes4 h
theorem keep15 (b : Ref sig .tc) (h : b ∉ wr5) : W15 m ρ c (Proc.devRef .tc b) = W14 m ρ c (Proc.devRef .tc b) :=
  after_of_writes_sub hostOps5 (W14 m ρ c) writes5 h

section Since
variable (b : Ref sig .tc)
  (r0 : ∀ w, Pipeline.arrRef spec0 w ≠ b) (w1 : b ∉ wr1) (r1 : ∀ w, Pipeline.arrRef spec1 w ≠ b) (w2 : b ∉ wr2)
  (r2 : ∀ w, Pipeline.arrRef spec2 w ≠ b) (w3 : b ∉ wr3) (r3 : ∀ w, Pipeline.arrRef spec3 w ≠ b) (w4 : b ∉ wr4)
  (r4 : ∀ w, Pipeline.arrRef spec4 w ≠ b) (w5 : b ∉ wr5)
include r0 in
theorem since6 : W6 m ρ c (Proc.devRef .tc b) = W5 m ρ c (Proc.devRef .tc b) := W6_of_ne m ρ c b r0
include r0 w1 in
theorem since7 : W7 m ρ c (Proc.devRef .tc b) = W5 m ρ c (Proc.devRef .tc b) := (keep7 m ρ c b w1).trans (since6 m ρ c b r0)
include r0 w1 r1 in
theorem since8 : W8 m ρ c (Proc.devRef .tc b) = W5 m ρ c (Proc.devRef .tc b) := (W8_of_ne m ρ c b r1).trans (since7 m ρ c b r0 w1)
include r0 w1 r1 w2 in
theorem since9 : W9 m ρ c (Proc.devRef .tc b) = W5 m ρ c (Proc.devRef .tc b) := (keep9 m ρ c b w2).trans (since8 m ρ c b r0 w1 r1)
include r0 w1 r1 w2 r2 in
theorem since10 : W10 m ρ c (Proc.devRef .tc b) = W5 m ρ c (Proc.devRef .tc b) := (W10_of_ne m ρ c b r2).trans (since9 m ρ c b r0 w1 r1 w2)
include r0 w1 r1 w2 r2 w3 in
theorem since11 : W11 m ρ c (Proc.devRef .tc b) = W5 m ρ c (Proc.devRef .tc b) := (keep11 m ρ c b w3).trans (since10 m ρ c b r0 w1 r1 w2 r2)
include r0 w1 r1 w2 r2 w3 r3 in
theorem since12 : W12 m ρ c (Proc.devRef .tc b) = W5 m ρ c (Proc.devRef .tc b) := (W12_of_ne m ρ c b r3).trans (since11 m ρ c b r0 w1 r1 w2 r2 w3)
include r0 w1 r1 w2 r2 w3 r3 w4 in
theorem since13 : W13 m ρ c (Proc.devRef .tc b) = W5 m ρ c (Proc.devRef .tc b) := (keep13 m ρ c b w4).trans (since12 m ρ c b r0 w1 r1 w2 r2 w3 r3)
include r0 w1 r1 w2 r2 w3 r3 w4 r4 in
theorem since14 : W14 m ρ c (Proc.devRef .tc b) = W5 m ρ c (Proc.devRef .tc b) := (W14_of_ne m ρ c b r4).trans (since13 m ρ c b r0 w1 r1 w2 r2 w3 r3 w4)
include r0 w1 r1 w2 r2 w3 r3 w4 r4 w5 in
theorem since15 : W15 m ρ c (Proc.devRef .tc b) = W5 m ρ c (Proc.devRef .tc b) := (keep15 m ρ c b w5).trans (since14 m ρ c b r0 w1 r1 w2 r2 w3 r3 w4 r4)
end Since

/-! ## The contents when the first region is entered -/

theorem at5_src : (W5 m ρ c (Proc.devRef .tc main_v5) : S850000.Idx → BitVec 32) = srcF arg[main_arg2] := open_src m ρ c
theorem at5_dst : (W5 m ρ c (Proc.devRef .tc main_v6) : S850000.Idx → BitVec 32) = dstF arg[main_arg2] := open_dst m ρ c
theorem at5_norm : (W5 m ρ c (Proc.devRef .tc main_v34) : S850000.Idx → EReal) = norm (F := Ideal) arg[main_arg2] arg[main_arg4] := open_norm m ρ c
theorem at5_agg0 : (W5 m ρ c (Proc.devRef .tc main_v47) : S50000x16.Idx → EReal)
    = agg16 (F := Ideal) (norm arg[main_arg2] arg[main_arg4]) (srcF arg[main_arg2]) (dstF arg[main_arg2]) arg[main_arg0] := open_agg0 m ρ c
theorem at5_bias0 : (W5 m ρ c (Proc.devRef .tc main_v48) : S1x128.Idx → EReal) = rowCast (F := Ideal) arg[main_arg6] := open_bias0 m ρ c

/-! ## The kernel's network, table by table, as functions of the launch contents -/

/-- The per-edge weights, and the edges' source and destination node words. -/
abbrev nrm := norm (F := Ideal) arg[main_arg2] arg[main_arg4]
abbrev src := srcF arg[main_arg2]
abbrev dst := dstF arg[main_arg2]
/-- The second layer's product: the first layer (aggregate the raw features, transform, bias, clamp) times the second matrix. -/
abbrev hw1 := times128 (F := Ideal) (biasRelu (times16 (agg16 (nrm m c) (src m c) (dst m c) arg[main_arg0]) arg[main_arg5]) (rowCast arg[main_arg6])) arg[main_arg7]
/-- The third and fourth layers' products. -/
abbrev hw2 := times128 (F := Ideal) (biasRelu (agg128 (nrm m c) (src m c) (dst m c) (hw1 m c)) (rowCast arg[main_arg8])) arg[main_arg9]
abbrev hw3 := times128 (F := Ideal) (biasRelu (agg128 (nrm m c) (src m c) (dst m c) (hw2 m c)) (rowCast arg[main_arg10])) arg[main_arg11]
/-- The last hidden node table, and its per-graph mean. -/
abbrev hid := biasRelu (F := Ideal) (agg128 (nrm m c) (src m c) (dst m c) (hw3 m c)) (rowCast arg[main_arg12])
abbrev pooled := pool (F := Ideal) arg[main_arg3] (hid m c)
/-- The context table after its three layers. -/
abbrev cx := ctx (F := Ideal) arg[main_arg1] arg[main_arg13] arg[main_arg14] arg[main_arg15] arg[main_arg16] arg[main_arg17] arg[main_arg18] rowCast

/-! ## The first region and the stretch after it -/

theorem at6_hw1 : (W6 m ρ c (Proc.devRef .tc main_v49) : S50000x128.Idx → EReal) = hw1 m c := by
  refine (W6_arr m ρ c 4).trans ((First.region0_arr (V5 m ρ) c).trans ?_)
  show times128 (F := Ideal) (biasRelu (times16 (W5 m ρ c (Proc.devRef .tc main_v47)) (W5 m ρ c (Proc.devRef .tc main_arg5)))
    (W5 m ρ c (Proc.devRef .tc main_v48))) (W5 m ρ c (Proc.devRef .tc main_arg7)) = _
  rw [at5_agg0, at5_bias0, launch_at5 m ρ c main_arg5 (by decide) (by decide) (by decide) (by decide) (by decide), launch_at5 m ρ c main_arg7 (by decide) (by decide) (by decide) (by decide) (by decide)]

theorem at6_src : (W6 m ρ c (Proc.devRef .tc main_v5) : S850000.Idx → BitVec 32) = src m c := (since6 m ρ c main_v5 (by decide)).trans (at5_src m ρ c)
theorem at6_dst : (W6 m ρ c (Proc.devRef .tc main_v6) : S850000.Idx → BitVec 32) = dst m c := (since6 m ρ c main_v6 (by decide)).trans (at5_dst m ρ c)
theorem at6_norm : (W6 m ρ c (Proc.devRef .tc main_v34) : S850000.Idx → EReal) = nrm m c := (since6 m ρ c main_v34 (by decide)).trans (at5_norm m ρ c)

theorem at7_agg1 : (W7 m ρ c (Proc.devRef .tc main_v62) : S50000x128.Idx → EReal) = agg128 (nrm m c) (src m c) (dst m c) (hw1 m c) := by
  delta W7
  simp only [hostOps1]
  after_results_simp
  rw [at6_dst, at6_norm, at6_src, at6_hw1]
  rfl
theorem at7_bias1 : (W7 m ρ c (Proc.devRef .tc main_v63) : S1x128.Idx → EReal) = rowCast (F := Ideal) arg[main_arg8] := by
  delta W7
  simp only [hostOps1]
  after_results_simp
  rw [since6 m ρ c main_arg8 (by decide), launch_at5 m ρ c main_arg8 (by decide) (by decide) (by decide) (by decide) (by decide)]
  rfl
theorem at7_w2 : W7 m ρ c (Proc.devRef .tc main_arg9) = arg[main_arg9] := (since7 m ρ c main_arg9 (by decide) (by decide)).trans (launch_at5 m ρ c main_arg9 (by decide) (by decide) (by decide) (by decide) (by decide))

/-! ## The second region and the stretch after it -/

theorem at8_hw2 : (W8 m ρ c (Proc.devRef .tc main_v64) : S50000x128.Idx → EReal) = hw2 m c := by
  refine (W8_arr m ρ c 3).trans ((Layers.region1_arr (V7 m ρ) c).trans ?_)
  show times128 (F := Ideal) (biasRelu (W7 m ρ c (Proc.devRef .tc main_v62)) (W7 m ρ c (Proc.devRef .tc main_v63))) (W7 m ρ c (Proc.devRef .tc main_arg9)) = _
  rw [at7_agg1, at7_bias1, at7_w2]

theorem at8_src : (W8 m ρ c (Proc.devRef .tc main_v5) : S850000.Idx → BitVec 32) = src m c := (since8 m ρ c main_v5 (by decide) (by decide) (by decide)).trans (at5_src m ρ c)
theorem at8_dst : (W8 m ρ c (Proc.devRef .tc main_v6) : S850000.Idx → BitVec 32) = dst m c := (since8 m ρ c main_v6 (by decide) (by decide) (by decide)).trans (at5_dst m ρ c)
theorem at8_norm : (W8 m ρ c (Proc.devRef .tc main_v34) : S850000.Idx → EReal) = nrm m c := (since8 m ρ c main_v34 (by decide) (by decide) (by decide)).trans (at5_norm m ρ c)

theorem at9_agg2 : (W9 m ρ c (Proc.devRef .tc main_v77) : S50000x128.Idx → EReal) = agg128 (nrm m c) (src m c) (dst m c) (hw2 m c) := by
  delta W9
  simp only [hostOps2]
  after_results_simp
  rw [at8_dst, at8_norm, at8_src, at8_hw2]
  rfl
theorem at9_bias2 : (W9 m ρ c (Proc.devRef .tc main_v78) : S1x128.Idx → EReal) = rowCast (F := Ideal) arg[main_arg10] := by
  delta W9
  simp only [hostOps2]
  after_results_simp
  rw [since8 m ρ c main_arg10 (by decide) (by decide) (by decide), launch_at5 m ρ c main_arg10 (by decide) (by decide) (by decide) (by decide) (by decide)]
  rfl
theorem at9_w3 : W9 m ρ c (Proc.devRef .tc main_arg11) = arg[main_arg11] := (since9 m ρ c main_arg11 (by decide) (by decide) (by decide) (by decide)).trans (launch_at5 m ρ c main_arg11 (by decide) (by decide) (by decide) (by decide) (by decide))

/-! ## The third region and the stretch after it -/

theorem at10_hw3 : (W10 m ρ c (Proc.devRef .tc main_v79) : S50000x128.Idx → EReal) = hw3 m c := by
  refine (W10_arr m ρ c 3).trans ((Layers.region2_arr (V9 m ρ) c).trans ?_)
  show times128 (F := Ideal) (biasRelu (W9 m ρ c (Proc.devRef .tc main_v77)) (W9 m ρ c (Proc.devRef .tc main_v78))) (W9 m ρ c (Proc.devRef .tc main_arg11)) = _
  rw [at9_agg2, at9_bias2, at9_w3]

theorem at10_src : (W10 m ρ c (Proc.devRef .tc main_v5) : S850000.Idx → BitVec 32) = src m c := (since10 m ρ c main_v5 (by decide) (by decide) (by decide) (by decide) (by decide)).trans (at5_src m ρ c)
theorem at10_dst : (W10 m ρ c (Proc.devRef .tc main_v6) : S850000.Idx → BitVec 32) = dst m c := (since10 m ρ c main_v6 (by decide) (by decide) (by decide) (by decide) (by decide)).trans (at5_dst m ρ c)
theorem at10_norm : (W10 m ρ c (Proc.devRef .tc main_v34) : S850000.Idx → EReal) = nrm m c := (since10 m ρ c main_v34 (by decide) (by decide) (by decide) (by decide) (by decide)).trans (at5_norm m ρ c)

theorem at11_agg3 : (W11 m ρ c (Proc.devRef .tc main_v92) : S50000x128.Idx → EReal) = agg128 (nrm m c) (src m c) (dst m c) (hw3 m c) := by
  delta W11
  simp only [hostOps3]
  after_results_simp
  rw [at10_dst, at10_norm, at10_src, at10_hw3]
  rfl
theorem at11_bias3 : (W11 m ρ c (Proc.devRef .tc main_v93) : S1x128.Idx → EReal) = rowCast (F := Ideal) arg[main_arg12] := by
  delta W11
  simp only [hostOps3]
  after_results_simp
  rw [since10 m ρ c main_arg12 (by decide) (by decide) (by decide) (by decide) (by decide), launch_at5 m ρ c main_arg12 (by decide) (by decide) (by decide) (by decide) (by decide)]
  rfl

/-! ## The fourth region, the pooling, and the context region -/

theorem at12_hid : (W12 m ρ c (Proc.devRef .tc main_v94) : S50000x128.Idx → EReal) = hid m c := by
  refine (W12_arr m ρ c 2).trans ((Layers.region3_arr (V11 m ρ) c).trans ?_)
  show biasRelu (F := Ideal) (W11 m ρ c (Proc.devRef .tc main_v92)) (W11 m ρ c (Proc.devRef .tc main_v93)) = _
  rw [at11_agg3, at11_bias3]

theorem at13_pooled : (W13 m ρ c (Proc.devRef .tc main_v106) : S128x128.Idx → EReal) = pooled m c := by
  delta W13
  simp only [hostOps4]
  after_results_simp
  rw [since12 m ρ c main_arg3 (by decide) (by decide) (by decide) (by decide) (by decide) (by decide) (by decide), launch_at5 m ρ c main_arg3 (by decide) (by decide) (by decide) (by decide) (by decide), at12_hid]
  rfl
theorem at13_cb0 : (W13 m ρ c (Proc.devRef .tc main_v107) : S1x128.Idx → EReal) = rowCast (F := Ideal) arg[main_arg14] := by
  delta W13
  simp only [hostOps4]
  after_results_simp
  rw [since12 m ρ c main_arg14 (by decide) (by decide) (by decide) (by decide) (by decide) (by decide) (by decide), launch_at5 m ρ c main_arg14 (by decide) (by decide) (by decide) (by decide) (by decide)]
  rfl
theorem at13_cb1 : (W13 m ρ c (Proc.devRef .tc main_v108) : S1x128.Idx → EReal) = rowCast (F := Ideal) arg[main_arg16] := by
  delta W13
  simp only [hostOps4]
  after_results_simp
  rw [since12 m ρ c main_arg16 (by decide) (by decide) (by decide) (by decide) (by decide) (by decide) (by decide), launch_at5 m ρ c main_arg16 (by decide) (by decide) (by decide) (by decide) (by decide)]
  rfl
theorem at13_cb2 : (W13 m ρ c (Proc.devRef .tc main_v109) : S1x128.Idx → EReal) = rowCast (F := Ideal) arg[main_arg18] := by
  delta W13
  simp only [hostOps4]
  after_results_simp
  rw [since12 m ρ c main_arg18 (by decide) (by decide) (by decide) (by decide) (by decide) (by decide) (by decide), launch_at5 m ρ c main_arg18 (by decide) (by decide) (by decide) (by decide) (by decide)]
  rfl
theorem at13_arg1 : W13 m ρ c (Proc.devRef .tc main_arg1) = arg[main_arg1] := (since13 m ρ c main_arg1 (by decide) (by decide) (by decide) (by decide) (by decide) (by decide) (by decide) (by decide)).trans (launch_at5 m ρ c main_arg1 (by decide) (by decide) (by decide) (by decide) (by decide))
theorem at13_arg13 : W13 m ρ c (Proc.devRef .tc main_arg13) = arg[main_arg13] := (since13 m ρ c main_arg13 (by decide) (by decide) (by decide) (by decide) (by decide) (by decide) (by decide) (by decide)).trans (launch_at5 m ρ c main_arg13 (by decide) (by decide) (by decide) (by decide) (by decide))
theorem at13_arg15 : W13 m ρ c (Proc.devRef .tc main_arg15) = arg[main_arg15] := (since13 m ρ c main_arg15 (by decide) (by decide) (by decide) (by decide) (by decide) (by decide) (by decide) (by decide)).trans (launch_at5 m ρ c main_arg15 (by decide) (by decide) (by decide) (by decide) (by decide))
theorem at13_arg17 : W13 m ρ c (Proc.devRef .tc main_arg17) = arg[main_arg17] := (since13 m ρ c main_arg17 (by decide) (by decide) (by decide) (by decide) (by decide) (by decide) (by decide) (by decide)).trans (launch_at5 m ρ c main_arg17 (by decide) (by decide) (by decide) (by decide) (by decide))

theorem at14_cx : (W14 m ρ c (Proc.devRef .tc main_v110) : S128x128.Idx → EReal) = cx m c := by
  refine (W14_arr m ρ c 7).trans ((Dense.region4_arr (V13 m ρ) c).trans ?_)
  show biasReluG (F := Ideal) (timesG (biasReluG (timesG (biasReluG (timesG16 (W13 m ρ c (Proc.devRef .tc main_arg1)) (W13 m ρ c (Proc.devRef .tc main_arg13)))
    (W13 m ρ c (Proc.devRef .tc main_v107))) (W13 m ρ c (Proc.devRef .tc main_arg15))) (W13 m ρ c (Proc.devRef .tc main_v108))) (W13 m ρ c (Proc.devRef .tc main_arg17)))
    (W13 m ρ c (Proc.devRef .tc main_v109)) = _
  rw [at13_arg1, at13_arg13, at13_cb0, at13_arg15, at13_cb1, at13_arg17, at13_cb2]
  rfl

theorem at14_pooled : (W14 m ρ c (Proc.devRef .tc main_v106) : S128x128.Idx → EReal) = pooled m c :=
  (W14_of_ne m ρ c main_v106 (by decide)).trans (at13_pooled m ρ c)

/-! ## The concatenation and the last region -/

theorem at15_z : (W15 m ρ c (Proc.devRef .tc main_v111) : S128x256.Idx → EReal) = catG (pooled m c) (cx m c) := by
  delta W15
  simp only [hostOps5]
  after_results_simp
  rw [at14_pooled, at14_cx]
  rfl
theorem at15_fb0 : (W15 m ρ c (Proc.devRef .tc main_v112) : S1x128.Idx → EReal) = rowCast (F := Ideal) arg[main_arg20] := by
  delta W15
  simp only [hostOps5]
  after_results_simp
  rw [since14 m ρ c main_arg20 (by decide) (by decide) (by decide) (by decide) (by decide) (by decide) (by decide) (by decide) (by decide), launch_at5 m ρ c main_arg20 (by decide) (by decide) (by decide) (by decide) (by decide)]
  rfl
theorem at15_fb1 : (W15 m ρ c (Proc.devRef .tc main_v113) : S1x128.Idx → EReal) = rowCast (F := Ideal) arg[main_arg22] := by
  delta W15
  simp only [hostOps5]
  after_results_simp
  rw [since14 m ρ c main_arg22 (by decide) (by decide) (by decide) (by decide) (by decide) (by decide) (by decide) (by decide) (by decide), launch_at5 m ρ c main_arg22 (by decide) (by decide) (by decide) (by decide) (by decide)]
  rfl
theorem at15_fb2 : (W15 m ρ c (Proc.devRef .tc main_v114) : S1x128.Idx → EReal) = rowCast (F := Ideal) arg[main_arg24] := by
  delta W15
  simp only [hostOps5]
  after_results_simp
  rw [since14 m ρ c main_arg24 (by decide) (by decide) (by decide) (by decide) (by decide) (by decide) (by decide) (by decide) (by decide), launch_at5 m ρ c main_arg24 (by decide) (by decide) (by decide) (by decide) (by decide)]
  rfl
theorem at15_arg19 : W15 m ρ c (Proc.devRef .tc main_arg19) = arg[main_arg19] := (since15 m ρ c main_arg19 (by decide) (by decide) (by decide) (by decide) (by decide) (by decide) (by decide) (by decide) (by decide) (by decide)).trans (launch_at5 m ρ c main_arg19 (by decide) (by decide) (by decide) (by decide) (by decide))
theorem at15_arg21 : W15 m ρ c (Proc.devRef .tc main_arg21) = arg[main_arg21] := (since15 m ρ c main_arg21 (by decide) (by decide) (by decide) (by decide) (by decide) (by decide) (by decide) (by decide) (by decide) (by decide)).trans (launch_at5 m ρ c main_arg21 (by decide) (by decide) (by decide) (by decide) (by decide))
theorem at15_arg23 : W15 m ρ c (Proc.devRef .tc main_arg23) = arg[main_arg23] := (since15 m ρ c main_arg23 (by decide) (by decide) (by decide) (by decide) (by decide) (by decide) (by decide) (by decide) (by decide) (by decide)).trans (launch_at5 m ρ c main_arg23 (by decide) (by decide) (by decide) (by decide) (by decide))

/-- THE KERNEL'S RESULT: what the last region leaves in the result array is the kernel's network of the launch
    contents of the twenty-five arguments. -/
theorem result : (W16 m ρ c (Proc.devRef .tc main_v115) : S128x128.Idx → EReal)
    = kerOut (F := Ideal) arg[main_arg0] arg[main_arg1] arg[main_arg2] arg[main_arg3] arg[main_arg4] arg[main_arg5] arg[main_arg6] arg[main_arg7]
        arg[main_arg8] arg[main_arg9] arg[main_arg10] arg[main_arg11] arg[main_arg12] arg[main_arg13] arg[main_arg14] arg[main_arg15]
        arg[main_arg16] arg[main_arg17] arg[main_arg18] arg[main_arg19] arg[main_arg20] arg[main_arg21] arg[main_arg22] arg[main_arg23] arg[main_arg24] := by
  refine (W16_arr m ρ c 7).trans ((Dense.region5_arr (V15 m ρ) c).trans ?_)
  show biasG (F := Ideal) (timesG (biasReluG (timesG (biasReluG (timesG256 (W15 m ρ c (Proc.devRef .tc main_v111)) (W15 m ρ c (Proc.devRef .tc main_arg19)))
    (W15 m ρ c (Proc.devRef .tc main_v112))) (W15 m ρ c (Proc.devRef .tc main_arg21))) (W15 m ρ c (Proc.devRef .tc main_v113))) (W15 m ρ c (Proc.devRef .tc main_arg23)))
    (W15 m ρ c (Proc.devRef .tc main_v114)) = _
  rw [at15_z, at15_arg19, at15_fb0, at15_arg21, at15_fb1, at15_arg23, at15_fb2]
  rfl

end Cert.Bridge.KernelValue

end
-- ==== Proof.RefValue.lean ====
/-
  What the idealized reference leaves in its result array, as one function of its arguments.

  The reference is one straight line of host operations. Composed, they are its network: the per-edge weights
  from the edges and the edge weights; four graph-convolution layers, each transforming every node's row by a
  matrix, summing the weighted rows along the edges into each node, adding a bias row and clamping at zero; the
  per-graph mean; the three context layers; and the three output layers on the two tables side by side.
-/
import proofs.«101641_j12704513261988_2_alg».proof.Proof.Gen.ReferenceIdeal.Run
import proofs.«101641_j12704513261988_2_alg».proof.Proof.HostChain

set_option maxRecDepth 16384

noncomputable section

namespace Cert.Bridge.RefValue

open Idealize.ShloMosaic Idealize.ShloMosaic.TcCoe Idealize.SL.Sem Cert.ReferenceIdeal Cert.Bridge

variable {F : FTy → Type} [FloatOps F]

/-- THE REFERENCE'S RESULT: the composed operations are the reference's network of the launch contents of the
    twenty-five arguments. -/
theorem result (m : (ℓ : Loc nD τ sig) → Buf (Elt F) ℓ) (c : Dev nD) :
    Cert.ReferenceIdeal.Value.res_main_v148 m c
      = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  unfold Cert.ReferenceIdeal.Value.res_main_v148
  rfl

end Cert.Bridge.RefValue

end
-- ==== Proof.LibScatterGather.lean ====
/-
  A gather and an accumulating scatter along the leading axis, read at an index.

  `x[idx]` of an array `x` at an integer array `idx : [E]` lowers to a gather whose start indices are printed
  `[E, 1]` (the index vector on axis 1): of a flat array `[N]` the result's element `e` is `x` at the start index
  `idx[e, 0]` read signed and clamped into `[0, N − 1]`; of a matrix `[N, C]` the result's element `(e, f)` is
  `x` at that row and column `f`. The accumulating scatter with the same index array (a segment sum) adds update
  `e` (update `(e, f)` into column `f`) at the row `idx[e, 0]` read signed and NOT clamped: an update whose row
  is outside `[0, N)` is dropped. On the extended reals the scatter's value at a row is therefore the operand
  plus the sum of the updates whose index word is that row.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## The gathers -/

section Gather
variable {α : Type}

/-- The dimension numbers of `x[idx]` for a flat operand `[N]`, start indices `[E, 1]` and result `[E]`. -/
abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix operand `[N, C]`, start indices `[E, 1]` and result `[E, C]`. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rows_coord0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (0 : Fin 2) + (rowsDims N C E wf).batchCoord (ix2 e f) (0 : Fin 2)
      + (rowsDims N C E wf).offCoord (ix2 e f) (0 : Fin 2) = min (idx (ix2 e (0 : Fin 1))).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims N C E wf).startIndexMap from List.mem_singleton.mpr rfl)]
  have hsi : (rowsDims N C E wf).siIdx (ix2 e f) ⟨List.idxOf (0 : Fin 2) (rowsDims N C E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_coord1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (1 : Fin 2) + (rowsDims N C E wf).batchCoord (ix2 e f) (1 : Fin 2)
      + (rowsDims N C E wf).offCoord (ix2 e f) (1 : Fin 2) = f.val := by
  rw [GatherDims.batchCoord_eq_zero _ _ _ List.not_mem_nil, Nat.add_zero]
  have hs : (rowsDims N C E wf).start (ix2 e f) idx (1 : Fin 2) = 0 := by
    unfold GatherDims.start
    rw [dif_neg (show (1 : Fin 2) ∉ [(0 : Fin 2)] by decide)]
  have ho : (rowsDims N C E wf).offCoord (ix2 e f) (1 : Fin 2) = f.val := by
    unfold GatherDims.offCoord
    rw [dif_pos ((GatherDims.mem_sKept _ _).2 ⟨(show (1 : Fin 2) ∉ [(0 : Fin 2)] by decide), List.not_mem_nil⟩)]
    rfl
  rw [hs, ho, Nat.zero_add]

/-- The row gather read at `(e, f)`: the operand at the row `idx[e, 0]`, read signed and clamped, and column `f`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N C E wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ => exact rows_coord0 wf idx e f
  | ⟨1, _⟩ => exact rows_coord1 wf idx e f

end Gather

/-! ## The accumulating scatters -/

section Scatter

/-- The dimension numbers of `x.at[idx].add(u)` for a flat operand `[N]`, scatter indices `[E, 1]`, updates `[E]`. -/
abbrev scat1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem scat1_start {N E w : Nat} (wf : ScatterDims.WF ⟨1, ![N]⟩ ⟨2, ![E, 1]⟩ ⟨1, ![E]⟩ [] [0] [0] 1)
    (idx : IVec ⟨2, ![E, 1]⟩ w) (e : Fin E) :
    (scat1Dims N E wf).start (ix1 e) idx (0 : Fin 1) = (idx (ix2 e (0 : Fin 1))).toInt := by
  unfold ScatterDims.start
  rw [dif_pos (show (0 : Fin 1) ∈ (scat1Dims N E wf).scatterDimsToOperandDims from List.mem_singleton.mpr rfl)]
  have hsi : (scat1Dims N E wf).siIdx (ix1 e) ⟨List.idxOf (0 : Fin 1) (scat1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat1_window {N E : Nat} (wf : ScatterDims.WF ⟨1, ![N]⟩ ⟨2, ![E, 1]⟩ ⟨1, ![E]⟩ [] [0] [0] 1) (e : Fin E) :
    (scat1Dims N E wf).window (ix1 e) (0 : Fin 1) = 0 := by
  unfold ScatterDims.window
  rw [dif_neg (show (0 : Fin 1) ∉ (scat1Dims N E wf).sKept by simp [ScatterDims.sKept, Shape.kept])]

/-- Update `e` of the flat scatter lands on row `n` exactly when its index word, read signed, is `n`. -/
theorem scat1_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scat1Dims N E wf).resultIdx? (ix1 e) idx = some (ix1 n) ↔ (idx (ix2 e (0 : Fin 1))).toInt = (n.val : Int) := by
  unfold ScatterDims.resultIdx?
  constructor
  · intro h
    split at h
    · rename_i hr
      have h0 := congrFun (Option.some.inj h) (0 : Fin 1)
      have hv := congrArg Fin.val h0
      have hr0 := hr (0 : Fin 1)
      rw [scat1_start, scat1_window] at hr0
      simp only [scat1_start, scat1_window] at hv
      change ((idx (ix2 e (0 : Fin 1))).toInt + ((0 : Nat) : Int)).toNat = n.val at hv
      omega
    · exact absurd h (by simp)
  · intro hv
    have hr : ∀ a, 0 ≤ (scat1Dims N E wf).start (ix1 e) idx a + ((scat1Dims N E wf).window (ix1 e) a : Int)
        ∧ (scat1Dims N E wf).start (ix1 e) idx a + ((scat1Dims N E wf).window (ix1 e) a : Int) < ((⟨1, ![N]⟩ : Shape).size a : Int) := by
      intro a
      obtain rfl : a = 0 := Subsingleton.elim _ _
      rw [scat1_start, scat1_window, hv]
      have := n.isLt
      change (0 : Int) ≤ (n.val : Int) + ((0 : Nat) : Int) ∧ (n.val : Int) + ((0 : Nat) : Int) < (N : Int)
      omega
    rw [dif_pos hr]
    congr 1
    funext a
    obtain rfl : a = 0 := Subsingleton.elim _ _
    refine Fin.ext ?_
    show ((scat1Dims N E wf).start (ix1 e) idx 0 + ((scat1Dims N E wf).window (ix1 e) 0 : Int)).toNat = n.val
    rw [scat1_start, scat1_window, hv]
    omega

/-- The dimension numbers of `x.at[idx].add(u)` for a matrix operand `[N, C]`, scatter indices `[E, 1]`, updates `[E, C]`. -/
abbrev scatRowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem scatRows_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (0 : Fin 2) = (idx (ix2 e (0 : Fin 1))).toInt := by
  unfold ScatterDims.start
  rw [dif_pos (show (0 : Fin 2) ∈ (scatRowsDims N C E wf).scatterDimsToOperandDims from List.mem_singleton.mpr rfl)]
  have hsi : (scatRowsDims N C E wf).siIdx (ix2 e f) ⟨List.idxOf (0 : Fin 2) (scatRowsDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatRows_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (1 : Fin 2) = 0 := by
  unfold ScatterDims.start
  rw [dif_neg (show (1 : Fin 2) ∉ [(0 : Fin 2)] by decide)]

theorem scatRows_window0 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (0 : Fin 2) = 0 := by
  unfold ScatterDims.window
  rw [dif_neg (show (0 : Fin 2) ∉ (scatRowsDims N C E wf).sKept by simp [ScatterDims.sKept, Shape.kept])]

theorem scatRows_window1 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (1 : Fin 2) = f.val := by
  unfold ScatterDims.window
  rw [dif_pos (show (1 : Fin 2) ∈ (scatRowsDims N C E wf).sKept by simp [ScatterDims.sKept, Shape.kept])]
  rfl

/-- Update `(e, f)` of the row scatter lands on `(n, g)` exactly when its index word, read signed, is `n` and `f = g`. -/
theorem scatRows_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (n : Fin N) (g : Fin C) :
    (scatRowsDims N C E wf).resultIdx? (ix2 e f) idx = some (ix2 n g)
      ↔ (idx (ix2 e (0 : Fin 1))).toInt = (n.val : Int) ∧ f = g := by
  unfold ScatterDims.resultIdx?
  constructor
  · intro h
    split at h
    · rename_i hr
      have hfun := Option.some.inj h
      have hv0 := congrArg Fin.val (congrFun hfun (0 : Fin 2))
      have hv1 := congrArg Fin.val (congrFun hfun (1 : Fin 2))
      have hr0 := hr (0 : Fin 2)
      rw [scatRows_start0, scatRows_window0] at hr0
      simp only [scatRows_start0, scatRows_window0] at hv0
      simp only [scatRows_start1, scatRows_window1] at hv1
      change ((idx (ix2 e (0 : Fin 1))).toInt + ((0 : Nat) : Int)).toNat = n.val at hv0
      change ((0 : Int) + ((f.val : Nat) : Int)).toNat = g.val at hv1
      refine ⟨by omega, Fin.ext (by omega)⟩
    · exact absurd h (by simp)
  · rintro ⟨hv, rfl⟩
    have hr : ∀ a, 0 ≤ (scatRowsDims N C E wf).start (ix2 e f) idx a + ((scatRowsDims N C E wf).window (ix2 e f) a : Int)
        ∧ (scatRowsDims N C E wf).start (ix2 e f) idx a + ((scatRowsDims N C E wf).window (ix2 e f) a : Int)
            < ((⟨2, ![N, C]⟩ : Shape).size a : Int) := by
      intro a
      match a with
      | ⟨0, _⟩ =>
        have := n.isLt
        change 0 ≤ (scatRowsDims N C E wf).start (ix2 e f) idx (0 : Fin 2) + ((scatRowsDims N C E wf).window (ix2 e f) (0 : Fin 2) : Int)
          ∧ (scatRowsDims N C E wf).start (ix2 e f) idx (0 : Fin 2) + ((scatRowsDims N C E wf).window (ix2 e f) (0 : Fin 2) : Int) < (N : Int)
        rw [scatRows_start0, scatRows_window0, hv]
        omega
      | ⟨1, _⟩ =>
        have := f.isLt
        change 0 ≤ (scatRowsDims N C E wf).start (ix2 e f) idx (1 : Fin 2) + ((scatRowsDims N C E wf).window (ix2 e f) (1 : Fin 2) : Int)
          ∧ (scatRowsDims N C E wf).start (ix2 e f) idx (1 : Fin 2) + ((scatRowsDims N C E wf).window (ix2 e f) (1 : Fin 2) : Int) < (C : Int)
        rw [scatRows_start1, scatRows_window1]
        omega
    rw [dif_pos hr]
    congr 1
    funext a
    refine Fin.ext ?_
    match a with
    | ⟨0, _⟩ =>
      show ((scatRowsDims N C E wf).start (ix2 e f) idx (0 : Fin 2) + ((scatRowsDims N C E wf).window (ix2 e f) (0 : Fin 2) : Int)).toNat = n.val
      rw [scatRows_start0, scatRows_window0, hv]
      omega
    | ⟨1, _⟩ =>
      show ((scatRowsDims N C E wf).start (ix2 e f) idx (1 : Fin 2) + ((scatRowsDims N C E wf).window (ix2 e f) (1 : Fin 2) : Int)).toNat = f.val
      rw [scatRows_start1, scatRows_window1]
      omega

/-! ## The scatters' values on the extended reals -/

/-- A flat index is its one coordinate. -/
def idxEquiv1 {n : Nat} : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- The flat accumulating scatter at row `n`: the operand plus the updates whose index word is `n`. -/
theorem scatterAdd1_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (scat1Dims N E wf) x idx upd (ix1 n)
      = x (ix1 n) + ∑ e ∈ Finset.univ.filter (fun e : Fin E => (idx (ix2 e (0 : Fin 1))).toInt = (n.val : Int)), upd (ix1 e) := by
  show Ideal.hostScatterAdd (scat1Dims N E wf) x idx upd (ix1 n) = _
  unfold Ideal.hostScatterAdd
  congr 1
  rw [Finset.sum_filter, Finset.sum_filter, sum_idx1]
  exact Finset.sum_congr rfl fun e _ => if_congr (scat1_resultIdx?_eq_some_iff wf idx e n) rfl rfl

/-- The row accumulating scatter at `(n, g)`: the operand plus column `g` of the updates whose index word is `n`. -/
theorem scatterAddRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (g : Fin C) :
    Host.scatterAdd (scatRowsDims N C E wf) x idx upd (ix2 n g)
      = x (ix2 n g) + ∑ e ∈ Finset.univ.filter (fun e : Fin E => (idx (ix2 e (0 : Fin 1))).toInt = (n.val : Int)), upd (ix2 e g) := by
  show Ideal.hostScatterAdd (scatRowsDims N C E wf) x idx upd (ix2 n g) = _
  unfold Ideal.hostScatterAdd
  congr 1
  rw [Finset.sum_filter, Finset.sum_filter, sum_idx2]
  refine Finset.sum_congr rfl fun e _ => ?_
  have h : ∀ f : Fin C, (if (scatRowsDims N C E wf).resultIdx? (ix2 e f) idx = some (ix2 n g) then upd (ix2 e f) else 0)
      = if f = g then (if (idx (ix2 e (0 : Fin 1))).toInt = (n.val : Int) then upd (ix2 e f) else 0) else 0 := by
    intro f
    rw [if_congr (scatRows_resultIdx?_eq_some_iff wf idx e f n g) rfl rfl]
    by_cases hf : f = g
    · rw [if_pos hf]; exact if_congr (and_iff_left hf) rfl rfl
    · rw [if_neg hf, if_neg (fun h => hf h.2)]
  rw [Finset.sum_congr rfl fun f _ => h f, Finset.sum_ite_eq' Finset.univ g]
  rw [if_pos (Finset.mem_univ g)]

end Scatter

end Cert.Lib.ScatterGather

end
-- ==== Proof.LibGnnLaws.lean ====
import Idealize.ShloMosaic.PureOps.Ideal
import Idealize.ShloMosaic.PureOps.Ideal.Laws

/-!
# Laws of a message-passing layer over the extended reals

A graph network's layer can be arranged in two ways. One arrangement computes, per EDGE, the affine image of the
edge's hidden message and then sums the images at the edge's destination node. The other sums the hidden messages
at the node first and applies the affine map once, the bias weighted by the node's in-degree. Over the reals the
two agree by linearity; over the extended reals (where a float is a real number or an infinity, and
distributivity fails at the infinities) they agree when the entries are real numbers. This module states that law
and the smaller ones around it, over abstract finite index types:

* `IsReal` — "is the coercion of a real number" — and its closure under sums, products, `relu`, finite sums;
* `coe_sum` — the coercion of a finite sum of reals is the sum of the coercions;
* `sum_edges_affine` — the aggregation law above, for any finite set of edges (and for the set of edges into a
  node, with the in-degree as a sum of indicator values);
* `sum_fin_add_split` — a contraction over `m + n` indices is the contraction over the first `m` plus the one
  over the last `n` (no finiteness: associativity and commutativity only);
* `onehot_select` — a one-hot row times a table column selects the table's entry (no finiteness either: zero
  times anything is zero in Mathlib's extended reals);
* `mul_inv_eq_div` — multiplying by the reciprocal of a nonzero real is the ideal division by it, at the
  infinities too;
* the extended reals the float words `0.0`, `1.0` and `50000.0` denote.
-/

noncomputable section

open scoped BigOperators

namespace Cert.Lib.GnnLaws

open Idealize.ShloMosaic

/-! ## Real entries -/

/-- An extended real that is (the coercion of) a real number. -/
def IsReal (x : EReal) : Prop := ∃ r : ℝ, x = (r : EReal)

/-- A coerced real is real. -/
theorem IsReal.coe (r : ℝ) : IsReal (r : EReal) := ⟨r, rfl⟩

/-- Zero is real. -/
theorem IsReal.zero : IsReal 0 := ⟨0, rfl⟩

/-- One is real. -/
theorem IsReal.one : IsReal 1 := ⟨1, rfl⟩

/-- A real entry is neither infinity. -/
theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- An extended real that is neither infinity is real. -/
theorem isReal_of_ne {x : EReal} (ht : x ≠ ⊤) (hb : x ≠ ⊥) : IsReal x :=
  ⟨x.toReal, (EReal.coe_toReal ht hb).symm⟩

/-- The sum of two real entries is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two real entries is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum of two real entries is real. -/
theorem isReal_max {x y : EReal} (hx : IsReal x) (hy : IsReal y) : IsReal (max x y) := by
  rcases max_choice x y with h | h <;> rw [h] <;> assumption

/-- `relu` of a real entry is real. -/
theorem IsReal.relu {x : EReal} (hx : IsReal x) : IsReal (max x 0) := isReal_max hx IsReal.zero

/-- `relu` of a coerced real is the coerced `relu`. -/
theorem relu_coe (a : ℝ) : max (a : EReal) 0 = ((max a 0 : ℝ) : EReal) := by
  rcases le_total a 0 with h | h
  · rw [max_eq_right h, max_eq_right (by exact_mod_cast h)]; rfl
  · rw [max_eq_left h, max_eq_left (by exact_mod_cast h)]

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of real entries is real. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A contraction of real entries is real. -/
theorem IsReal.dot {κ : Type*} [Fintype κ] (x w : κ → EReal) (hx : ∀ k, IsReal (x k)) (hw : ∀ k, IsReal (w k)) :
    IsReal (∑ k, x k * w k) :=
  IsReal.sum _ _ fun k _ => (hx k).mul (hw k)

/-- The ideal division of a real entry by a nonzero real is real. -/
theorem IsReal.div_coe {s : EReal} (hs : IsReal s) {y : ℝ} (hy : y ≠ 0) : IsReal (Ideal.div s (y : EReal)) := by
  rw [Ideal.div_coe hy]; exact hs.mul (IsReal.coe _)

/-- A family of real entries is the coercion of a family of reals. -/
theorem exists_real_fun {ι : Type*} (f : ι → EReal) (h : ∀ i, IsReal (f i)) : ∃ g : ι → ℝ, ∀ i, f i = (g i : EReal) :=
  ⟨fun i => (h i).choose, fun i => (h i).choose_spec⟩

/-- The same for a family over two indices. -/
theorem exists_real_fun₂ {ι κ : Type*} (f : ι → κ → EReal) (h : ∀ i k, IsReal (f i k)) :
    ∃ g : ι → κ → ℝ, ∀ i k, f i k = (g i k : EReal) :=
  ⟨fun i k => (h i k).choose, fun i k => (h i k).choose_spec⟩

/-! ## The aggregation law -/

section Aggregation

variable {E K : Type*} [Fintype K]

/-- THE AGGREGATION LAW, over reals: summing over a finite set of edges the affine image `r e · w + b` of each
    edge's hidden message is the affine image of the summed messages, the bias weighted by the number of edges. -/
theorem sum_edges_affine (S : Finset E) (r : E → K → ℝ) (w : K → ℝ) (b : ℝ) :
    ∑ e ∈ S, ((∑ k, (r e k : EReal) * (w k : EReal)) + (b : EReal))
      = (∑ k, (∑ e ∈ S, (r e k : EReal)) * (w k : EReal)) + ((S.card : ℝ) : EReal) * (b : EReal) := by
  have hreal : ∑ e ∈ S, ((∑ k, r e k * w k) + b) = (∑ k, (∑ e ∈ S, r e k) * w k) + (S.card : ℝ) * b := by
    rw [Finset.sum_add_distrib, Finset.sum_comm, Finset.sum_const, nsmul_eq_mul]
    congr 1
    exact Finset.sum_congr rfl fun k _ => (Finset.sum_mul S (fun e => r e k) (w k)).symm
  simp only [← EReal.coe_mul, ← coe_sum, ← EReal.coe_add]
  exact congrArg _ hreal

/-- The aggregation law for extended reals with real entries. -/
theorem sum_edges_affine_of_isReal (S : Finset E) (r : E → K → EReal) (w : K → EReal) (b : EReal)
    (hr : ∀ e k, IsReal (r e k)) (hw : ∀ k, IsReal (w k)) (hb : IsReal b) :
    ∑ e ∈ S, ((∑ k, r e k * w k) + b) = (∑ k, (∑ e ∈ S, r e k) * w k) + ((S.card : ℝ) : EReal) * b := by
  obtain ⟨r', hr'⟩ := exists_real_fun₂ r hr
  obtain ⟨w', hw'⟩ := exists_real_fun w hw
  obtain ⟨b', rfl⟩ := hb
  simp only [hr', hw']
  exact sum_edges_affine S r' w' b'

/-- The number of members of a filtered finite set, as the extended-real sum of the indicator values: a node's
    in-degree as a scatter-add of ones computes it. -/
theorem card_filter_eq_sum_ite {E : Type*} (S : Finset E) (p : E → Prop) [DecidablePred p] :
    (((S.filter p).card : ℝ) : EReal) = ∑ e ∈ S, (if p e then (1 : EReal) else 0) := by
  have h : (((S.filter p).card : ℝ)) = ∑ e ∈ S, (if p e then (1 : ℝ) else 0) := by
    rw [Finset.card_filter]; push_cast; rfl
  rw [h, coe_sum]
  exact Finset.sum_congr rfl fun e _ => by split <;> rfl

/-- The aggregation law at a node: over the edges whose destination is the node, the bias weighted by the in-degree
    written as the sum of indicator values over all edges. -/
theorem sum_into_node_affine {E N : Type*} [Fintype E] [DecidableEq N] (dst : E → N) (n : N)
    (r : E → K → EReal) (w : K → EReal) (b : EReal)
    (hr : ∀ e k, IsReal (r e k)) (hw : ∀ k, IsReal (w k)) (hb : IsReal b) :
    ∑ e ∈ Finset.univ.filter (fun e => dst e = n), ((∑ k, r e k * w k) + b)
      = (∑ k, (∑ e ∈ Finset.univ.filter (fun e => dst e = n), r e k) * w k)
        + (∑ e, (if dst e = n then (1 : EReal) else 0)) * b := by
  rw [sum_edges_affine_of_isReal _ r w b hr hw hb, card_filter_eq_sum_ite]

end Aggregation

/-! ## A contraction split in two -/

/-- A sum over `m + n` indices is the sum over the first `m` plus the sum over the last `n`. -/
theorem sum_fin_add_split {m n : Nat} (f : Fin (m + n) → EReal) :
    ∑ k, f k = (∑ k : Fin m, f (Fin.castAdd n k)) + ∑ k : Fin n, f (Fin.natAdd m k) :=
  Fin.sum_univ_add f

/-- A contraction over 128 indices is the contraction over the first 64 plus the one over the last 64: a
    concatenated pair of 64-wide rows against a 128-row matrix is the first row against the top half plus the
    second row against the bottom half. -/
theorem sum_fin128_split (x w : Fin 128 → EReal) :
    ∑ k, x k * w k
      = (∑ k : Fin 64, x (Fin.castAdd 64 k) * w (Fin.castAdd 64 k))
        + ∑ k : Fin 64, x (Fin.natAdd 64 k) * w (Fin.natAdd 64 k) :=
  sum_fin_add_split (m := 64) (n := 64) fun k => x k * w k

/-- Regrouping a bias: `A + (B + c) = (A + B) + c`. -/
theorem add_regroup (A B c : EReal) : A + (B + c) = (A + B) + c := (add_assoc A B c).symm

/-! ## One-hot selection -/

/-- A one-hot row times a column selects the column's entry at the hot index. -/
theorem onehot_select {V : Type*} [Fintype V] [DecidableEq V] (emb : V → EReal) (x : V) :
    ∑ v, (if x = v then (1 : EReal) else 0) * emb v = emb x := by
  rw [Finset.sum_eq_single x]
  · rw [if_pos rfl, one_mul]
  · intro v _ hv
    rw [if_neg (fun h => hv h.symm), zero_mul]
  · intro h; exact absurd (Finset.mem_univ x) h

/-- The same with the comparison written the other way round. -/
theorem onehot_select' {V : Type*} [Fintype V] [DecidableEq V] (emb : V → EReal) (x : V) :
    ∑ v, (if v = x then (1 : EReal) else 0) * emb v = emb x := by
  rw [← onehot_select emb x]
  exact Finset.sum_congr rfl fun v _ => by simp only [eq_comm]

/-! ## The mean -/

/-- Multiplying by the reciprocal of a nonzero real is the ideal division by it, at the infinities too. -/
theorem mul_inv_eq_div {y : ℝ} (h : y ≠ 0) (s : EReal) : s * ((1 / y : ℝ) : EReal) = Ideal.div s (y : EReal) :=
  (Ideal.div_coe h s).symm

/-- A sum over 50000 nodes times `1 / 50000` is the sum divided by 50000. -/
theorem mul_inv_50000 (s : EReal) : s * ((1 / 50000 : ℝ) : EReal) = Ideal.div s ((50000 : ℝ) : EReal) :=
  mul_inv_eq_div (by norm_num) s

/-! ## The float words of this network -/

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `50000.0` denotes the real `50000`. -/
theorem ofBits_50000 : Ideal.ofBits .f32 0x47435000#32 = ((50000 : ℝ) : EReal) := by
  simp [Ideal.ofBits, Ideal.ieee, -EReal.coe_mul]; norm_num

end Cert.Lib.GnnLaws

end
-- ==== Proof.Finite.lean ====
/-
  Finite inputs are real entries.

  On the extended reals a float is a real number or one of the two infinities. The precondition says, of every
  float argument array, that the conjunction over all its entries of |x| < +inf is true. An entry whose absolute
  value is below +inf is neither infinity, so it is a real number. The first part reads that off the
  precondition for the three arrays the aggregation law is applied to: the node features, the edge weights and
  the first layer's weight matrix.

  The second part carries realness through the symmetric normalisation. The extended weight vector is the edge
  weights followed by ones. A node's degree is zero plus a finite sum of such weights, a real. Where the degree
  is positive its reciprocal square root is a real, elsewhere the normalising factor is zero. A gathered entry is
  one of these factors whatever the index word is, and the normalised weight is a product of three reals.
-/
import proofs.«101641_j12704513261988_2_alg».proof.Defs
import proofs.«101641_j12704513261988_2_alg».proof.Proof.Gen.KernelIdeal
import proofs.«101641_j12704513261988_2_alg».proof.Proof.Gen.ReferenceIdeal
import proofs.«101641_j12704513261988_2_alg».proof.Proof.Gen.Pre_finite_inputs
import proofs.«101641_j12704513261988_2_alg».proof.Proof.HostChain
import proofs.«101641_j12704513261988_2_alg».proof.Proof.LibScatterGather
import proofs.«101641_j12704513261988_2_alg».proof.Proof.LibGnnLaws
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll

noncomputable section

namespace Cert.Bridge.Finite

open Idealize.ShloMosaic Idealize.ShloMosaic.TcCoe Idealize.SL.Sem Cert.Bridge Cert.Lib.GnnLaws

/-! ## From the precondition to real entries -/

/-- The bit pattern of +inf denotes the top element. -/
theorem ofBits_inf : Ideal.ofBits .f32 0x7F800000#32 = ⊤ := by
  simp [Ideal.ofBits, Ideal.ieee]

/-- An extended real whose absolute value is strictly below +inf is a real number. -/
theorem isReal_of_abs_lt_inf (x : EReal)
    (h : Ideal.cmp .olt (max x (-x)) (Ideal.ofBits .f32 0x7F800000#32) = 1#1) : IsReal x := by
  rw [ofBits_inf] at h
  have h' : max x (-x) < ⊤ := by
    by_contra hc
    simp [Ideal.cmp, hc] at h
  refine isReal_of_ne ?_ ?_
  · rintro rfl; simp at h'
  · rintro rfl; simp at h'

/-- THE CORE: if the conjunction over a whole array of |x| < +inf is true, every entry of the array is real. -/
theorem all_isReal {s : Shape} {axes : List (Fin s.rank)} (hr : s.ReducesTo axes Cert.Pre_finite_inputs.S_)
    (hu : 0 < Cert.Pre_finite_inputs.S_.numel)
    (hb : Cert.Pre_finite_inputs.S_.BroadcastsInDim s (![] : Fin 0 → Fin s.rank)) (x : FVec Ideal s .f32)
    (h : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ValueIdx.ix0 = 1#1) :
    ∀ i, IsReal (x i) := by
  intro i
  -- a rank-zero array has one index, so the reduction's one result gathers every entry
  haveI : Subsingleton Cert.Pre_finite_inputs.S_.Idx := ⟨fun a b => funext fun d => d.elim0⟩
  have e := Host.reduce_andi_all _ _ hr hu ValueIdx.ix0 h i
  exact isReal_of_abs_lt_inf (x i) e

/-- A conjunction of two truth words that is true has a true left operand. -/
theorem andi_left {a b : IVec Cert.Pre_finite_inputs.S_ 1} (h : andi a b ValueIdx.ix0 = 1#1) : a ValueIdx.ix0 = 1#1 :=
  (IntOp.andi_eq_one.1 h).1

/-- … and a true right operand. -/
theorem andi_right {a b : IVec Cert.Pre_finite_inputs.S_ 1} (h : andi a b ValueIdx.ix0 = 1#1) : b ValueIdx.ix0 = 1#1 :=
  (IntOp.andi_eq_one.1 h).2

/-- The precondition gives real entries in the node features, the edge weights and the first weight matrix. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i)) := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at e
  iterate 19 (replace e := andi_left e)
  have e5 := andi_right e
  replace e := andi_left e
  have e4 := andi_right e
  replace e := andi_left e
  have e0 := andi_left e
  exact ⟨all_isReal _ _ _ _ e0, all_isReal _ _ _ _ e4, all_isReal _ _ _ _ e5⟩

/-! ## Real entries through the normalisation -/

/-- An entry of a concatenation is an entry of one of its pieces: what holds of every entry of every piece holds
    of every entry of the whole. -/
theorem concatenate_of_pieces {α : Type} {t : Shape} (a : Fin t.rank) (xs : List ((s : Shape) × (s.Idx → α)))
    (h : Shape.Concatenates (xs.map (·.1)) t a) (P : α → Prop)
    (hP : ∀ p ∈ xs, ∀ i, P (p.2 i)) (j : t.Idx) : P (concatenate t a xs h j) := by
  unfold concatenate
  exact hP _ (List.getElem_mem _) _

/-- A splat of one float word reads that word's value at every index. -/
theorem splat_apply {t : Shape} (h : Cert.ReferenceIdeal.S_.BroadcastsInDim t (![] : Fin 0 → Fin t.rank))
    (w : BitVec 32) (i : t.Idx) :
    broadcastInDim t ![] h (constant (F := Ideal) Cert.ReferenceIdeal.S_ .f32 w) i = Ideal.ofBits .f32 w := rfl

/-- The strict comparison of a real number with zero, as a truth word. -/
theorem cmp_ogt_zero_coe (r : ℝ) : Ideal.cmp .ogt (r : EReal) 0 = if 0 < r then 1#1 else 0#1 := by
  by_cases h : 0 < r
  · have h' : (0 : EReal) < (r : EReal) := EReal.coe_pos.2 h
    simp [Ideal.cmp, h, h']
  · have h' : ¬ (0 : EReal) < (r : EReal) := fun hc => h (EReal.coe_pos.1 hc)
    simp [Ideal.cmp, h, h']

/-- The normalising factor of a real degree is real: the reciprocal square root of a positive real is a real,
    and the factor of a degree that is not positive is zero. -/
theorem dinv_entry_isReal (d : EReal) (hd : IsReal d) :
    IsReal (Scalar.select (Ideal.cmp .ogt d 0) (Ideal.rsqrt (Scalar.select (Ideal.cmp .ogt d 0) d 1)) 0) := by
  obtain ⟨r, rfl⟩ := hd
  rw [cmp_ogt_zero_coe]
  by_cases h : 0 < r
  · rw [if_pos h, ValueIdx.select_one, ValueIdx.select_one, Ideal.rsqrt_coe, if_neg (not_lt.2 h.le), if_neg h.ne']
    exact IsReal.coe _
  · rw [if_neg h, ValueIdx.select_zero]
    exact IsReal.zero

/-- The same for arrays: where the degree array's entry is real, and the three constant arrays read zero, zero
    and one there, the guarded reciprocal square root's entry is real. -/
theorem dinv_vec_isReal {s : Shape} (d z z' o : FVec Ideal s .f32) (n : s.Idx) (hd : IsReal (d n))
    (hz : z n = 0) (hz' : z' n = 0) (ho : o n = 1) :
    IsReal (select (cmpf .ogt d z) (Host.rsqrt (select (cmpf .ogt d z) d o)) z' n) := by
  show IsReal (Scalar.select (Ideal.cmp .ogt (d n) (z n))
    (Ideal.rsqrt (Scalar.select (Ideal.cmp .ogt (d n) (z n)) (d n) (o n))) (z' n))
  rw [hz, hz', ho]
  exact dinv_entry_isReal (d n) hd

open Idealize.ShloMosaic.ValueIdx Cert.Lib.ScatterGather in
/-- A flat accumulating scatter of real updates into a real operand has real entries: an entry is the operand's
    plus a finite sum of updates. -/
theorem scatterAdd1_isReal {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (hx : ∀ i, IsReal (x i)) (hu : ∀ i, IsReal (upd i)) (n : Fin N) :
    IsReal (Host.scatterAdd (scat1Dims N E wf) x idx upd (ix1 n)) := by
  rw [scatterAdd1_apply]
  exact IsReal.add (hx _) (IsReal.sum _ _ fun e _ => hu _)

open Idealize.ShloMosaic.ValueIdx Cert.Lib.ScatterGather in
/-- A flat gather out of a table of real entries has real entries, whatever the index words: an entry of the
    result is an entry of the table. -/
theorem gather1_isReal {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → EReal) (idx : IVec ⟨2, ![E, 1]⟩ w) (hx : ∀ i, IsReal (x i)) (e : Fin E) :
    IsReal (Host.gather (take1Dims N E wf) x idx (ix1 e)) := by
  rw [gather_take1_apply hN]
  exact hx _

/-- The extended weight vector — the edge weights, then a one per self-loop — has real entries. -/
theorem ewF_isReal (ew : FVec Ideal Cert.ReferenceIdeal.S800000 .f32) (hew : ∀ i, IsReal (ew i)) :
    ∀ e, IsReal (ewF (F := Ideal) ew e) := by
  intro e
  unfold ewF
  refine concatenate_of_pieces _ _ _ IsReal ?_ e
  intro p hp i
  simp only [List.mem_cons, List.not_mem_nil, or_false] at hp
  rcases hp with rfl | rfl
  · exact hew i
  · show IsReal (Ideal.ofBits .f32 0x3F800000#32)
    rw [ofBits_one]
    exact IsReal.one

/-- A node's weighted in-degree is real: zero plus a finite sum of real weights. -/
theorem deg_isReal (ei : IVec Cert.ReferenceIdeal.S2x800000 32) (ew : FVec Ideal Cert.ReferenceIdeal.S800000 .f32)
    (hew : ∀ i, IsReal (ew i)) : ∀ n, IsReal (deg (F := Ideal) ei ew n) := by
  intro n
  obtain ⟨k, rfl⟩ : ∃ k : Fin 50000, n = ValueIdx.ix1 k := ⟨n 0, ValueIdx.eq_ix1 n⟩
  unfold deg
  refine scatterAdd1_isReal (N := 50000) (E := 850000) _ _ _ _ (fun i => ?_) (ewF_isReal ew hew) k
  show IsReal (Ideal.ofBits .f32 0x00000000#32)
  rw [ofBits_zero]
  exact IsReal.zero

/-- A node's normalising factor is real. -/
theorem dinv_isReal (ei : IVec Cert.ReferenceIdeal.S2x800000 32) (ew : FVec Ideal Cert.ReferenceIdeal.S800000 .f32)
    (hew : ∀ i, IsReal (ew i)) : ∀ n, IsReal (dinv (F := Ideal) ei ew n) := by
  intro n
  unfold dinv
  exact dinv_vec_isReal _ _ _ _ n (deg_isReal ei ew hew n) ((splat_apply _ _ n).trans ofBits_zero)
    ((splat_apply _ _ n).trans ofBits_zero) ((splat_apply _ _ n).trans ofBits_one)

/-- THE NORMALISED WEIGHTS ARE REAL: each is the product of the source node's factor, the edge's weight and the
    destination node's factor, three reals. -/
theorem norm_isReal (ei : IVec Cert.ReferenceIdeal.S2x800000 32) (ew : FVec Ideal Cert.ReferenceIdeal.S800000 .f32)
    (hew : ∀ i, IsReal (ew i)) : ∀ e, IsReal (norm (F := Ideal) ei ew e) := by
  intro e
  obtain ⟨k, rfl⟩ : ∃ k : Fin 850000, e = ValueIdx.ix1 k := ⟨e 0, ValueIdx.eq_ix1 e⟩
  unfold norm
  rw [ValueIdx.mulf_apply, ValueIdx.mulf_apply]
  refine IsReal.mul (IsReal.mul ?_ (ewF_isReal ew hew _)) ?_
  · exact gather1_isReal (N := 50000) (E := 850000) (by norm_num) _ (dinv (F := Ideal) ei ew) (wrapCol (srcF ei))
      (dinv_isReal ei ew hew) k
  · exact gather1_isReal (N := 50000) (E := 850000) (by norm_num) _ (dinv (F := Ideal) ei ew) (wrapCol (dstF ei))
      (dinv_isReal ei ew hew) k

end Cert.Bridge.Finite

end
-- ==== Proof.LibRowVector.lean ====
/-
  A vector laid as a row.

  A vector of length `a` becomes the one row of a `[1, a]` array in two ways: by reading the vector's entries in
  row-major order at the new shape, or by broadcasting it along the second axis. Both arrays have at `(0, i)` the
  vector's entry `i`, so they are the same array.
-/
import Idealize.ShloMosaic.Lib.Pipeline.Value
import Idealize.ShloMosaic.Lib.ValueIdx
import Idealize.ShloMosaic.Lib.ValueLayout

namespace Cert.Lib.RowVector

open Idealize.ShloMosaic Idealize.ShloMosaic.ValueIdx

/-- The reshape of a vector to one row is its broadcast along the second axis. -/
theorem shapeCast_eq_broadcastInDim {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply ![1] h' x (ix2 u i) (ix1 i) (fun ax => ?_)).symm
  match ax with
  | ⟨0, _⟩ =>
    show i.val = if a = 1 then 0 else i.val
    split
    · have := i.isLt; omega
    · rfl

end Cert.Lib.RowVector
-- ==== Proof.Rows.lean ====
/-
  A bias vector laid as one row, the kernel's way and the reference's.

  The kernel makes a bias vector of length 128 the one row of a [1, 128] table by reading the vector's entries in
  row-major order at the new shape; the reference broadcasts the vector along the second axis. Both tables have at
  (0, i) the vector's entry i, so they are the same table, whatever the float values are.
-/
import proofs.«101641_j12704513261988_2_alg».proof.Proof.HostChain
import proofs.«101641_j12704513261988_2_alg».proof.Proof.LibRowVector

noncomputable section

namespace Cert.Bridge.Rows

open Idealize.ShloMosaic

/-- A bias vector reshaped to one row is the vector broadcast along the row's axis. -/
theorem rowCast_eq {F : FTy → Type} [FloatOps F] (b : FVec F Cert.KernelIdeal.S128 .f32) :
    Cert.Bridge.rowCast b = Cert.Bridge.rowOf b := by
  unfold Cert.Bridge.rowCast Cert.Bridge.rowOf
  exact Cert.Lib.RowVector.shapeCast_eq_broadcastInDim (a := 128) b _ _

end Cert.Bridge.Rows

end
-- ==== Proof.AggLinear.lean ====
/-
  The first layer's two arrangements agree: multiplying every node's 16 features by a 16 × 128 matrix and then
  aggregating along the edges at width 128 gives the same table as aggregating the raw features at width 16 and
  then multiplying. Entry (i, j) of either table is a double sum, over the edges e into node i and the 16
  features k, of n(e) · x(r(e), k) · w(k, j), with r(e) the edge's source row; the two arrangements differ in
  the order of summation and in where the factor w(k, j) or n(e) is pulled out of the inner sum. Over the
  extended reals distributivity fails at the infinities, so the law is stated for entries that are real numbers.
-/
import proofs.«101641_j12704513261988_2_alg».proof.Proof.HostChain
import proofs.«101641_j12704513261988_2_alg».proof.Proof.LibScatterGather
import proofs.«101641_j12704513261988_2_alg».proof.Proof.LibGnnLaws
import proofs.«101641_j12704513261988_2_alg».proof.Proof.LibMatmul
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Bridge.Linear

open Idealize.ShloMosaic Idealize.ShloMosaic.ValueIdx Cert.Bridge Cert.Lib.GnnLaws

/-! ## The law over abstract index types -/

section Law

variable {E K : Type*} [Fintype K]

/-- Over the reals: contracting the aggregated rows against W is aggregating the contracted rows. Both sides
    are the double sum of N(e) · X(e, k) · W(k) over the edges e in S and the features k. -/
theorem dot_agg_real (S : Finset E) (N : E → ℝ) (X : E → K → ℝ) (W : K → ℝ) :
    ∑ k, (∑ e ∈ S, N e * X e k) * W k = ∑ e ∈ S, N e * ∑ k, X e k * W k := by
  simp only [Finset.sum_mul, Finset.mul_sum]
  rw [Finset.sum_comm]
  exact Finset.sum_congr rfl fun e _ => Finset.sum_congr rfl fun k _ => mul_assoc _ _ _

/-- The same over the extended reals, for coerced reals, each aggregation started from zero. -/
theorem dot_agg_coe (S : Finset E) (N : E → ℝ) (X : E → K → ℝ) (W : K → ℝ) :
    ∑ k, ((0 : EReal) + ∑ e ∈ S, (N e : EReal) * (X e k : EReal)) * (W k : EReal)
      = 0 + ∑ e ∈ S, (N e : EReal) * ∑ k, (X e k : EReal) * (W k : EReal) := by
  simp only [zero_add, ← EReal.coe_mul, ← coe_sum]
  exact congrArg _ (dot_agg_real S N X W)

/-- The same for extended reals whose entries are real numbers. -/
theorem dot_agg (S : Finset E) (N : E → EReal) (X : E → K → EReal) (W : K → EReal)
    (hN : ∀ e, IsReal (N e)) (hX : ∀ e k, IsReal (X e k)) (hW : ∀ k, IsReal (W k)) :
    ∑ k, ((0 : EReal) + ∑ e ∈ S, N e * X e k) * W k = 0 + ∑ e ∈ S, N e * ∑ k, X e k * W k := by
  obtain ⟨N', hN'⟩ := exists_real_fun N hN
  obtain ⟨X', hX'⟩ := exists_real_fun₂ X hX
  obtain ⟨W', hW'⟩ := exists_real_fun W hW
  simp only [hN', hX', hW']
  exact dot_agg_coe S N' X' W'

end Law

/-! ## The layout operations of an aggregation, read at an index -/

section Layout

variable {α : Type}

/-- A vector over the edges laid out as a column reads, at (e, 0), the vector's entry e. -/
theorem col_apply (h : (⟨1, ![850000]⟩ : Shape).BroadcastsInDim ⟨2, ![850000, 1]⟩ (![0] : Fin 1 → Fin 2))
    (v : (⟨1, ![850000]⟩ : Shape).Idx → α) (e : Fin 850000) (z : Fin 1) :
    broadcastInDim ⟨2, ![850000, 1]⟩ ![0] h v (ix2 e z) = v (ix1 e) :=
  broadcastInDim_apply _ h v (ix2 e z) (ix1 e) (fun a => match a with
    | ⟨0, _⟩ => by show e.val = if (850000 : Nat) = 1 then 0 else e.val; rw [if_neg (by decide)])

/-- A column over the edges repeated along C columns reads, at (e, c), the column's entry (e, 0). -/
theorem widen_apply {C : Nat}
    (h : (⟨2, ![850000, 1]⟩ : Shape).BroadcastsInDim ⟨2, ![850000, C]⟩ (![0, 1] : Fin 2 → Fin 2))
    (v : (⟨2, ![850000, 1]⟩ : Shape).Idx → α) (e : Fin 850000) (c : Fin C) :
    broadcastInDim ⟨2, ![850000, C]⟩ ![0, 1] h v (ix2 e c) = v (ix2 e (0 : Fin 1)) :=
  broadcastInDim_apply _ h v (ix2 e c) (ix2 e (0 : Fin 1)) (fun a => match a with
    | ⟨0, _⟩ => by show e.val = if (850000 : Nat) = 1 then 0 else e.val; rw [if_neg (by decide)]
    | ⟨1, _⟩ => by show (0 : Nat) = if (1 : Nat) = 1 then 0 else c.val; rw [if_pos rfl])

/-- The zero table reads zero everywhere. -/
theorem zeros_apply {t : Shape} (h : (⟨0, ![]⟩ : Shape).BroadcastsInDim t (![] : Fin 0 → Fin t.rank)) (j : t.Idx) :
    broadcastInDim t ![] h (constant (F := Ideal) ⟨0, ![]⟩ .f32 0x00000000#32) j = 0 := by
  rw [broadcastInDim_apply _ h _ j ix0 (fun a => a.elim0), constant_apply, ofBits_zero]

end Layout

/-! ## An aggregation read at an index -/

section Aggregation

open Cert.Lib.ScatterGather

/-- The row of the node table an edge reads: its word in the column of source words, read signed and clamped
    into the table's 50000 rows. -/
def clampRow (col : IVec ⟨2, ![850000, 1]⟩ 32) (e : Fin 850000) : Fin 50000 :=
  ⟨min (col (ix2 e (0 : Fin 1))).toInt.toNat (50000 - 1), by omega⟩

/-- An aggregation at width C read at (i, c): zero plus the sum, over the edges whose destination word read signed
    is i, of the edge's weight times entry c of the row of the table the edge reads. -/
theorem agg_apply {C : Nat}
    (wfS : ScatterDims.WF ⟨2, ![50000, C]⟩ ⟨2, ![850000, 1]⟩ ⟨2, ![850000, C]⟩ [1] [0] [0] 1)
    (wfG : GatherDims.WF ⟨2, ![50000, C]⟩ ⟨2, ![850000, 1]⟩ ⟨2, ![850000, C]⟩ [1] [0] [] [0] [] 1 ![1, C])
    (hz : (⟨0, ![]⟩ : Shape).BroadcastsInDim ⟨2, ![50000, C]⟩ (![] : Fin 0 → Fin 2))
    (hc : (⟨1, ![850000]⟩ : Shape).BroadcastsInDim ⟨2, ![850000, 1]⟩ (![0] : Fin 1 → Fin 2))
    (hw : (⟨2, ![850000, 1]⟩ : Shape).BroadcastsInDim ⟨2, ![850000, C]⟩ (![0, 1] : Fin 2 → Fin 2))
    (n : FVec Ideal ⟨1, ![850000]⟩ .f32) (col : IVec ⟨2, ![850000, 1]⟩ 32) (dst : IVec ⟨1, ![850000]⟩ 32)
    (h : FVec Ideal ⟨2, ![50000, C]⟩ .f32) (i : Fin 50000) (c : Fin C) :
    Host.scatterAdd (F := Ideal) (scatRowsDims 50000 C 850000 wfS)
        (broadcastInDim ⟨2, ![50000, C]⟩ ![] hz (constant (F := Ideal) ⟨0, ![]⟩ .f32 0x00000000#32))
        (broadcastInDim ⟨2, ![850000, 1]⟩ ![0] hc dst)
        (mulf (broadcastInDim ⟨2, ![850000, C]⟩ ![0, 1] hw (broadcastInDim ⟨2, ![850000, 1]⟩ ![0] hc n))
          (Host.gather (rowsDims 50000 C 850000 wfG) h col)) (ix2 i c)
      = 0 + ∑ e ∈ Finset.univ.filter (fun e : Fin 850000 => (dst (ix1 e)).toInt = (i.val : Int)),
          n (ix1 e) * h (ix2 (clampRow col e) c) := by
  have hf : ∀ e : Fin 850000, broadcastInDim ⟨2, ![850000, 1]⟩ ![0] hc dst (ix2 e (0 : Fin 1)) = dst (ix1 e) :=
    fun e => col_apply hc dst e 0
  rw [scatterAddRows_apply, zeros_apply]
  simp only [hf]
  refine congrArg (fun s => (0 : EReal) + s) (Finset.sum_congr rfl fun e _ => ?_)
  rw [mulf_apply, widen_apply, col_apply, gather_rows_apply (by norm_num)]
  rfl

end Aggregation

/-! ## The two programs' operations read at an index -/

section Programs

open Cert.Lib.ScatterGather

/-- The 16 × 128 product at (i, j): the sum over the 16 features k of x(i, k) · w(k, j). -/
theorem times16_apply (x : FVec Ideal Cert.ReferenceIdeal.S50000x16 .f32) (w : FVec Ideal Cert.ReferenceIdeal.S16x128 .f32)
    (i : Fin 50000) (j : Fin 128) :
    times16 (F := Ideal) x w (ix2 i j) = ∑ k : Fin 16, x (ix2 i k) * w (ix2 k j) := by
  have hD : Cert.ReferenceIdeal.dot_S50000x16_S16x128_S50000x128_1_0_0_1_n_n = DotDims.plain 50000 16 128 := rfl
  unfold times16
  rw [hD]
  exact Cert.MatOps.dotGeneral_plain_apply none x w i j

/-- The width-16 aggregation of the raw features at (i, k). -/
theorem agg16_apply (n : FVec Ideal Cert.KernelIdeal.S850000 .f32) (src dst : IVec Cert.KernelIdeal.S850000 32)
    (x : FVec Ideal Cert.KernelIdeal.S50000x16 .f32) (i : Fin 50000) (k : Fin 16) :
    agg16 (F := Ideal) n src dst x (ix2 i k)
      = 0 + ∑ e ∈ Finset.univ.filter (fun e : Fin 850000 => (dst (ix1 e)).toInt = (i.val : Int)),
          n (ix1 e) * x (ix2 (clampRow (wrapCol src) e) k) := by
  have hS : Cert.KernelIdeal.scatter_S50000x16_S850000x1_S850000x16_1_0_0_1
      = scatRowsDims 50000 16 850000 Cert.KernelIdeal.Gen.scatter_S50000x16_S850000x1_S850000x16_1_0_0_1_wf := rfl
  have hG : Cert.KernelIdeal.gather_S50000x16_S850000x1_S850000x16_1_0_n_n_0_1_116
      = rowsDims 50000 16 850000 Cert.KernelIdeal.Gen.gather_S50000x16_S850000x1_S850000x16_1_0_n_n_0_1_116_wf := rfl
  unfold agg16
  rw [hS, hG]
  exact agg_apply _ _ _ _ _ n (wrapCol src) dst x i k

/-- The width-128 aggregation of a node table at (i, j). -/
theorem agg128_apply (n : FVec Ideal Cert.ReferenceIdeal.S850000 .f32) (src dst : IVec Cert.ReferenceIdeal.S850000 32)
    (h : FVec Ideal Cert.ReferenceIdeal.S50000x128 .f32) (i : Fin 50000) (j : Fin 128) :
    agg128 (F := Ideal) n src dst h (ix2 i j)
      = 0 + ∑ e ∈ Finset.univ.filter (fun e : Fin 850000 => (dst (ix1 e)).toInt = (i.val : Int)),
          n (ix1 e) * h (ix2 (clampRow (wrapCol src) e) j) := by
  have hS : Cert.ReferenceIdeal.scatter_S50000x128_S850000x1_S850000x128_1_0_0_1
      = scatRowsDims 50000 128 850000 Cert.ReferenceIdeal.Gen.scatter_S50000x128_S850000x1_S850000x128_1_0_0_1_wf := rfl
  have hG : Cert.ReferenceIdeal.gather_S50000x128_S850000x1_S850000x128_1_0_n_n_0_1_1128
      = rowsDims 50000 128 850000 Cert.ReferenceIdeal.Gen.gather_S50000x128_S850000x1_S850000x128_1_0_n_n_0_1_1128_wf := rfl
  unfold agg128
  rw [hS, hG]
  exact agg_apply _ _ _ _ _ n (wrapCol src) dst h i j

end Programs

/-! ## The two arrangements agree -/

/-- Aggregating the raw features at width 16 and then multiplying by the 16 × 128 matrix is multiplying first and
    then aggregating at width 128, when every weight, feature and matrix entry is a real number. -/
theorem agg_linear (n : FVec Ideal Cert.KernelIdeal.S850000 .f32) (src dst : IVec Cert.KernelIdeal.S850000 32)
    (x : FVec Ideal Cert.KernelIdeal.S50000x16 .f32) (w : FVec Ideal Cert.KernelIdeal.S16x128 .f32)
    (hn : ∀ e, IsReal (n e)) (hx : ∀ i, IsReal (x i)) (hw : ∀ i, IsReal (w i)) :
    times16 (F := Ideal) (agg16 n src dst x) w = agg128 n src dst (times16 x w) := by
  funext idx
  obtain ⟨i, j, rfl⟩ : ∃ (i : Fin 50000) (j : Fin 128), idx = ix2 i j := ⟨idx 0, idx 1, eq_ix2 idx⟩
  rw [times16_apply, agg128_apply]
  simp only [agg16_apply, times16_apply]
  exact dot_agg _ (fun e => n (ix1 e)) (fun e k => x (ix2 (clampRow (wrapCol src) e) k)) (fun k => w (ix2 k j))
    (fun e => hn _) (fun e k => hx _) (fun k => hw _)

end Cert.Bridge.Linear

end
-- ==== Proof.Bridge.lean ====
/-
  The two networks agree on real inputs.

  The kernel's network and the reference's are the same composition of layers except in two places. The kernel
  lays each bias vector out as a row by reshaping it, the reference by broadcasting it along the row axis: the
  same row. And the first graph-convolution layer of the reference multiplies every node's sixteen features by
  the 16 × 128 matrix and then sums the products along the edges into each node, weighted by the edge weights,
  while the kernel sums the weighted raw features into each node first and multiplies the sums by the matrix
  afterwards. Moving the matrix across the weighted sum is linearity of a finite sum; on the extended reals it
  needs every factor — feature, matrix entry, edge weight — to be a real number, which the finiteness of the
  inputs gives (an edge weight is a product of an input weight with two reciprocal square roots of positive reals,
  or zeros).
-/
import proofs.«101641_j12704513261988_2_alg».proof.Proof.HostChain
import proofs.«101641_j12704513261988_2_alg».proof.Proof.Rows
import proofs.«101641_j12704513261988_2_alg».proof.Proof.AggLinear
import proofs.«101641_j12704513261988_2_alg».proof.Proof.Finite

noncomputable section

namespace Cert.Bridge

open Idealize.ShloMosaic Cert.ReferenceIdeal Cert.Lib.GnnLaws

/-- On inputs whose node features, edge weights and first matrix are real, the kernel's network and the
    reference's compute the same table. -/
theorem networks_agree
    (x0 : FVec Ideal S50000x16 .f32) (x1 : FVec Ideal S128x16 .f32) (x2 : IVec S2x800000 32) (x3 : IVec S50000 32)
    (x4 : FVec Ideal S800000 .f32) (x5 : FVec Ideal S16x128 .f32) (x6 : FVec Ideal S128 .f32) (x7 : FVec Ideal S128x128 .f32)
    (x8 : FVec Ideal S128 .f32) (x9 : FVec Ideal S128x128 .f32) (x10 : FVec Ideal S128 .f32) (x11 : FVec Ideal S128x128 .f32)
    (x12 : FVec Ideal S128 .f32) (x13 : FVec Ideal S16x128 .f32) (x14 : FVec Ideal S128 .f32) (x15 : FVec Ideal S128x128 .f32)
    (x16 : FVec Ideal S128 .f32) (x17 : FVec Ideal S128x128 .f32) (x18 : FVec Ideal S128 .f32) (x19 : FVec Ideal S256x128 .f32)
    (x20 : FVec Ideal S128 .f32) (x21 : FVec Ideal S128x128 .f32) (x22 : FVec Ideal S128 .f32) (x23 : FVec Ideal S128x128 .f32)
    (x24 : FVec Ideal S128 .f32)
    (h0 : ∀ i, IsReal (x0 i)) (h4 : ∀ i, IsReal (x4 i)) (h5 : ∀ i, IsReal (x5 i)) :
    kerOut (F := Ideal) x0 x1 x2 x3 x4 x5 x6 x7 x8 x9 x10 x11 x12 x13 x14 x15 x16 x17 x18 x19 x20 x21 x22 x23 x24 = refOut x0 x1 x2 x3 x4 x5 x6 x7 x8 x9 x10 x11 x12 x13 x14 x15 x16 x17 x18 x19 x20 x21 x22 x23 x24 := by
  have hrow : (rowCast : FVec Ideal Cert.KernelIdeal.S128 .f32 → FVec Ideal Cert.KernelIdeal.S1x128 .f32) = rowOf :=
    funext Rows.rowCast_eq
  unfold kerOut refOut
  rw [hrow, Linear.agg_linear (norm x2 x4) (srcF x2) (dstF x2) x0 x5 (Finite.norm_isReal x2 x4 h4) h0 h5]

end Cert.Bridge

end
-- ==== Proof.lean ====
/-
  The certificate of a graph-convolution network's fused kernel against its plain reference.

  The kernel computes a four-layer graph convolution over 50000 nodes and 850000 edges (self-loops included),
  pools the nodes per graph, runs a three-layer context stack beside it and a three-layer output stack on the two
  tables side by side. The host computes the per-edge weights and every aggregation along the edges; six regions
  compute the dense layers, each fused with the next layer's matrix product. Read with exact extended-real
  arithmetic the kernel and the reference are the same network except that the kernel's first layer aggregates
  the raw sixteen features and then multiplies by the first matrix, where the reference multiplies first: the two
  agree by linearity of the weighted sum, which on the extended reals needs the features, the edge weights and
  the matrix to be real numbers — what the precondition (every float input finite) provides.

  The three programs run without a fault and leave their arguments as launched; the idealized kernel is the
  kernel's own text read exactly (no operation was rewritten); and from memories agreeing on the arguments the
  idealized kernel and the idealized reference end with the same result table.
-/
import proofs.«101641_j12704513261988_2_alg».proof.Defs
import proofs.«101641_j12704513261988_2_alg».proof.Proof.Gen.Kernel
import proofs.«101641_j12704513261988_2_alg».proof.Proof.Gen.Kernel.Skeleton
import proofs.«101641_j12704513261988_2_alg».proof.Proof.Gen.Kernel.Launch
import proofs.«101641_j12704513261988_2_alg».proof.Proof.Gen.Kernel.Points
import proofs.«101641_j12704513261988_2_alg».proof.Proof.Gen.Kernel.Frame
import proofs.«101641_j12704513261988_2_alg».proof.Proof.Gen.KernelIdeal
import proofs.«101641_j12704513261988_2_alg».proof.Proof.Gen.KernelIdeal.Skeleton
import proofs.«101641_j12704513261988_2_alg».proof.Proof.Gen.KernelIdeal.Launch
import proofs.«101641_j12704513261988_2_alg».proof.Proof.Gen.KernelIdeal.Points
import proofs.«101641_j12704513261988_2_alg».proof.Proof.Gen.KernelIdeal.Frame
import proofs.«101641_j12704513261988_2_alg».proof.Proof.Gen.ReferenceIdeal
import proofs.«101641_j12704513261988_2_alg».proof.Proof.Gen.ReferenceIdeal.Run
import proofs.«101641_j12704513261988_2_alg».proof.Proof.Gen.Pre_finite_inputs
import proofs.«101641_j12704513261988_2_alg».proof.Proof.KernelRun
import proofs.«101641_j12704513261988_2_alg».proof.Proof.KernelValue
import proofs.«101641_j12704513261988_2_alg».proof.Proof.RefValue
import proofs.«101641_j12704513261988_2_alg».proof.Proof.Finite
import proofs.«101641_j12704513261988_2_alg».proof.Proof.Bridge
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments the two idealized programs end with the same result table: the
    kernel's is its network of its arguments, the reference's is its network of the same arrays, and on finite
    inputs the two networks agree. -/
theorem algebraic : Cert.algebraic_KernelIdeal_ReferenceIdeal := by
  intro m ρ m' ρ' hpre hagree
  refine ⟨fun c => Cert.ReferenceIdeal.Value.res_main_v148 m' c, ?_, Cert.ReferenceIdeal.Value.run (F := Ideal) m' ρ'⟩
  refine (θ_run Cert.KernelIdeal.defs _ _).mono (fun r h c => ⟨(h c).1.trans ?_, (h c).2⟩)
    (Cert.KernelIdeal.Valued.run_valued (F := Ideal) m ρ)
  show _ = Cert.ReferenceIdeal.Value.res_main_v148 m' c
  obtain ⟨h0, h4, h5⟩ := Cert.Bridge.Finite.finite_of_pre m hpre c
  obtain ⟨e0, e1, e2, e3, e4, e5, e6, e7, e8, e9, e10, e11, e12, e13, e14, e15, e16, e17, e18, e19, e20, e21, e22, e23, e24⟩ := hagree c
  rw [Cert.Bridge.KernelValue.result m ρ c,
    Cert.Bridge.networks_agree _ _ _ _ _ _ _ _ _ _ _ _ _ _ _ _ _ _ _ _ _ _ _ _ _ h0 h4 h5,
    Cert.Bridge.RefValue.result m' c, e0, e1, e2, e3, e4, e5, e6, e7, e8, e9, e10, e11, e12, e13, e14, e15, e16, e17, e18, e19, e20, e21, e22, e23, e24]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
